-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x21 : Shape := ⟨3, ![32, 256, 21]⟩
abbrev S32x256x64x2 : Shape := ⟨4, ![32, 256, 64, 2]⟩
abbrev S32x128x64x2 : Shape := ⟨4, ![32, 128, 64, 2]⟩
abbrev S32x128 : Shape := ⟨2, ![32, 128]⟩
abbrev S_ : Shape := ⟨0, ![]⟩

class Facts : Prop where
  bcast_S_S32x256x21 : S_.BroadcastsInDim S32x256x21 (![] : Fin 0 → Fin S32x256x21.rank)
  reducesTo_S32x256x21_S_d0_1_2 : S32x256x21.ReducesTo [0, 1, 2] S_
  h_S_ : 0 < S_.numel
  bcast_S_S32x256x64x2 : S_.BroadcastsInDim S32x256x64x2 (![] : Fin 0 → Fin S32x256x64x2.rank)
  reducesTo_S32x256x64x2_S_d0_1_2_3 : S32x256x64x2.ReducesTo [0, 1, 2, 3] S_
  bcast_S_S32x128x64x2 : S_.BroadcastsInDim S32x128x64x2 (![] : Fin 0 → Fin S32x128x64x2.rank)
  reducesTo_S32x128x64x2_S_d0_1_2_3 : S32x128x64x2.ReducesTo [0, 1, 2, 3] S_

variable [Facts]

def fn {F : FTy → Type} [FloatOps F] (main_arg0 : FVec F S32x256x21 .f32) (main_arg1 : FVec F S32x256x64x2 .f32) (main_arg2 : FVec F S32x128x64x2 .f32) (main_arg3 : IVec S32x128 32) (main_arg4 : IVec S32x128 32) : IVec S_ 1 :=
  let main_v0 : FVec F S32x256x21 .f32 := Host.absf main_arg0
  let main_cst : FVec F S_ .f32 := constant S_ .f32 0x7F800000#32
  let main_v1 : FVec F S32x256x21 .f32 := broadcastInDim S32x256x21 ![] bcast_S_S32x256x21 main_cst
  let main_v2 : IVec S32x256x21 1 := cmpf .olt main_v0 main_v1
  let main_c : IVec S_ 1 := constantI S_ 1 1#1
  let main_v3 : IVec S_ 1 := (fun x v => Host.reduce IntOp.andi x v reducesTo_S32x256x21_S_d0_1_2 h_S_) main_v2 main_c
  let main_v4 : FVec F S32x256x64x2 .f32 := Host.absf main_arg1
  let main_cst_0 : FVec F S_ .f32 := constant S_ .f32 0x7F800000#32
  let main_v5 : FVec F S32x256x64x2 .f32 := broadcastInDim S32x256x64x2 ![] bcast_S_S32x256x64x2 main_cst_0
  let main_v6 : IVec S32x256x64x2 1 := cmpf .olt main_v4 main_v5
  let main_c_1 : IVec S_ 1 := constantI S_ 1 1#1
  let main_v7 : IVec S_ 1 := (fun x v => Host.reduce IntOp.andi x v reducesTo_S32x256x64x2_S_d0_1_2_3 h_S_) main_v6 main_c_1
  let main_v8 : IVec S_ 1 := andi main_v3 main_v7
  let main_v9 : FVec F S32x128x64x2 .f32 := Host.absf main_arg2
  let main_cst_2 : FVec F S_ .f32 := constant S_ .f32 0x7F800000#32
  let main_v10 : FVec F S32x128x64x2 .f32 := broadcastInDim S32x128x64x2 ![] bcast_S_S32x128x64x2 main_cst_2
  let main_v11 : IVec S32x128x64x2 1 := cmpf .olt main_v9 main_v10
  let main_c_3 : IVec S_ 1 := constantI S_ 1 1#1
  let main_v12 : IVec S_ 1 := (fun x v => Host.reduce IntOp.andi x v reducesTo_S32x128x64x2_S_d0_1_2_3 h_S_) main_v11 main_c_3
  let main_v13 : IVec S_ 1 := andi main_v8 main_v12
  main_v13
-- ==== Kernel.lean ====
abbrev S32x256x21 : Shape := ⟨3, ![32, 256, 21]⟩
abbrev S32x256x64x2 : Shape := ⟨4, ![32, 256, 64, 2]⟩
abbrev S32x128x64x2 : Shape := ⟨4, ![32, 128, 64, 2]⟩
abbrev S32x128 : Shape := ⟨2, ![32, 128]⟩
abbrev S_ : Shape := ⟨0, ![]⟩
abbrev S32 : Shape := ⟨1, ![32]⟩
abbrev S32x1 : Shape := ⟨2, ![32, 1]⟩
abbrev S32x256 : Shape := ⟨2, ![32, 256]⟩
abbrev S32x128x1 : Shape := ⟨3, ![32, 128, 1]⟩
abbrev S32x128x2 : Shape := ⟨3, ![32, 128, 2]⟩
abbrev S32x256x1 : Shape := ⟨3, ![32, 256, 1]⟩
abbrev S32x256x1x1 : Shape := ⟨4, ![32, 256, 1, 1]⟩
abbrev S1 : Shape := ⟨1, ![1]⟩
abbrev S1x1x1x1 : Shape := ⟨4, ![1, 1, 1, 1]⟩
abbrev S32x128x64x1 : Shape := ⟨4, ![32, 128, 64, 1]⟩
abbrev S32x128x64 : Shape := ⟨3, ![32, 128, 64]⟩
abbrev S32x64x128 : Shape := ⟨3, ![32, 64, 128]⟩
abbrev S8x64x128 : Shape := ⟨3, ![8, 64, 128]⟩
abbrev S8x128 : Shape := ⟨2, ![8, 128]⟩
abbrev S8x64x1x128 : Shape := ⟨4, ![8, 64, 1, 128]⟩
abbrev S8x1x64x128 : Shape := ⟨4, ![8, 1, 64, 128]⟩
abbrev S8x64x64x128 : Shape := ⟨4, ![8, 64, 64, 128]⟩
abbrev S8x1x128 : Shape := ⟨3, ![8, 1, 128]⟩
abbrev S3 : Shape := ⟨1, ![3]⟩

abbrev nBuf : Space → Nat
  | .hbm => 117
  | .vmem => 12
  | .smem => 0
  | _ => 0

abbrev bufTy : (tb : Table) → Fin (tcTables nBuf tb) → BufTy
  | .hbm, ⟨0, _⟩ => ⟨S32x256x21, .f32⟩
  | .hbm, ⟨1, _⟩ => ⟨S32x256x64x2, .f32⟩
  | .hbm, ⟨2, _⟩ => ⟨S32x128x64x2, .f32⟩
  | .hbm, ⟨3, _⟩ => ⟨S32x128, .i32⟩
  | .hbm, ⟨4, _⟩ => ⟨S32x128, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32, .i32⟩
  | .hbm, ⟨9, _⟩ => ⟨S32x1, .i32⟩
  | .hbm, ⟨10, _⟩ => ⟨S_, .i32⟩
  | .hbm, ⟨11, _⟩ => ⟨S32x256, .i32⟩
  | .hbm, ⟨12, _⟩ => ⟨S_, .i32⟩
  | .hbm, ⟨13, _⟩ => ⟨S32x1, .i32⟩
  | .hbm, ⟨14, _⟩ => ⟨S32x1, .i1⟩
  | .hbm, ⟨15, _⟩ => ⟨S_, .i32⟩
  | .hbm, ⟨16, _⟩ => ⟨S32x1, .i32⟩
  | .hbm, ⟨17, _⟩ => ⟨S32x1, .i32⟩
  | .hbm, ⟨18, _⟩ => ⟨S32x1, .i32⟩
  | .hbm, ⟨19, _⟩ => ⟨S_, .i32⟩
  | .hbm, ⟨20, _⟩ => ⟨S32x128, .i32⟩
  | .hbm, ⟨21, _⟩ => ⟨S32x128, .i1⟩
  | .hbm, ⟨22, _⟩ => ⟨S_, .i32⟩
  | .hbm, ⟨23, _⟩ => ⟨S32x128, .i32⟩
  | .hbm, ⟨24, _⟩ => ⟨S32x128, .i32⟩
  | .hbm, ⟨25, _⟩ => ⟨S32x128, .i32⟩
  | .hbm, ⟨26, _⟩ => ⟨S32x128, .i32⟩
  | .hbm, ⟨27, _⟩ => ⟨S32x128x1, .i32⟩
  | .hbm, ⟨28, _⟩ => ⟨S32x128x1, .i32⟩
  | .hbm, ⟨29, _⟩ => ⟨S32x128x2, .i32⟩
  | .hbm, ⟨30, _⟩ => ⟨S32x256, .i32⟩
  | .hbm, ⟨31, _⟩ => ⟨S_, .f32⟩
  | .hbm, ⟨32, _⟩ => ⟨S32x256, .f32⟩
  | .hbm, ⟨33, _⟩ => ⟨S_, .f32⟩
  | .hbm, ⟨34, _⟩ => ⟨S32x256, .f32⟩
  | .hbm, ⟨35, _⟩ => ⟨S32x256, .f32⟩
  | .hbm, ⟨36, _⟩ => ⟨S32x256x1, .f32⟩
  | .hbm, ⟨37, _⟩ => ⟨S32x256x21, .f32⟩
  | .hbm, ⟨38, _⟩ => ⟨S32x256x21, .f32⟩
  | .hbm, ⟨39, _⟩ => ⟨S32x256x21, .f32⟩
  | .hbm, ⟨40, _⟩ => ⟨S_, .f32⟩
  | .hbm, ⟨41, _⟩ => ⟨S32x256, .f32⟩
  | .hbm, ⟨42, _⟩ => ⟨S32x256x1, .f32⟩
  | .hbm, ⟨43, _⟩ => ⟨S32x256x1, .f32⟩
  | .hbm, ⟨44, _⟩ => ⟨S32x256x21, .f32⟩
  | .hbm, ⟨45, _⟩ => ⟨S32x256x21, .f32⟩
  | .hbm, ⟨46, _⟩ => ⟨S32x256x1, .i32⟩
  | .hbm, ⟨47, _⟩ => ⟨S_, .i32⟩
  | .hbm, ⟨48, _⟩ => ⟨S32x256x1, .i32⟩
  | .hbm, ⟨49, _⟩ => ⟨S32x256x1, .i1⟩
  | .hbm, ⟨50, _⟩ => ⟨S_, .i32⟩
  | .hbm, ⟨51, _⟩ => ⟨S32x256x1, .i32⟩
  | .hbm, ⟨52, _⟩ => ⟨S32x256x1, .i32⟩
  | .hbm, ⟨53, _⟩ => ⟨S32x256x1, .i32⟩
  | .hbm, ⟨54, _⟩ => ⟨S32x256x1x1, .i32⟩
  | .hbm, ⟨55, _⟩ => ⟨S1, .i32⟩
  | .hbm, ⟨56, _⟩ => ⟨S_, .i32⟩
  | .hbm, ⟨57, _⟩ => ⟨S32x256x1x1, .i32⟩
  | .hbm, ⟨58, _⟩ => ⟨S32x256x1x1, .i1⟩
  | .hbm, ⟨59, _⟩ => ⟨S1x1x1x1, .i32⟩
  | .hbm, ⟨60, _⟩ => ⟨S32x256x1x1, .i32⟩
  | .hbm, ⟨61, _⟩ => ⟨S32x256x1x1, .i1⟩
  | .hbm, ⟨62, _⟩ => ⟨S32x256x1x1, .i1⟩
  | .hbm, ⟨63, _⟩ => ⟨S_, .i1⟩
  | .hbm, ⟨64, _⟩ => ⟨S32x256x1, .i1⟩
  | .hbm, ⟨65, _⟩ => ⟨S32x256x1, .f32⟩
  | .hbm, ⟨66, _⟩ => ⟨S_, .f32⟩
  | .hbm, ⟨67, _⟩ => ⟨S32x256x1, .f32⟩
  | .hbm, ⟨68, _⟩ => ⟨S32x256x1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i32⟩
  | .hbm, ⟨75, _⟩ => ⟨S32x1, .i32⟩
  | .hbm, ⟨76, _⟩ => ⟨S32x1, .i1⟩
  | .hbm, ⟨77, _⟩ => ⟨S_, .i32⟩
  | .hbm, ⟨78, _⟩ => ⟨S32x1, .i32⟩
  | .hbm, ⟨79, _⟩ => ⟨S32x1, .i32⟩
  | .hbm, ⟨80, _⟩ => ⟨S32x1, .i32⟩
  | .hbm, ⟨81, _⟩ => ⟨S_, .i32⟩
  | .hbm, ⟨82, _⟩ => ⟨S32x128, .i32⟩
  | .hbm, ⟨83, _⟩ => ⟨S32x128, .i1⟩
  | .hbm, ⟨84, _⟩ => ⟨S_, .i32⟩
  | .hbm, ⟨85, _⟩ => ⟨S32x128, .i32⟩
  | .hbm, ⟨86, _⟩ => ⟨S32x128, .i32⟩
  | .hbm, ⟨87, _⟩ => ⟨S32x128, .i32⟩
  | .hbm, ⟨88, _⟩ => ⟨S32x128, .i32⟩
  | .hbm, ⟨89, _⟩ => ⟨S32x128x1, .i32⟩
  | .hbm, ⟨90, _⟩ => ⟨S32x128x1, .i32⟩
  | .hbm, ⟨91, _⟩ => ⟨S32x128x2, .i32⟩
  | .hbm, ⟨92, _⟩ => ⟨S32x128x64x2, .f32⟩
  | .hbm, ⟨93, _⟩ => ⟨S32x128x64x1, .f32⟩
  | .hbm, ⟨94, _⟩ => ⟨S32x128x64, .f32⟩
  | .hbm, ⟨95, _⟩ => ⟨S32x64x128, .f32⟩
  | .hbm, ⟨96, _⟩ => ⟨S32x128x64x1, .f32⟩
  | .hbm, ⟨97, _⟩ => ⟨S32x128x64, .f32⟩
  | .hbm, ⟨98, _⟩ => ⟨S32x64x128, .f32⟩
  | .hbm, ⟨99, _⟩ => ⟨S32x128x64x1, .f32⟩
  | .hbm, ⟨100, _⟩ => ⟨S32x128x64, .f32⟩
  | .hbm, ⟨101, _⟩ => ⟨S32x64x128, .f32⟩
  | .hbm, ⟨102, _⟩ => ⟨S32x128x64x1, .f32⟩
  | .hbm, ⟨103, _⟩ => ⟨S32x128x64, .f32⟩
  | .hbm, ⟨104, _⟩ => ⟨S32x64x128, .f32⟩
  | .hbm, ⟨105, _⟩ => ⟨S32x128, .f32⟩
  | .hbm, ⟨106, _⟩ => ⟨S32x128, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S1, .f32⟩
  | .hbm, ⟨114, _⟩ => ⟨S1, .f32⟩
  | .hbm, ⟨115, _⟩ => ⟨S1, .f32⟩
  | .hbm, ⟨116, _⟩ => ⟨S3, .f32⟩
  | .local _ .vmem, ⟨0, _⟩ => ⟨S8x64x128, .f32⟩
  | .local _ .vmem, ⟨1, _⟩ => ⟨S8x64x128, .f32⟩
  | .local _ .vmem, ⟨2, _⟩ => ⟨S8x64x128, .f32⟩
  | .local _ .vmem, ⟨3, _⟩ => ⟨S8x64x128, .f32⟩
  | .local _ .vmem, ⟨4, _⟩ => ⟨S8x64x128, .f32⟩
  | .local _ .vmem, ⟨5, _⟩ => ⟨S8x64x128, .f32⟩
  | .local _ .vmem, ⟨6, _⟩ => ⟨S8x64x128, .f32⟩
  | .local _ .vmem, ⟨7, _⟩ => ⟨S8x64x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | _, _ => ⟨S32x256x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_cst_0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_cst_1 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_v19 : Ref sig .tc := ⟨.hbm, 45, rfl⟩
abbrev main_v20 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v21 : Ref sig .tc := ⟨.hbm, 68, rfl⟩
abbrev main_cst_5 : Ref sig .tc := ⟨.hbm, 69, rfl⟩
abbrev main_v22 : Ref sig .tc := ⟨.hbm, 70, rfl⟩
abbrev main_cst_6 : Ref sig .tc := ⟨.hbm, 71, rfl⟩
abbrev main_v23 : Ref sig .tc := ⟨.hbm, 72, rfl⟩
abbrev main_v24 : Ref sig .tc := ⟨.hbm, 73, rfl⟩
abbrev main_c_7 : Ref sig .tc := ⟨.hbm, 74, rfl⟩
abbrev main_v25 : Ref sig .tc := ⟨.hbm, 75, rfl⟩
abbrev main_v26 : Ref sig .tc := ⟨.hbm, 76, rfl⟩
abbrev main_c_8 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_c_9 : Ref sig .tc := ⟨.hbm, 81, rfl⟩
abbrev main_v30 : Ref sig .tc := ⟨.hbm, 82, rfl⟩
abbrev main_v31 : Ref sig .tc := ⟨.hbm, 83, rfl⟩
abbrev main_c_10 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52_0 : Ref sig .tc := ⟨.hbm, 105, rfl⟩
abbrev main_v52_1 : Ref sig .tc := ⟨.hbm, 106, rfl⟩
abbrev main_cst_11 : Ref sig .tc := ⟨.hbm, 107, rfl⟩
abbrev main_v53 : Ref sig .tc := ⟨.hbm, 108, rfl⟩
abbrev main_v54 : Ref sig .tc := ⟨.hbm, 109, rfl⟩
abbrev main_cst_12 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S32_S32x1_0 : S32.BroadcastsInDim S32x1 (![0] : Fin 1 → Fin S32x1.rank)
  bcast_S_S32x256 : S_.BroadcastsInDim S32x256 (![] : Fin 0 → Fin S32x256.rank)
  bcast_S_S32x1 : S_.BroadcastsInDim S32x1 (![] : Fin 0 → Fin S32x1.rank)
  bcast_S_S32x128 : S_.BroadcastsInDim S32x128 (![] : Fin 0 → Fin S32x128.rank)
  bcast_S32x1_S32x128_0_1 : S32x1.BroadcastsInDim S32x128 (![0, 1] : Fin 2 → Fin S32x128.rank)
  bcast_S32x128_S32x128x1_0_1 : S32x128.BroadcastsInDim S32x128x1 (![0, 1] : Fin 2 → Fin S32x128x1.rank)
  concatenates_S32x128x1_S32x128x1_S32x128x2_d2 : Shape.Concatenates [S32x128x1, S32x128x1] S32x128x2 2
  reducesTo_S32x256x21_S32x256_d2 : S32x256x21.ReducesTo [2] S32x256
  h_S_ : 0 < S_.numel
  bcast_S32x256_S32x256x1_0_1 : S32x256.BroadcastsInDim S32x256x1 (![0, 1] : Fin 2 → Fin S32x256x1.rank)
  bcast_S32x256x1_S32x256x21_0_1_2 : S32x256x1.BroadcastsInDim S32x256x21 (![0, 1, 2] : Fin 3 → Fin S32x256x21.rank)
  bcast_S_S32x256x1 : S_.BroadcastsInDim S32x256x1 (![] : Fin 0 → Fin S32x256x1.rank)
  shapeCasts_S32x256x1_S32x256x1x1 : S32x256x1.ShapeCasts S32x256x1x1
  bcast_S_S32x256x1x1 : S_.BroadcastsInDim S32x256x1x1 (![] : Fin 0 → Fin S32x256x1x1.rank)
  bcast_S1_S1x1x1x1_3 : S1.BroadcastsInDim S1x1x1x1 (![3] : Fin 1 → Fin S1x1x1x1.rank)
  bcast_S1x1x1x1_S32x256x1x1_0_1_2_3 : S1x1x1x1.BroadcastsInDim S32x256x1x1 (![0, 1, 2, 3] : Fin 4 → Fin S32x256x1x1.rank)
  reducesTo_S32x256x1x1_S32x256x1_d3 : S32x256x1x1.ReducesTo [3] S32x256x1
  reducesTo_S32x256x1_S_d0_1_2 : S32x256x1.ReducesTo [0, 1, 2] S_
  slices_S32x128x64x2_S32x128x64x1_0_0_0_0 : S32x128x64x2.Slices ![0, 0, 0, 0] S32x128x64x1
  shapeCasts_S32x128x64x1_S32x128x64 : S32x128x64x1.ShapeCasts S32x128x64
  transposes_S32x128x64_S32x64x128_0_2_1 : S32x128x64.Transposes [0, 2, 1] S32x64x128
  slices_S32x128x64x2_S32x128x64x1_0_0_0_1 : S32x128x64x2.Slices ![0, 0, 0, 1] S32x128x64x1
  inb_S8x64x128_S8x64x128_0_0_0 : ∀ a, (![0, 0, 0] : Fin 3 → Nat) a + S8x64x128.size a ≤ S8x64x128.size a
  h_S8x64x128 : 0 < S8x64x128.numel
  shapeCasts_S8x64x128_S8x64x128 : S8x64x128.ShapeCasts S8x64x128
  shapeCasts_S8x64x128_S8x64x1x128 : S8x64x128.ShapeCasts S8x64x1x128
  shapeCasts_S8x64x128_S8x1x64x128 : S8x64x128.ShapeCasts S8x1x64x128
  broadcasts_S8x64x1x128_S8x64x64x128 : S8x64x1x128.Broadcasts S8x64x64x128
  broadcasts_S8x1x64x128_S8x64x64x128 : S8x1x64x128.Broadcasts S8x64x64x128
  reduces_S8x64x64x128_S8x64x128 : S8x64x64x128.Reduces [1] S8x64x128
  reduces_S8x64x128_S8x128 : S8x64x128.Reduces [1] S8x128
  reduces_S8x64x64x128_S8x64x128_2 : S8x64x64x128.Reduces [2] S8x64x128
  inb_S8x128_S8x128_0_0 : ∀ a, (![0, 0] : Fin 2 → Nat) a + S8x128.size a ≤ S8x128.size a
  h_S8x128 : 0 < S8x128.numel
  slices_S8x64x128_o0_63_0_S8x1x128 : S8x64x128.Slices ![0, 63, 0] S8x1x128
  shapeCasts_S8x1x128_S8x128 : S8x1x128.ShapeCasts S8x128
  slices_S8x64x128_o0_0_0_S8x1x128 : S8x64x128.Slices ![0, 0, 0] S8x1x128
  reducesTo_S32x128_S_d0_1 : S32x128.ReducesTo [0, 1] S_
  bcast_S_S1 : S_.BroadcastsInDim S1 (![] : Fin 0 → Fin S1.rank)
  concatenates_S1_S1_S1_S3_d0 : Shape.Concatenates [S1, S1, S1] S3 0
  scatter_S32x256_S32x128x2_S32x128_n_01_01_2_wf : ScatterDims.WF S32x256 S32x128x2 S32x128 [] [0, 1] [0, 1] 2
  gather_S32x256x21_S32x256x1x1_S32x256x1_n_2_01_01_2_3_111_wf : GatherDims.WF S32x256x21 S32x256x1x1 S32x256x1 [] [2] [0, 1] [2] [0, 1] 3 ![1, 1, 1]
  gather_S32x256x64x2_S32x128x2_S32x128x64x2_23_01_n_n_01_2_11642_wf : GatherDims.WF S32x256x64x2 S32x128x2 S32x128x64x2 [2, 3] [0, 1] [] [0, 1] [] 2 ![1, 1, 64, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x128.size a ≤ S32x64x128.size a
  hwx0_0 : ∀ i : grid0.Coords, EltTy.bits .f32 = 32 ∨ (Rect.block (s := S32x64x128) S8x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x128.size a ≤ S32x64x128.size a
  hwx0_1 : ∀ i : grid0.Coords, EltTy.bits .f32 = 32 ∨ (Rect.block (s := S32x64x128) S8x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x128.size a ≤ S32x64x128.size a
  hwx0_2 : ∀ i : grid0.Coords, EltTy.bits .f32 = 32 ∨ (Rect.block (s := S32x64x128) S8x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x128.size a ≤ S32x64x128.size a
  hwx0_3 : ∀ i : grid0.Coords, EltTy.bits .f32 = 32 ∨ (Rect.block (s := S32x64x128) S8x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S32x128.size a
  hwx0_5 : ∀ i : grid0.Coords, EltTy.bits .f32 = 32 ∨ (Rect.block (s := S32x128) S8x128.size (cc0_transform_5 i) (hinb0_5 i)).WholeWords (EltTy.packing .f32)

variable [Facts₀]

def scatter_S32x256_S32x128x2_S32x128_n_01_01_2 : ScatterDims S32x256 S32x128x2 S32x128 where
  updateWindowDims := []
  insertedWindowDims := [0, 1]
  scatterDimsToOperandDims := [0, 1]
  indexVectorDim := 2
  wf := scatter_S32x256_S32x128x2_S32x128_n_01_01_2_wf
def gather_S32x256x21_S32x256x1x1_S32x256x1_n_2_01_01_2_3_111 : GatherDims S32x256x21 S32x256x1x1 S32x256x1 where
  offsetDims := []
  collapsedSliceDims := [2]
  operandBatchingDims := [0, 1]
  startIndicesBatchingDims := [0, 1]
  startIndexMap := [2]
  indexVectorDim := 3
  sliceSizes := ![1, 1, 1]
  wf := gather_S32x256x21_S32x256x1x1_S32x256x1_n_2_01_01_2_3_111_wf
def gather_S32x256x64x2_S32x128x2_S32x128x64x2_23_01_n_n_01_2_11642 : GatherDims S32x256x64x2 S32x128x2 S32x128x64x2 where
  offsetDims := [2, 3]
  collapsedSliceDims := [0, 1]
  operandBatchingDims := []
  startIndicesBatchingDims := []
  startIndexMap := [0, 1]
  indexVectorDim := 2
  sliceSizes := ![1, 1, 64, 2]
  wf := gather_S32x256x64x2_S32x128x2_S32x128x64x2_23_01_n_n_01_2_11642_wf

abbrev win0_0 : Pipeline.Window sig grid0 :=
  Pipeline.Window.ofSpec (Memref.whole main_v42) S8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S8x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S8x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S8x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x21 : Shape := ⟨3, ![32, 256, 21]⟩
abbrev S32x256x64x2 : Shape := ⟨4, ![32, 256, 64, 2]⟩
abbrev S32x128x64x2 : Shape := ⟨4, ![32, 128, 64, 2]⟩
abbrev S32x128 : Shape := ⟨2, ![32, 128]⟩
abbrev S_ : Shape := ⟨0, ![]⟩
abbrev S32 : Shape := ⟨1, ![32]⟩
abbrev S32x1 : Shape := ⟨2, ![32, 1]⟩
abbrev S32x256 : Shape := ⟨2, ![32, 256]⟩
abbrev S32x128x1 : Shape := ⟨3, ![32, 128, 1]⟩
abbrev S32x128x2 : Shape := ⟨3, ![32, 128, 2]⟩
abbrev S32x256x1 : Shape := ⟨3, ![32, 256, 1]⟩
abbrev S32x256x1x1 : Shape := ⟨4, ![32, 256, 1, 1]⟩
abbrev S1 : Shape := ⟨1, ![1]⟩
abbrev S1x1x1x1 : Shape := ⟨4, ![1, 1, 1, 1]⟩
abbrev S32x128x64x1x2 : Shape := ⟨5, ![32, 128, 64, 1, 2]⟩
abbrev S32x128x1x64x2 : Shape := ⟨5, ![32, 128, 1, 64, 2]⟩
abbrev S32x128x64x64x2 : Shape := ⟨5, ![32, 128, 64, 64, 2]⟩
abbrev S32x128x64x64 : Shape := ⟨4, ![32, 128, 64, 64]⟩
abbrev S32x128x64 : Shape := ⟨3, ![32, 128, 64]⟩
abbrev S32x128x1x2 : Shape := ⟨4, ![32, 128, 1, 2]⟩
abbrev S3 : Shape := ⟨1, ![3]⟩

abbrev nBuf : Space → Nat
  | .hbm => 165
  | .vmem => 0
  | .smem => 0
  | _ => 0

abbrev hbmTy0_0 (i : Nat) : BufTy := match i % 128 with
  | 0 => ⟨S32x256x21, .f32⟩
  | 1 => ⟨S32x256x64x2, .f32⟩
  | 2 => ⟨S32x128x64x2, .f32⟩
  | 3 => ⟨S32x128, .i32⟩
  | 4 => ⟨S32x128, .i32⟩
  | 5 => ⟨S_, .f32⟩
  | 6 => ⟨S_, .f32⟩
  | 7 => ⟨S_, .f32⟩
  | 8 => ⟨S32, .i32⟩
  | 9 => ⟨S32x1, .i32⟩
  | 10 => ⟨S_, .i32⟩
  | 11 => ⟨S32x256, .i32⟩
  | 12 => ⟨S_, .i32⟩
  | 13 => ⟨S32x1, .i32⟩
  | 14 => ⟨S32x1, .i1⟩
  | 15 => ⟨S_, .i32⟩
  | 16 => ⟨S32x1, .i32⟩
  | 17 => ⟨S32x1, .i32⟩
  | 18 => ⟨S32x1, .i32⟩
  | 19 => ⟨S_, .i32⟩
  | 20 => ⟨S32x128, .i32⟩
  | 21 => ⟨S32x128, .i1⟩
  | 22 => ⟨S_, .i32⟩
  | 23 => ⟨S32x128, .i32⟩
  | 24 => ⟨S32x128, .i32⟩
  | 25 => ⟨S32x128, .i32⟩
  | 26 => ⟨S32x128, .i32⟩
  | 27 => ⟨S32x128x1, .i32⟩
  | 28 => ⟨S32x128x1, .i32⟩
  | 29 => ⟨S32x128x2, .i32⟩
  | 30 => ⟨S32x256, .i32⟩
  | 31 => ⟨S_, .f32⟩
  | 32 => ⟨S32x256, .f32⟩
  | 33 => ⟨S_, .f32⟩
  | 34 => ⟨S32x256, .f32⟩
  | 35 => ⟨S32x256, .f32⟩
  | 36 => ⟨S32x256x1, .f32⟩
  | 37 => ⟨S32x256x21, .f32⟩
  | 38 => ⟨S32x256x21, .f32⟩
  | 39 => ⟨S32x256x21, .f32⟩
  | 40 => ⟨S_, .f32⟩
  | 41 => ⟨S32x256, .f32⟩
  | 42 => ⟨S32x256x1, .f32⟩
  | 43 => ⟨S32x256x1, .f32⟩
  | 44 => ⟨S32x256x21, .f32⟩
  | 45 => ⟨S32x256x21, .f32⟩
  | 46 => ⟨S32x256x1, .i32⟩
  | 47 => ⟨S_, .i32⟩
  | 48 => ⟨S32x256x1, .i32⟩
  | 49 => ⟨S32x256x1, .i1⟩
  | 50 => ⟨S_, .i32⟩
  | 51 => ⟨S32x256x1, .i32⟩
  | 52 => ⟨S32x256x1, .i32⟩
  | 53 => ⟨S32x256x1, .i32⟩
  | 54 => ⟨S32x256x1x1, .i32⟩
  | 55 => ⟨S1, .i32⟩
  | 56 => ⟨S_, .i32⟩
  | 57 => ⟨S32x256x1x1, .i32⟩
  | 58 => ⟨S32x256x1x1, .i1⟩
  | 59 => ⟨S1x1x1x1, .i32⟩
  | 60 => ⟨S32x256x1x1, .i32⟩
  | 61 => ⟨S32x256x1x1, .i1⟩
  | 62 => ⟨S32x256x1x1, .i1⟩
  | 63 => ⟨S_, .i1⟩
  | 64 => ⟨S32x256x1, .i1⟩
  | 65 => ⟨S32x256x1, .f32⟩
  | 66 => ⟨S_, .f32⟩
  | 67 => ⟨S32x256x1, .f32⟩
  | 68 => ⟨S32x256x1, .f32⟩
  | 69 => ⟨S_, .f32⟩
  | 70 => ⟨S_, .f32⟩
  | 71 => ⟨S_, .f32⟩
  | 72 => ⟨S_, .f32⟩
  | 73 => ⟨S_, .f32⟩
  | 74 => ⟨S_, .i32⟩
  | 75 => ⟨S32x1, .i32⟩
  | 76 => ⟨S32x1, .i1⟩
  | 77 => ⟨S_, .i32⟩
  | 78 => ⟨S32x1, .i32⟩
  | 79 => ⟨S32x1, .i32⟩
  | 80 => ⟨S32x1, .i32⟩
  | 81 => ⟨S_, .i32⟩
  | 82 => ⟨S32x128, .i32⟩
  | 83 => ⟨S32x128, .i1⟩
  | 84 => ⟨S_, .i32⟩
  | 85 => ⟨S32x128, .i32⟩
  | 86 => ⟨S32x128, .i32⟩
  | 87 => ⟨S32x128, .i32⟩
  | 88 => ⟨S32x128, .i32⟩
  | 89 => ⟨S32x128x1, .i32⟩
  | 90 => ⟨S32x128x1, .i32⟩
  | 91 => ⟨S32x128x2, .i32⟩
  | 92 => ⟨S32x128x64x2, .f32⟩
  | 93 => ⟨S32x128x64x1x2, .f32⟩
  | 94 => ⟨S32x128x1x64x2, .f32⟩
  | 95 => ⟨S32x128x64x64x2, .f32⟩
  | 96 => ⟨S32x128x64x64x2, .f32⟩
  | 97 => ⟨S32x128x64x64x2, .f32⟩
  | 98 => ⟨S32x128x64x64x2, .f32⟩
  | 99 => ⟨S_, .f32⟩
  | 100 => ⟨S32x128x64x64, .f32⟩
  | 101 => ⟨S_, .f32⟩
  | 102 => ⟨S32x128x64, .f32⟩
  | 103 => ⟨S_, .f32⟩
  | 104 => ⟨S32x128, .f32⟩
  | 105 => ⟨S_, .f32⟩
  | 106 => ⟨S32x128, .f32⟩
  | 107 => ⟨S32x128, .f32⟩
  | 108 => ⟨S_, .f32⟩
  | 109 => ⟨S32x128x64, .f32⟩
  | 110 => ⟨S_, .f32⟩
  | 111 => ⟨S32x128, .f32⟩
  | 112 => ⟨S_, .f32⟩
  | 113 => ⟨S32x128, .f32⟩
  | 114 => ⟨S32x128, .f32⟩
  | 115 => ⟨S32x128, .f32⟩
  | 116 => ⟨S_, .f32⟩
  | 117 => ⟨S32x128, .f32⟩
  | 118 => ⟨S32x128, .f32⟩
  | 119 => ⟨S_, .f32⟩
  | 120 => ⟨S_, .f32⟩
  | 121 => ⟨S_, .f32⟩
  | 122 => ⟨S32x128x1x2, .f32⟩
  | 123 => ⟨S32x128x2, .f32⟩
  | 124 => ⟨S32x128x1x2, .f32⟩
  | 125 => ⟨S32x128x2, .f32⟩
  | 126 => ⟨S32x128x2, .f32⟩
  | 127 => ⟨S32x128x1x2, .f32⟩
  | _ => ⟨S32x256x21, .f32⟩

abbrev hbmTy0_1 (i : Nat) : BufTy := match i % 128 with
  | 0 => ⟨S32x128x2, .f32⟩
  | 1 => ⟨S32x128x1x2, .f32⟩
  | 2 => ⟨S32x128x2, .f32⟩
  | 3 => ⟨S32x128x2, .f32⟩
  | 4 => ⟨S32x128x2, .f32⟩
  | 5 => ⟨S_, .f32⟩
  | 6 => ⟨S32x128, .f32⟩
  | 7 => ⟨S32x128x1, .f32⟩
  | 8 => ⟨S32x128x1, .f32⟩
  | 9 => ⟨S_, .f32⟩
  | 10 => ⟨S32x128x1, .f32⟩
  | 11 => ⟨S32x128x1, .f32⟩
  | 12 => ⟨S32x128x2, .f32⟩
  | 13 => ⟨S32x128x2, .f32⟩
  | 14 => ⟨S32x128x2, .f32⟩
  | 15 => ⟨S_, .f32⟩
  | 16 => ⟨S32x128, .f32⟩
  | 17 => ⟨S32x128x1, .f32⟩
  | 18 => ⟨S32x128x1, .f32⟩
  | 19 => ⟨S_, .f32⟩
  | 20 => ⟨S32x128x1, .f32⟩
  | 21 => ⟨S32x128x1, .f32⟩
  | 22 => ⟨S32x128x2, .f32⟩
  | 23 => ⟨S32x128x2, .f32⟩
  | 24 => ⟨S32x128x2, .f32⟩
  | 25 => ⟨S_, .f32⟩
  | 26 => ⟨S32x128, .f32⟩
  | 27 => ⟨S_, .f32⟩
  | 28 => ⟨S32x128, .f32⟩
  | 29 => ⟨S32x128, .f32⟩
  | 30 => ⟨S_, .f32⟩
  | 31 => ⟨S_, .f32⟩
  | 32 => ⟨S_, .f32⟩
  | 33 => ⟨S1, .f32⟩
  | 34 => ⟨S1, .f32⟩
  | 35 => ⟨S1, .f32⟩
  | 36 => ⟨S3, .f32⟩
  | _ => ⟨S32x256x21, .f32⟩

abbrev hbmTy (i : Nat) : BufTy := match i / 128 with
  | 0 => hbmTy0_0 i
  | 1 => hbmTy0_1 i
  | _ => ⟨S32x256x21, .f32⟩

abbrev bufTy : (tb : Table) → Fin (tcTables nBuf tb) → BufTy
  | .hbm, ⟨i, _⟩ => hbmTy i
  | _, _ => ⟨S32x256x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_cst_0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_cst_1 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_v19 : Ref sig .tc := ⟨.hbm, 45, rfl⟩
abbrev main_v20 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v21 : Ref sig .tc := ⟨.hbm, 68, rfl⟩
abbrev main_cst_5 : Ref sig .tc := ⟨.hbm, 69, rfl⟩
abbrev main_v22 : Ref sig .tc := ⟨.hbm, 70, rfl⟩
abbrev main_cst_6 : Ref sig .tc := ⟨.hbm, 71, rfl⟩
abbrev main_v23 : Ref sig .tc := ⟨.hbm, 72, rfl⟩
abbrev main_v24 : Ref sig .tc := ⟨.hbm, 73, rfl⟩
abbrev main_c_7 : Ref sig .tc := ⟨.hbm, 74, rfl⟩
abbrev main_v25 : Ref sig .tc := ⟨.hbm, 75, rfl⟩
abbrev main_v26 : Ref sig .tc := ⟨.hbm, 76, rfl⟩
abbrev main_c_8 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_c_9 : Ref sig .tc := ⟨.hbm, 81, rfl⟩
abbrev main_v30 : Ref sig .tc := ⟨.hbm, 82, rfl⟩
abbrev main_v31 : Ref sig .tc := ⟨.hbm, 83, rfl⟩
abbrev main_c_10 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_11 : Ref sig .tc := ⟨.hbm, 99, rfl⟩
abbrev main_v46 : Ref sig .tc := ⟨.hbm, 100, rfl⟩
abbrev main_cst_12 : Ref sig .tc := ⟨.hbm, 101, rfl⟩
abbrev main_v47 : Ref sig .tc := ⟨.hbm, 102, rfl⟩
abbrev main_cst_13 : Ref sig .tc := ⟨.hbm, 103, rfl⟩
abbrev main_v48 : Ref sig .tc := ⟨.hbm, 104, rfl⟩
abbrev main_cst_14 : Ref sig .tc := ⟨.hbm, 105, rfl⟩
abbrev main_v49 : Ref sig .tc := ⟨.hbm, 106, rfl⟩
abbrev main_v50 : Ref sig .tc := ⟨.hbm, 107, rfl⟩
abbrev main_cst_15 : Ref sig .tc := ⟨.hbm, 108, rfl⟩
abbrev main_v51 : Ref sig .tc := ⟨.hbm, 109, rfl⟩
abbrev main_cst_16 : Ref sig .tc := ⟨.hbm, 110, rfl⟩
abbrev main_v52 : Ref sig .tc := ⟨.hbm, 111, rfl⟩
abbrev main_cst_17 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_18 : Ref sig .tc := ⟨.hbm, 116, rfl⟩
abbrev main_v56 : Ref sig .tc := ⟨.hbm, 117, rfl⟩
abbrev main_v57 : Ref sig .tc := ⟨.hbm, 118, rfl⟩
abbrev main_cst_19 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_call2_v0 : Ref sig .tc := ⟨.hbm, 132, rfl⟩
abbrev main_call2_cst : Ref sig .tc := ⟨.hbm, 133, rfl⟩
abbrev main_call2_v1 : Ref sig .tc := ⟨.hbm, 134, rfl⟩
abbrev main_call2_v2 : Ref sig .tc := ⟨.hbm, 135, rfl⟩
abbrev main_v70 : Ref sig .tc := ⟨.hbm, 136, rfl⟩
abbrev main_cst_20 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_call3_v0 : Ref sig .tc := ⟨.hbm, 142, rfl⟩
abbrev main_call3_cst : Ref sig .tc := ⟨.hbm, 143, rfl⟩
abbrev main_call3_v1 : Ref sig .tc := ⟨.hbm, 144, rfl⟩
abbrev main_call3_v2 : Ref sig .tc := ⟨.hbm, 145, rfl⟩
abbrev main_v75 : Ref sig .tc := ⟨.hbm, 146, rfl⟩
abbrev main_cst_21 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_22 : Ref sig .tc := ⟨.hbm, 153, rfl⟩
abbrev main_v81 : Ref sig .tc := ⟨.hbm, 154, rfl⟩
abbrev main_cst_23 : Ref sig .tc := ⟨.hbm, 155, rfl⟩
abbrev main_v82 : Ref sig .tc := ⟨.hbm, 156, rfl⟩
abbrev main_v83 : Ref sig .tc := ⟨.hbm, 157, rfl⟩
abbrev main_cst_24 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S_S32x256 : S_.BroadcastsInDim S32x256 (![] : Fin 0 → Fin S32x256.rank)
  bcast_S_S32x1 : S_.BroadcastsInDim S32x1 (![] : Fin 0 → Fin S32x1.rank)
  bcast_S_S32x128 : S_.BroadcastsInDim S32x128 (![] : Fin 0 → Fin S32x128.rank)
  bcast_S32x1_S32x128_0_1 : S32x1.BroadcastsInDim S32x128 (![0, 1] : Fin 2 → Fin S32x128.rank)
  bcast_S32x128_S32x128x1_0_1 : S32x128.BroadcastsInDim S32x128x1 (![0, 1] : Fin 2 → Fin S32x128x1.rank)
  concatenates_S32x128x1_S32x128x1_S32x128x2_d2 : Shape.Concatenates [S32x128x1, S32x128x1] S32x128x2 2
  reducesTo_S32x256x21_S32x256_d2 : S32x256x21.ReducesTo [2] S32x256
  h_S_ : 0 < S_.numel
  bcast_S32x256_S32x256x1_0_1 : S32x256.BroadcastsInDim S32x256x1 (![0, 1] : Fin 2 → Fin S32x256x1.rank)
  bcast_S32x256x1_S32x256x21_0_1_2 : S32x256x1.BroadcastsInDim S32x256x21 (![0, 1, 2] : Fin 3 → Fin S32x256x21.rank)
  bcast_S_S32x256x1 : S_.BroadcastsInDim S32x256x1 (![] : Fin 0 → Fin S32x256x1.rank)
  shapeCasts_S32x256x1_S32x256x1x1 : S32x256x1.ShapeCasts S32x256x1x1
  bcast_S_S32x256x1x1 : S_.BroadcastsInDim S32x256x1x1 (![] : Fin 0 → Fin S32x256x1x1.rank)
  bcast_S1_S1x1x1x1_3 : S1.BroadcastsInDim S1x1x1x1 (![3] : Fin 1 → Fin S1x1x1x1.rank)
  bcast_S1x1x1x1_S32x256x1x1_0_1_2_3 : S1x1x1x1.BroadcastsInDim S32x256x1x1 (![0, 1, 2, 3] : Fin 4 → Fin S32x256x1x1.rank)
  reducesTo_S32x256x1x1_S32x256x1_d3 : S32x256x1x1.ReducesTo [3] S32x256x1
  reducesTo_S32x256x1_S_d0_1_2 : S32x256x1.ReducesTo [0, 1, 2] S_
  bcast_S32x128x64x2_S32x128x64x1x2_0_1_2_4 : S32x128x64x2.BroadcastsInDim S32x128x64x1x2 (![0, 1, 2, 4] : Fin 4 → Fin S32x128x64x1x2.rank)
  bcast_S32x128x64x2_S32x128x1x64x2_0_1_3_4 : S32x128x64x2.BroadcastsInDim S32x128x1x64x2 (![0, 1, 3, 4] : Fin 4 → Fin S32x128x1x64x2.rank)
  bcast_S32x128x64x1x2_S32x128x64x64x2_0_1_2_3_4 : S32x128x64x1x2.BroadcastsInDim S32x128x64x64x2 (![0, 1, 2, 3, 4] : Fin 5 → Fin S32x128x64x64x2.rank)
  bcast_S32x128x1x64x2_S32x128x64x64x2_0_1_2_3_4 : S32x128x1x64x2.BroadcastsInDim S32x128x64x64x2 (![0, 1, 2, 3, 4] : Fin 5 → Fin S32x128x64x64x2.rank)
  reducesTo_S32x128x64x64x2_S32x128x64x64_d4 : S32x128x64x64x2.ReducesTo [4] S32x128x64x64
  reducesTo_S32x128x64x64_S32x128x64_d2 : S32x128x64x64.ReducesTo [2] S32x128x64
  reducesTo_S32x128x64_S32x128_d2 : S32x128x64.ReducesTo [2] S32x128
  reducesTo_S32x128x64x64_S32x128x64_d3 : S32x128x64x64.ReducesTo [3] S32x128x64
  reducesTo_S32x128_S_d0_1 : S32x128.ReducesTo [0, 1] S_
  slices_S32x128x64x2_S32x128x1x2_0_0_63_0 : S32x128x64x2.Slices ![0, 0, 63, 0] S32x128x1x2
  shapeCasts_S32x128x1x2_S32x128x2 : S32x128x1x2.ShapeCasts S32x128x2
  slices_S32x128x64x2_S32x128x1x2_0_0_0_0 : S32x128x64x2.Slices ![0, 0, 0, 0] S32x128x1x2
  reducesTo_S32x128x2_S32x128_d2 : S32x128x2.ReducesTo [2] S32x128
  bcast_S_S32x128x1 : S_.BroadcastsInDim S32x128x1 (![] : Fin 0 → Fin S32x128x1.rank)
  bcast_S32x128x1_S32x128x2_0_1_2 : S32x128x1.BroadcastsInDim S32x128x2 (![0, 1, 2] : Fin 3 → Fin S32x128x2.rank)
  bcast_S_S1 : S_.BroadcastsInDim S1 (![] : Fin 0 → Fin S1.rank)
  concatenates_S1_S1_S1_S3_d0 : Shape.Concatenates [S1, S1, S1] S3 0
  scatter_S32x256_S32x128x2_S32x128_n_01_01_2_wf : ScatterDims.WF S32x256 S32x128x2 S32x128 [] [0, 1] [0, 1] 2
  gather_S32x256x21_S32x256x1x1_S32x256x1_n_2_01_01_2_3_111_wf : GatherDims.WF S32x256x21 S32x256x1x1 S32x256x1 [] [2] [0, 1] [2] [0, 1] 3 ![1, 1, 1]
  gather_S32x256x64x2_S32x128x2_S32x128x64x2_23_01_n_n_01_2_11642_wf : GatherDims.WF S32x256x64x2 S32x128x2 S32x128x64x2 [2, 3] [0, 1] [] [0, 1] [] 2 ![1, 1, 64, 2]

variable [Facts₀]

def scatter_S32x256_S32x128x2_S32x128_n_01_01_2 : ScatterDims S32x256 S32x128x2 S32x128 where
  updateWindowDims := []
  insertedWindowDims := [0, 1]
  scatterDimsToOperandDims := [0, 1]
  indexVectorDim := 2
  wf := scatter_S32x256_S32x128x2_S32x128_n_01_01_2_wf
def gather_S32x256x21_S32x256x1x1_S32x256x1_n_2_01_01_2_3_111 : GatherDims S32x256x21 S32x256x1x1 S32x256x1 where
  offsetDims := []
  collapsedSliceDims := [2]
  operandBatchingDims := [0, 1]
  startIndicesBatchingDims := [0, 1]
  startIndexMap := [2]
  indexVectorDim := 3
  sliceSizes := ![1, 1, 1]
  wf := gather_S32x256x21_S32x256x1x1_S32x256x1_n_2_01_01_2_3_111_wf
def gather_S32x256x64x2_S32x128x2_S32x128x64x2_23_01_n_n_01_2_11642 : GatherDims S32x256x64x2 S32x128x2 S32x128x64x2 where
  offsetDims := [2, 3]
  collapsedSliceDims := [0, 1]
  operandBatchingDims := []
  startIndicesBatchingDims := []
  startIndexMap := [0, 1]
  indexVectorDim := 2
  sliceSizes := ![1, 1, 64, 2]
  wf := gather_S32x256x64x2_S32x128x2_S32x128x64x2_23_01_n_n_01_2_11642_wf

class Facts : Prop extends Facts₀ where

variable [Facts]
-- ==== Proof.KData.lean ====
/-
  The data of the one launch of `Kernel`, at any instance `F`: what each TensorCore buffer holds when the
  region is entered (the host lines before it applied to the launch memory), each window's block at a grid point
  read off its array, and what the body leaves in its two output buffers at a point — each output block is stored
  whole, once, so its buffer ends at that one store's payload over the four input blocks (sx, sy, tx, ty: the x and y
  planes of the matched and the target polylines, eight batch rows per point).
-/
import proofs.«155109_j52398601012070_2_alg».proof.Proof.Gen.Kernel.Launch
import proofs.«155109_j52398601012070_2_alg».proof.Proof.Gen.Kernel.Skeleton
import proofs.«155109_j52398601012070_2_alg».proof.Proof.Gen.Kernel.Points
import Idealize.ShloMosaic.Lib.Pipeline.FrameBody
import Idealize.ShloMosaic.Lib.Pipeline.FrameSuffix

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel Cert.Kernel.Gen

variable {F : FTy → Type} [FloatOps F]
variable (m : (ℓ : Loc nD τ sig) → Buf (Elt F) ℓ)

/-- The five stretches of host operations before the region, in program order. -/
abbrev prefixOps : List (List (HloOp τ sig (Elt F))) := [hostOps0, hostOps0_1, hostOps0_2, hostOps0_3, hostOps0_4]

/-- Core `c`'s TensorCore buffers when the region is entered: the host operations before it applied to the launch memory. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole [8,64,128] input block, as the rectangle the body loads. -/
abbrev rIn : Rect S8x64x128 := Rect.unit (s := S8x64x128) ![0, 0, 0] S8x64x128.size inb_S8x64x128_S8x64x128_0_0_0
/-- The whole [8,128] output block, as the rectangle the body stores. -/
abbrev rOut : Rect S8x128 := Rect.unit (s := S8x128) ![0, 0] S8x128.size inb_S8x128_S8x128_0_0

/-- The chamfer output's buffer after the body: one store of the whole block, its payload the mean-of-minima term
    of the four input blocks. -/
def out0_4 (x0 x1 x2 x3 : Vec F S8x64x128 .f32) : Vec F S8x128 .f32 :=
  View.canon [⟨rOut, k0_pay6 (View.ld x0 rIn) (View.ld x1 rIn) (View.ld x2 rIn) (View.ld x3 rIn)⟩]

/-- The direction output's buffer after the body: one store of the whole block, its payload one minus the cosine of
    the two start-to-end vectors. -/
def out0_5 (x0 x1 x2 x3 : Vec F S8x64x128 .f32) : Vec F S8x128 .f32 :=
  View.canon [⟨rOut, k0_pay1 (k0_pay3 (View.ld x1 rIn)) (k0_pay4 (View.ld x2 rIn)) (k0_pay5 (View.ld x3 rIn))
    (k0_pay7 (View.ld x0 rIn)) (k0_pay8 (View.ld x0 rIn))⟩]

/-- The proof data of the launch on core `c`: the arrays as the region finds them; after the body at point `t` each
    input's buffer still at its block and each output's at its one store; nothing of the kernel's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

end Cert.Kernel.Frame

end
-- ==== Proof.KFrame.lean ====
/-
  The frame of `Kernel`: every weakly fair run of @main ends, faults nowhere, and leaves the five argument arrays as
  launched. @main is five stretches of host lines, one region of four grid points, and ten more host lines. The host
  lines write only their own result buffers, none of which is an argument; the region stages four [8,64,128] input
  blocks and two [8,128] output blocks at every point, and its body reads the four inputs whole, reads each output
  buffer whole (the value is dropped) and overwrites it whole, once. So after the body each input buffer still holds
  its block and each output buffer holds its one store's payload, whatever it held before.
-/
import proofs.«155109_j52398601012070_2_alg».proof.Proof.KData
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the five stretches before the region, the region, and the stretch after it: holding the launch memory it
    reduces to the region, entered at `V` and continued by the ten later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The ten lines after the region touch only unscoped TensorCore buffers, and with nothing prefetched every such buffer
    is a window's array or one the region passes by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes a window's array: each writes its one result buffer — the three-operand concatenate too — and the
    ten results (two zeros, two sums, two quotients, three one-element broadcasts, the three-vector) are no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays through the host lines -/

/-- No host line before the region has `main_arg0` as its result: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg1` as its result: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg2` as its result: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg3` as its result: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg4` as its result: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region has `main_arg0` as its result, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region has `main_arg1` as its result, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the region has `main_arg2` as its result, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the region has `main_arg3` as its result, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the region has `main_arg4` as its result, and it is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The input windows' blocks -/

/-- Input window 0's staging buffer holds its block at every point, fetched there or not: an unfetched point has the
    block index of the point before, the window is never cut and never idle, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's staging buffer holds its block at every point, fetched there or not: an unfetched point has the
    block index of the point before, the window is never cut and never idle, and the body leaves the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's staging buffer holds its block at every point, fetched there or not: an unfetched point has the
    block index of the point before, the window is never cut and never idle, and the body leaves the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's staging buffer holds its block at every point, fetched there or not: an unfetched point has the
    block index of the point before, the window is never cut and never idle, and the body leaves the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body -/

/-- One store of the whole [8,128] block covers it. -/
theorem cover_out (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

set_option maxHeartbeats 1000000 in
/-- The body on whole staging buffers, the four inputs' at contents `x0 … x3` and the two outputs' at anything: it runs
    to the continuation with the inputs' buffers as they were, the chamfer output's at `out0_4` and the direction
    output's at `out0_5` of the inputs. Each output buffer is read once (any contents will do, the value is dropped)
    and then stored whole, so what it held before is gone. -/
theorem sound_kernel (c : Dev nD) (E : Set ℕ) (i : grid0.Coords)
    (arg1 : Memref sig .tc .vmem S8x64x128 .f32) (harg1 : arg1.IsWhole) (arg2 : Memref sig .tc .vmem S8x64x128 .f32) (harg2 : arg2.IsWhole)
    (arg3 : Memref sig .tc .vmem S8x64x128 .f32) (harg3 : arg3.IsWhole) (arg4 : Memref sig .tc .vmem S8x64x128 .f32) (harg4 : arg4.IsWhole)
    (arg5 : Memref sig .tc .vmem S8x128 .f32) (harg5 : arg5.IsWhole) (arg6 : Memref sig .tc .vmem S8x128 .f32) (harg6 : arg6.IsWhole)
    (x0 x1 x2 x3 : Vec F S8x64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E
          (cc0__polyline_loss_kernel i arg1 harg1 arg2 harg2 arg3 harg3 arg4 harg4 arg5 harg5 arg6 harg6) K := by
  simp only [cc0__polyline_loss_kernel_eq_skeleton]; unfold cc0__polyline_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover_out _)
  iexists _; isplitr
  swap; · iexact H5
  ipureintro
  try dsimp only
  exact View.read_writes_eq_canon _ _ _ (cover_out _)

/-- What the body is called with at point `t`: the region's invariant, what the core owes, and the six staging buffers —
    each input's at its block, each output's at whatever the staging left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same invariant and debt, and each staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies at those blocks; the invariant
    and the debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair run of @main on the TensorCores ends, and in every final state
    each window's array holds what the proof data computes for it and every other unscoped buffer what the ten lines
    after the region leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: no window stages an argument array, so each of the five is a buffer the region passes by, and it ends at
    what the later lines leave there, which is what was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.Kernel.Frame

end
-- ==== Proof.KIData.lean ====
/-
  The data of the one launch of `KernelIdeal`, at any instance `F`: what each TensorCore buffer holds when the
  region is entered (the host lines before it applied to the launch memory), each window's block at a grid point
  read off its array, and what the body leaves in its two output buffers at a point — each output block is stored
  whole, once, so its buffer ends at that one store's payload over the four input blocks (sx, sy, tx, ty: the x and y
  planes of the matched and the target polylines, eight batch rows per point).
-/
import proofs.«155109_j52398601012070_2_alg».proof.Proof.Gen.KernelIdeal.Launch
import proofs.«155109_j52398601012070_2_alg».proof.Proof.Gen.KernelIdeal.Skeleton
import proofs.«155109_j52398601012070_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- The five stretches of host operations before the region, in program order. -/
abbrev prefixOps : List (List (HloOp τ sig (Elt F))) := [hostOps0, hostOps0_1, hostOps0_2, hostOps0_3, hostOps0_4]

/-- Core `c`'s TensorCore buffers when the region is entered: the host operations before it applied to the launch memory. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole [8,64,128] input block, as the rectangle the body loads. -/
abbrev rIn : Rect S8x64x128 := Rect.unit (s := S8x64x128) ![0, 0, 0] S8x64x128.size inb_S8x64x128_S8x64x128_0_0_0
/-- The whole [8,128] output block, as the rectangle the body stores. -/
abbrev rOut : Rect S8x128 := Rect.unit (s := S8x128) ![0, 0] S8x128.size inb_S8x128_S8x128_0_0

/-- The chamfer output's buffer after the body: one store of the whole block, its payload the mean-of-minima term
    of the four input blocks. -/
def out0_4 (x0 x1 x2 x3 : Vec F S8x64x128 .f32) : Vec F S8x128 .f32 :=
  View.canon [⟨rOut, k0_pay6 (View.ld x0 rIn) (View.ld x1 rIn) (View.ld x2 rIn) (View.ld x3 rIn)⟩]

/-- The direction output's buffer after the body: one store of the whole block, its payload one minus the cosine of
    the two start-to-end vectors. -/
def out0_5 (x0 x1 x2 x3 : Vec F S8x64x128 .f32) : Vec F S8x128 .f32 :=
  View.canon [⟨rOut, k0_pay1 (k0_pay3 (View.ld x1 rIn)) (k0_pay4 (View.ld x2 rIn)) (k0_pay5 (View.ld x3 rIn))
    (k0_pay7 (View.ld x0 rIn)) (k0_pay8 (View.ld x0 rIn))⟩]

/-- The proof data of the launch on core `c`: the arrays as the region finds them; after the body at point `t` each
    input's buffer still at its block and each output's at its one store; nothing of the kernel's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]

end Cert.KernelIdeal.Frame

end
-- ==== Proof.KIFrame.lean ====
/-
  The frame of `KernelIdeal`: every weakly fair run of @main ends, faults nowhere, and leaves the five argument arrays as
  launched. @main is five stretches of host lines, one region of four grid points, and ten more host lines. The host
  lines write only their own result buffers, none of which is an argument; the region stages four [8,64,128] input
  blocks and two [8,128] output blocks at every point, and its body reads the four inputs whole, reads each output
  buffer whole (the value is dropped) and overwrites it whole, once. So after the body each input buffer still holds
  its block and each output buffer holds its one store's payload, whatever it held before.
-/
import proofs.«155109_j52398601012070_2_alg».proof.Proof.KIData
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the five stretches before the region, the region, and the stretch after it: holding the launch memory it
    reduces to the region, entered at `V` and continued by the ten later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The ten lines after the region touch only unscoped TensorCore buffers, and with nothing prefetched every such buffer
    is a window's array or one the region passes by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes a window's array: each writes its one result buffer — the three-operand concatenate too — and the
    ten results (two zeros, two sums, two quotients, three one-element broadcasts, the three-vector) are no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays through the host lines -/

/-- No host line before the region has `main_arg0` as its result: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg1` as its result: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg2` as its result: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg3` as its result: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region has `main_arg4` as its result: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region has `main_arg0` as its result, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region has `main_arg1` as its result, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the region has `main_arg2` as its result, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the region has `main_arg3` as its result, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the region has `main_arg4` as its result, and it is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The input windows' blocks -/

/-- Input window 0's staging buffer holds its block at every point, fetched there or not: an unfetched point has the
    block index of the point before, the window is never cut and never idle, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's staging buffer holds its block at every point, fetched there or not: an unfetched point has the
    block index of the point before, the window is never cut and never idle, and the body leaves the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's staging buffer holds its block at every point, fetched there or not: an unfetched point has the
    block index of the point before, the window is never cut and never idle, and the body leaves the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's staging buffer holds its block at every point, fetched there or not: an unfetched point has the
    block index of the point before, the window is never cut and never idle, and the body leaves the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body -/

/-- One store of the whole [8,128] block covers it. -/
theorem cover_out (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

set_option maxHeartbeats 1000000 in
/-- The body on whole staging buffers, the four inputs' at contents `x0 … x3` and the two outputs' at anything: it runs
    to the continuation with the inputs' buffers as they were, the chamfer output's at `out0_4` and the direction
    output's at `out0_5` of the inputs. Each output buffer is read once (any contents will do, the value is dropped)
    and then stored whole, so what it held before is gone. -/
theorem sound_kernel (c : Dev nD) (E : Set ℕ) (i : grid0.Coords)
    (arg1 : Memref sig .tc .vmem S8x64x128 .f32) (harg1 : arg1.IsWhole) (arg2 : Memref sig .tc .vmem S8x64x128 .f32) (harg2 : arg2.IsWhole)
    (arg3 : Memref sig .tc .vmem S8x64x128 .f32) (harg3 : arg3.IsWhole) (arg4 : Memref sig .tc .vmem S8x64x128 .f32) (harg4 : arg4.IsWhole)
    (arg5 : Memref sig .tc .vmem S8x128 .f32) (harg5 : arg5.IsWhole) (arg6 : Memref sig .tc .vmem S8x128 .f32) (harg6 : arg6.IsWhole)
    (x0 x1 x2 x3 : Vec F S8x64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E
          (cc0__polyline_loss_kernel i arg1 harg1 arg2 harg2 arg3 harg3 arg4 harg4 arg5 harg5 arg6 harg6) K := by
  simp only [cc0__polyline_loss_kernel_eq_skeleton]; unfold cc0__polyline_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover_out _)
  iexists _; isplitr
  swap; · iexact H5
  ipureintro
  try dsimp only
  exact View.read_writes_eq_canon _ _ _ (cover_out _)

/-- What the body is called with at point `t`: the region's invariant, what the core owes, and the six staging buffers —
    each input's at its block, each output's at whatever the staging left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same invariant and debt, and each staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies at those blocks; the invariant
    and the debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair run of @main on the TensorCores ends, and in every final state
    each window's array holds what the proof data computes for it and every other unscoped buffer what the ten lines
    after the region leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: no window stages an argument array, so each of the five is a buffer the region passes by, and it ends at
    what the later lines leave there, which is what was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.Frame

end
-- ==== Proof.KHost.lean ====
/-
  The four arrays the region stages, read at an index. The host lines before the region take the x plane and the y plane
  (last coordinate 0 and 1) of the gathered matched polylines and of the target polylines, both [32, 128, 64, 2] =
  (batch, pair, point, coordinate), drop the unit axis and swap the pair and point axes: entry (b, p, q) of a staged
  plane [32, 64, 128] is entry (b, q, p, k) of its source, k the plane's coordinate.
-/
import proofs.«155109_j52398601012070_2_alg».proof.Proof.KIData
import Idealize.ShloMosaic.Lib.StableHlo.Run
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Idealize.ShloMosaic.StableHlo
open Idealize.SL.Sem
open Cert.KernelIdeal Cert.KernelIdeal.Gen Cert.KernelIdeal.Frame

variable (m : (ℓ : Loc nD τ sig) → Buf (Elt Ideal) ℓ)

/-- One plane of a [32, 128, 64, 2] array, laid out (batch, point, pair). -/
def plane (k : Fin 2) (g : S32x128x64x2.Idx → EReal) : S32x64x128.Idx → EReal :=
  fun i => g (ix4 (i 0) (i 2) (i 1) k)

theorem plane0_eq (g : S32x128x64x2.Idx → EReal) :
    transpose S32x64x128 [0, 2, 1] (shapeCast S32x128x64 (extractStridedSlice S32x128x64x1 ![0, 0, 0, 0] g slices_S32x128x64x2_S32x128x64x1_0_0_0_0) shapeCasts_S32x128x64x1_S32x128x64) transposes_S32x128x64_S32x64x128_0_2_1
      = plane 0 g := by
  funext i
  obtain ⟨b, p, q, rfl⟩ : ∃ (b : Fin 32) (p : Fin 64) (q : Fin 128), i = ix3 b p q := ⟨i 0, i 1, i 2, eq_ix3 i⟩
  refine (transpose_apply _ _ _ (ix3 b p q) (ix3 b q p) (fun a => match a with | ⟨0, _⟩ => rfl | ⟨1, _⟩ => rfl | ⟨2, _⟩ => rfl)).trans ?_
  refine (shapeCast_apply _ _ (ix3 b q p) (ix4 b q p (0 : Fin 1))
    (by rw [Shape.rowMajor_val_four, Shape.rowMajor_val_three]
        show ((b.val * 128 + q.val) * 64 + p.val) * 1 + 0 = (b.val * 128 + q.val) * 64 + p.val
        omega)).trans ?_
  exact extractStridedSlice_apply _ _ _ (ix4 b q p (0 : Fin 1)) (ix4 b q p (0 : Fin 2))
    (fun a => match a with
      | ⟨0, _⟩ => by show b.val = 0 + b.val; omega
      | ⟨1, _⟩ => by show q.val = 0 + q.val; omega
      | ⟨2, _⟩ => by show p.val = 0 + p.val; omega
      | ⟨3, _⟩ => by show 0 = 0 + 0; omega)

theorem plane1_eq (g : S32x128x64x2.Idx → EReal) :
    transpose S32x64x128 [0, 2, 1] (shapeCast S32x128x64 (extractStridedSlice S32x128x64x1 ![0, 0, 0, 1] g slices_S32x128x64x2_S32x128x64x1_0_0_0_1) shapeCasts_S32x128x64x1_S32x128x64) transposes_S32x128x64_S32x64x128_0_2_1
      = plane 1 g := by
  funext i
  obtain ⟨b, p, q, rfl⟩ : ∃ (b : Fin 32) (p : Fin 64) (q : Fin 128), i = ix3 b p q := ⟨i 0, i 1, i 2, eq_ix3 i⟩
  refine (transpose_apply _ _ _ (ix3 b p q) (ix3 b q p) (fun a => match a with | ⟨0, _⟩ => rfl | ⟨1, _⟩ => rfl | ⟨2, _⟩ => rfl)).trans ?_
  refine (shapeCast_apply _ _ (ix3 b q p) (ix4 b q p (0 : Fin 1))
    (by rw [Shape.rowMajor_val_four, Shape.rowMajor_val_three]
        show ((b.val * 128 + q.val) * 64 + p.val) * 1 + 0 = (b.val * 128 + q.val) * 64 + p.val
        omega)).trans ?_
  exact extractStridedSlice_apply _ _ _ (ix4 b q p (0 : Fin 1)) (ix4 b q p (1 : Fin 2))
    (fun a => match a with
      | ⟨0, _⟩ => by show b.val = 0 + b.val; omega
      | ⟨1, _⟩ => by show q.val = 0 + q.val; omega
      | ⟨2, _⟩ => by show p.val = 0 + p.val; omega
      | ⟨3, _⟩ => by show 1 = 1 + 0; omega)

/-- The simp set that lays the five stretches of host operations before the region out as one list. -/
macro "open_prefix" : tactic =>
  `(tactic| (dsimp only [V, V0, prefixOps]
             simp only [hostOps0, hostOps0_1, hostOps0_2, hostOps0_3, hostOps0_4, List.flatten_cons, List.flatten_nil,
               List.append_nil, List.cons_append, List.nil_append]))

set_option maxRecDepth 200000 in
set_option maxHeartbeats 4000000 in
/-- The x plane of the matched polylines, as staged. -/
theorem V42_eq (c : Dev nD) :
    (V m c main_v42 : S32x64x128.Idx → EReal) = plane 0 (V m c main_v39 : S32x128x64x2.Idx → EReal) := by
  rw [← plane0_eq]
  open_prefix
  after_results_simp
  try rfl

set_option maxRecDepth 200000 in
set_option maxHeartbeats 4000000 in
/-- The y plane of the matched polylines, as staged. -/
theorem V45_eq (c : Dev nD) :
    (V m c main_v45 : S32x64x128.Idx → EReal) = plane 1 (V m c main_v39 : S32x128x64x2.Idx → EReal) := by
  rw [← plane1_eq]
  open_prefix
  after_results_simp
  try rfl

set_option maxRecDepth 200000 in
set_option maxHeartbeats 4000000 in
/-- The x plane of the target polylines, as staged. -/
theorem V48_eq (c : Dev nD) :
    (V m c main_v48 : S32x64x128.Idx → EReal) = plane 0 (V m c main_arg2 : S32x128x64x2.Idx → EReal) := by
  rw [← plane0_eq]
  open_prefix
  after_results_simp
  try rfl

set_option maxRecDepth 200000 in
set_option maxHeartbeats 4000000 in
/-- The y plane of the target polylines, as staged. -/
theorem V51_eq (c : Dev nD) :
    (V m c main_v51 : S32x64x128.Idx → EReal) = plane 1 (V m c main_arg2 : S32x128x64x2.Idx → EReal) := by
  rw [← plane1_eq]
  open_prefix
  after_results_simp
  try rfl

end Cert.KernelIdeal.KValue

end
-- ==== Proof.Spec.lean ====
/-
  The two per-pair losses as plain formulas over the extended reals. A polyline is 64 points with two coordinates;
  `g` holds the matched predicted polylines and `a` the target polylines, both indexed (batch, pair, point, coordinate).
  For a pair (b, m):
  * `dist` is the L1 distance between point `ps` of the matched polyline and point `pt` of the target;
  * `chamfer` is half the sum of two means of minima — over target points of the nearest matched point, and over
    matched points of the nearest target point (each minimum a fold of `min` from +∞, each mean a sum divided by 64);
  * `direction` is one minus the cosine of the two start-to-end vectors, each normalised by its length plus a small ε.
  Both programs compute exactly these nestings of sums and minima; they differ only in layout, in a leading `0 +` of
  the host's sums over the two coordinates, and in the side on which the factor one half stands.
-/
import Idealize.ShloMosaic.PureOps.Ideal
import Idealize.ShloMosaic.PureOps.Ideal.Laws
import Idealize.ShloMosaic.Lib.ValueIdx

noncomputable section

namespace Cert.Polyline

open Idealize.ShloMosaic Idealize.ShloMosaic.ValueIdx

/-- Polylines: (batch, pair, point, coordinate). -/
abbrev Pts : Type := (⟨4, ![32, 128, 64, 2]⟩ : Shape).Idx → EReal
/-- One value per (batch, pair). -/
abbrev Pairs : Type := (⟨2, ![32, 128]⟩ : Shape).Idx → EReal

/-- The literals both programs carry, as their exact binary values. -/
def cHalf : EReal := Ideal.ofBits .f32 0x3F000000#32
def c64 : EReal := Ideal.ofBits .f32 0x42800000#32
def cTop : EReal := Ideal.ofBits .f32 0x7F800000#32
def cEps : EReal := Ideal.ofBits .f32 0x358637BD#32
def cOne : EReal := Ideal.ofBits .f32 0x3F800000#32

/-- |u| on the extended reals, as both programs take it. -/
def eabs (u : EReal) : EReal := max u (-u)

/-- L1 distance between matched point `ps` and target point `pt` of pair (b, m). -/
def dist (g a : Pts) (b : Fin 32) (m : Fin 128) (ps pt : Fin 64) : EReal :=
  eabs (g (ix4 b m ps 0) - a (ix4 b m pt 0)) + eabs (g (ix4 b m ps 1) - a (ix4 b m pt 1))

/-- The symmetric mean-of-minima loss of pair (b, m). -/
def chamfer (g a : Pts) (b : Fin 32) (m : Fin 128) : EReal :=
  cHalf * (Ideal.div (∑ pt : Fin 64, (Finset.univ : Finset (Fin 64)).fold min cTop (fun ps => dist g a b m ps pt)) c64
    + Ideal.div (∑ ps : Fin 64, (Finset.univ : Finset (Fin 64)).fold min cTop (fun pt => dist g a b m ps pt)) c64)

/-- Coordinate `k` of the vector from the first to the last point of polyline (b, m) of `g`. -/
def span (g : Pts) (b : Fin 32) (m : Fin 128) (k : Fin 2) : EReal := g (ix4 b m 63 k) - g (ix4 b m 0 k)

/-- Euclidean length of a two-coordinate vector. -/
def len (u : Fin 2 → EReal) : EReal := Ideal.sqrt (u 0 * u 0 + u 1 * u 1)

/-- Coordinate `k` of the vector normalised by its length plus ε. -/
def unit (u : Fin 2 → EReal) (k : Fin 2) : EReal := Ideal.div (u k) (len u + cEps)

/-- One minus the cosine between the start-to-end vectors of the matched and the target polyline of pair (b, m). -/
def direction (g a : Pts) (b : Fin 32) (m : Fin 128) : EReal :=
  cOne - (unit (span g b m) 0 * unit (span a b m) 0 + unit (span g b m) 1 * unit (span a b m) 1)

/-- The two losses as arrays over (batch, pair). -/
def chamferArr (g a : Pts) : Pairs := fun i => chamfer g a (i 0) (i 1)
def directionArr (g a : Pts) : Pairs := fun i => direction g a (i 0) (i 1)

end Cert.Polyline

end
-- ==== Proof.KPayChamfer.lean ====
/-
  The chamfer payload of the body read at an index. Over one point's four input blocks x0, x1, x2, x3 (the x and y planes of the
  matched polylines and of the target polylines, each [8 batch rows, 64 points, 128 pairs]) the body forms the
  [8, 64, 64, 128] array of L1 distances between matched point ps and target point pt, takes its minimum along one
  point axis and its sum along the other, both ways, divides each sum by 64 and halves the total. Read at batch row r and
  pair q this is the mean-of-minima formula over the block's own coordinates.
-/
import proofs.«155109_j52398601012070_2_alg».proof.Proof.Gen.KernelIdeal.Skeleton
import proofs.«155109_j52398601012070_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.Polyline

/-- A minimum-reduction over ONE axis, read at the ideal values: the fold of `min` from the accumulator's value over that
    axis's coordinates. -/
theorem minReduce_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A block repeated along a new target-point axis: entry (r, ps, pt, q) is the block's (r, ps, q). -/
def alongTgt (x : FVec Ideal S8x64x128 .f32) : FVec Ideal S8x64x64x128 .f32 :=
  broadcastTo S8x64x64x128 (shapeCast S8x64x1x128 (shapeCast S8x64x128 x shapeCasts_S8x64x128_S8x64x128) shapeCasts_S8x64x128_S8x64x1x128) broadcasts_S8x64x1x128_S8x64x64x128

/-- A block repeated along a new matched-point axis: entry (r, ps, pt, q) is the block's (r, pt, q). -/
def alongSrc (x : FVec Ideal S8x64x128 .f32) : FVec Ideal S8x64x64x128 .f32 :=
  broadcastTo S8x64x64x128 (shapeCast S8x1x64x128 (shapeCast S8x64x128 x shapeCasts_S8x64x128_S8x64x128) shapeCasts_S8x64x128_S8x1x64x128) broadcasts_S8x1x64x128_S8x64x64x128

theorem alongTgt_apply (x : FVec Ideal S8x64x128 .f32) (r : Fin 8) (ps pt : Fin 64) (q : Fin 128) :
    alongTgt x (ix4 r ps pt q) = x (ix3 r ps q) := by
  unfold alongTgt
  refine (broadcastTo_apply _ _ (ix4 r ps pt q) (ix4 r ps (0 : Fin 1) q)
    (fun a => match a with | ⟨0, _⟩ => rfl | ⟨1, _⟩ => rfl | ⟨2, _⟩ => rfl | ⟨3, _⟩ => rfl)).trans ?_
  refine (shapeCast_apply _ _ (ix4 r ps (0 : Fin 1) q) (ix3 r ps q)
    (by rw [Shape.rowMajor_val_three, Shape.rowMajor_val_four]
        show (r.val * 64 + ps.val) * 128 + q.val = ((r.val * 64 + ps.val) * 1 + 0) * 128 + q.val
        omega)).trans ?_
  rw [shapeCast_self]

theorem alongSrc_apply (x : FVec Ideal S8x64x128 .f32) (r : Fin 8) (ps pt : Fin 64) (q : Fin 128) :
    alongSrc x (ix4 r ps pt q) = x (ix3 r pt q) := by
  unfold alongSrc
  refine (broadcastTo_apply _ _ (ix4 r ps pt q) (ix4 r (0 : Fin 1) pt q)
    (fun a => match a with | ⟨0, _⟩ => rfl | ⟨1, _⟩ => rfl | ⟨2, _⟩ => rfl | ⟨3, _⟩ => rfl)).trans ?_
  refine (shapeCast_apply _ _ (ix4 r (0 : Fin 1) pt q) (ix3 r pt q)
    (by rw [Shape.rowMajor_val_three, Shape.rowMajor_val_four]
        show (r.val * 64 + pt.val) * 128 + q.val = ((r.val * 1 + 0) * 64 + pt.val) * 128 + q.val
        omega)).trans ?_
  rw [shapeCast_self]

/-- The block's array of L1 distances, (row, matched point, target point, pair). -/
def distBlk (x0 x1 x2 x3 : FVec Ideal S8x64x128 .f32) : FVec Ideal S8x64x64x128 .f32 :=
  addf (absf (subf (alongTgt x0) (alongSrc x2))) (absf (subf (alongTgt x1) (alongSrc x3)))

/-- The same distance as a formula of the blocks' entries. -/
def blkDist (x0 x1 x2 x3 : FVec Ideal S8x64x128 .f32) (r : Fin 8) (q : Fin 128) (ps pt : Fin 64) : EReal :=
  eabs (x0 (ix3 r ps q) - x2 (ix3 r pt q)) + eabs (x1 (ix3 r ps q) - x3 (ix3 r pt q))

theorem distBlk_apply (x0 x1 x2 x3 : FVec Ideal S8x64x128 .f32) (r : Fin 8) (ps pt : Fin 64) (q : Fin 128) :
    distBlk x0 x1 x2 x3 (ix4 r ps pt q) = blkDist x0 x1 x2 x3 r q ps pt := by
  show eabs (alongTgt x0 (ix4 r ps pt q) - alongSrc x2 (ix4 r ps pt q))
      + eabs (alongTgt x1 (ix4 r ps pt q) - alongSrc x3 (ix4 r ps pt q)) = _
  rw [alongTgt_apply, alongSrc_apply, alongTgt_apply, alongSrc_apply]
  rfl

/-- The payload is the halved sum of the two means of minima of the distance array. -/
theorem pay6_eq (x0 x1 x2 x3 : FVec Ideal S8x64x128 .f32) :
    k0_pay6 (F := Ideal) x0 x1 x2 x3
      = mulf (broadcast S8x128 (Scalar.ofBits (F := Ideal) .f32 0x3F000000#32))
          (addf
            (divf (multiReduction .add [1] S8x128
                (multiReduction .minimumf [1] S8x64x128 (distBlk x0 x1 x2 x3) 0x7F800000#32 reduces_S8x64x64x128_S8x64x128 (.inl rfl) rfl)
                0x00000000#32 reduces_S8x64x128_S8x128 (.inl rfl) rfl)
              (broadcast S8x128 (Scalar.ofBits (F := Ideal) .f32 0x42800000#32)))
            (divf (multiReduction .add [1] S8x128
                (multiReduction .minimumf [2] S8x64x128 (distBlk x0 x1 x2 x3) 0x7F800000#32 reduces_S8x64x64x128_S8x64x128_2 (.inl rfl) rfl)
                0x00000000#32 reduces_S8x64x128_S8x128 (.inl rfl) rfl)
              (broadcast S8x128 (Scalar.ofBits (F := Ideal) .f32 0x42800000#32)))) := rfl

/-- The sum over the middle axis of an [8, 64, 128] array at (r, q). -/
theorem sumMid_apply (y : FVec Ideal S8x64x128 .f32) (r : Fin 8) (q : Fin 128) :
    multiReduction (F := Ideal) .add [1] S8x128 y 0x00000000#32 reduces_S8x64x128_S8x128 (.inl rfl) rfl (ix2 r q)
      = ∑ k : Fin 64, y (ix3 r k q) := by
  refine (Ideal.multiReduction_add_single y 0x00000000#32 reduces_S8x64x128_S8x128 (.inl rfl) rfl (ix2 r q)).trans ?_
  refine Finset.sum_congr rfl fun k _ => congrArg y ?_
  funext a; match a with | ⟨0, _⟩ => rfl | ⟨1, _⟩ => rfl | ⟨2, _⟩ => rfl

/-- The minimum over the matched-point axis of the distance array at (r, pt, q). -/
theorem minOverSrc_apply (d : FVec Ideal S8x64x64x128 .f32) (r : Fin 8) (pt : Fin 64) (q : Fin 128) :
    multiReduction (F := Ideal) .minimumf [1] S8x64x128 d 0x7F800000#32 reduces_S8x64x64x128_S8x64x128 (.inl rfl) rfl (ix3 r pt q)
      = (Finset.univ : Finset (Fin 64)).fold min cTop (fun ps => d (ix4 r ps pt q)) := by
  refine (minReduce_single d 0x7F800000#32 reduces_S8x64x64x128_S8x64x128 (.inl rfl) rfl (ix3 r pt q)).trans ?_
  refine congrArg (Finset.fold min cTop · Finset.univ) ?_
  funext ps
  refine congrArg d ?_
  funext a; match a with | ⟨0, _⟩ => rfl | ⟨1, _⟩ => rfl | ⟨2, _⟩ => rfl | ⟨3, _⟩ => rfl

/-- The minimum over the target-point axis of the distance array at (r, ps, q). -/
theorem minOverTgt_apply (d : FVec Ideal S8x64x64x128 .f32) (r : Fin 8) (ps : Fin 64) (q : Fin 128) :
    multiReduction (F := Ideal) .minimumf [2] S8x64x128 d 0x7F800000#32 reduces_S8x64x64x128_S8x64x128_2 (.inl rfl) rfl (ix3 r ps q)
      = (Finset.univ : Finset (Fin 64)).fold min cTop (fun pt => d (ix4 r ps pt q)) := by
  refine (minReduce_single d 0x7F800000#32 reduces_S8x64x64x128_S8x64x128_2 (.inl rfl) rfl (ix3 r ps q)).trans ?_
  refine congrArg (Finset.fold min cTop · Finset.univ) ?_
  funext pt
  refine congrArg d ?_
  funext a; match a with | ⟨0, _⟩ => rfl | ⟨1, _⟩ => rfl | ⟨2, _⟩ => rfl | ⟨3, _⟩ => rfl

/-- The chamfer payload at batch row r and pair q of the block. -/
theorem pay6_apply (x0 x1 x2 x3 : FVec Ideal S8x64x128 .f32) (r : Fin 8) (q : Fin 128) :
    k0_pay6 (F := Ideal) x0 x1 x2 x3 (ix2 r q)
      = cHalf * (Ideal.div (∑ pt : Fin 64, (Finset.univ : Finset (Fin 64)).fold min cTop (fun ps => blkDist x0 x1 x2 x3 r q ps pt)) c64
          + Ideal.div (∑ ps : Fin 64, (Finset.univ : Finset (Fin 64)).fold min cTop (fun pt => blkDist x0 x1 x2 x3 r q ps pt)) c64) := by
  rw [pay6_eq]
  show cHalf * (Ideal.div (multiReduction (F := Ideal) .add [1] S8x128 _ 0x00000000#32 reduces_S8x64x128_S8x128 (.inl rfl) rfl (ix2 r q)) c64
      + Ideal.div (multiReduction (F := Ideal) .add [1] S8x128 _ 0x00000000#32 reduces_S8x64x128_S8x128 (.inl rfl) rfl (ix2 r q)) c64) = _
  refine congrArg (cHalf * ·) ?_
  refine congrArg₂ (· + ·) (congrArg (Ideal.div · c64) ?_) (congrArg (Ideal.div · c64) ?_)
  · refine (sumMid_apply _ r q).trans ?_
    refine Finset.sum_congr rfl fun pt _ => ?_
    refine (minOverSrc_apply _ r pt q).trans ?_
    refine congrArg (Finset.fold min cTop · Finset.univ) ?_
    funext ps; exact distBlk_apply x0 x1 x2 x3 r ps pt q
  · refine (sumMid_apply _ r q).trans ?_
    refine Finset.sum_congr rfl fun ps _ => ?_
    refine (minOverTgt_apply _ r ps q).trans ?_
    refine congrArg (Finset.fold min cTop · Finset.univ) ?_
    funext pt; exact distBlk_apply x0 x1 x2 x3 r ps pt q

end Cert.KernelIdeal.Pay

end
-- ==== Proof.KPayDir.lean ====
/-
  The direction payload of the body read at an index. From each of the four input blocks (x and y planes of the matched and
  of the target polylines, [8 batch rows, 64 points, 128 pairs]) the body takes the row of the last point and the row of
  the first point; their differences are the start-to-end vectors of the two polylines of each pair, and the payload is
  one minus the sum over the two coordinates of the products of the vectors normalised by their length plus ε.
-/
import proofs.«155109_j52398601012070_2_alg».proof.Proof.Gen.KernelIdeal.Skeleton
import proofs.«155109_j52398601012070_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.Polyline

/-- The row of the last point of a block, as the body extracts it. -/
def lastRow (y : FVec Ideal S8x64x128 .f32) : FVec Ideal S8x128 .f32 :=
  shapeCast S8x128 (extractStridedSlice S8x1x128 ![0, 63, 0] y slices_S8x64x128_o0_63_0_S8x1x128) shapeCasts_S8x1x128_S8x128

/-- The row of the first point of a block, as the body extracts it. -/
def firstRow (y : FVec Ideal S8x64x128 .f32) : FVec Ideal S8x128 .f32 :=
  shapeCast S8x128 (extractStridedSlice S8x1x128 ![0, 0, 0] y slices_S8x64x128_o0_0_0_S8x1x128) shapeCasts_S8x1x128_S8x128

theorem lastRow_apply (y : FVec Ideal S8x64x128 .f32) (r : Fin 8) (q : Fin 128) :
    lastRow y (ix2 r q) = y (ix3 r 63 q) := by
  unfold lastRow
  refine (shapeCast_apply _ _ (ix2 r q) (ix3 r (0 : Fin 1) q)
    (by rw [Shape.rowMajor_val_three, Shape.rowMajor_val_two]
        show (r.val * 1 + 0) * 128 + q.val = r.val * 128 + q.val
        omega)).trans ?_
  exact extractStridedSlice_apply _ _ _ _ (ix3 r 63 q)
    (fun a => match a with
      | ⟨0, _⟩ => by show r.val = 0 + r.val; omega
      | ⟨1, _⟩ => by show 63 = 63 + 0; omega
      | ⟨2, _⟩ => by show q.val = 0 + q.val; omega)

theorem firstRow_apply (y : FVec Ideal S8x64x128 .f32) (r : Fin 8) (q : Fin 128) :
    firstRow y (ix2 r q) = y (ix3 r 0 q) := by
  unfold firstRow
  refine (shapeCast_apply _ _ (ix2 r q) (ix3 r (0 : Fin 1) q)
    (by rw [Shape.rowMajor_val_three, Shape.rowMajor_val_two]
        show (r.val * 1 + 0) * 128 + q.val = r.val * 128 + q.val
        omega)).trans ?_
  exact extractStridedSlice_apply _ _ _ _ (ix3 r 0 q)
    (fun a => match a with
      | ⟨0, _⟩ => by show r.val = 0 + r.val; omega
      | ⟨1, _⟩ => by show 0 = 0 + 0; omega
      | ⟨2, _⟩ => by show q.val = 0 + q.val; omega)

/-- Coordinate of a block's start-to-end vector at batch row r and pair q. -/
def blkSpan (y : FVec Ideal S8x64x128 .f32) (r : Fin 8) (q : Fin 128) : EReal := y (ix3 r 63 q) - y (ix3 r 0 q)

/-- The payload pointwise, over the rows the body extracted. -/
theorem pay1_at (v3 v5 v7 : FVec Ideal S8x64x128 .f32) (v34 v36 : FVec Ideal S8x128 .f32) (i : S8x128.Idx) :
    k0_pay1 (F := Ideal) v3 v5 v7 v34 v36 i
      = cOne - (unit ![v34 i - v36 i, lastRow v3 i - firstRow v3 i] 0 * unit ![lastRow v5 i - firstRow v5 i, lastRow v7 i - firstRow v7 i] 0
          + unit ![v34 i - v36 i, lastRow v3 i - firstRow v3 i] 1 * unit ![lastRow v5 i - firstRow v5 i, lastRow v7 i - firstRow v7 i] 1) := rfl

/-- The direction payload at batch row r and pair q of the block. -/
theorem pay1_apply (x0 x1 x2 x3 : FVec Ideal S8x64x128 .f32) (r : Fin 8) (q : Fin 128) :
    k0_pay1 (F := Ideal) (k0_pay3 x1) (k0_pay4 x2) (k0_pay5 x3) (k0_pay7 x0) (k0_pay8 x0) (ix2 r q)
      = cOne - (unit ![blkSpan x0 r q, blkSpan x1 r q] 0 * unit ![blkSpan x2 r q, blkSpan x3 r q] 0
          + unit ![blkSpan x0 r q, blkSpan x1 r q] 1 * unit ![blkSpan x2 r q, blkSpan x3 r q] 1) := by
  have h3 : k0_pay3 (F := Ideal) x1 = x1 := shapeCast_self x1 _
  have h4 : k0_pay4 (F := Ideal) x2 = x2 := shapeCast_self x2 _
  have h5 : k0_pay5 (F := Ideal) x3 = x3 := shapeCast_self x3 _
  have h7 : k0_pay7 (F := Ideal) x0 (ix2 r q) = x0 (ix3 r 63 q) := by
    show lastRow (shapeCast S8x64x128 x0 shapeCasts_S8x64x128_S8x64x128) (ix2 r q) = _
    rw [shapeCast_self]; exact lastRow_apply x0 r q
  have h8 : k0_pay8 (F := Ideal) x0 (ix2 r q) = x0 (ix3 r 0 q) := by
    show firstRow (shapeCast S8x64x128 x0 shapeCasts_S8x64x128_S8x64x128) (ix2 r q) = _
    rw [shapeCast_self]; exact firstRow_apply x0 r q
  rw [pay1_at, h3, h4, h5, h7, h8, lastRow_apply, firstRow_apply, lastRow_apply, firstRow_apply, lastRow_apply, firstRow_apply]
  rfl

end Cert.KernelIdeal.Pay

end
-- ==== Proof.KClosed.lean ====
/-
  From blocks to arrays. Point t of the grid works on batch rows 8t … 8t+7: each input window's block at t is rows 8t … 8t+7 of
  its staged plane, each output window's block at t is rows 8t … 8t+7 of its [32, 128] array, whole in the other axes. So
  what point t writes back is the block at t of ONE array — the chamfer loss (window 4) or the direction loss (window 5) of
  every pair, as formulas of the gathered matched polylines and the target polylines — and the four blocks cover the array.
-/
import proofs.«155109_j52398601012070_2_alg».proof.Proof.KIData
import proofs.«155109_j52398601012070_2_alg».proof.Proof.KHost
import proofs.«155109_j52398601012070_2_alg».proof.Proof.KPayChamfer
import proofs.«155109_j52398601012070_2_alg».proof.Proof.KPayDir
import Idealize.ShloMosaic.Lib.Pipeline.Value

set_option maxRecDepth 16384

noncomputable section

namespace Cert.KernelIdeal.KValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frame Cert.KernelIdeal.Pay Cert.Polyline

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The gathered matched polylines and the target polylines, as the region finds them. -/
abbrev gat (c : Dev nD) : Pts := (V m c main_v39 : S32x128x64x2.Idx → EReal)
abbrev tgt (c : Dev nD) : Pts := (V m c main_arg2 : S32x128x64x2.Idx → EReal)

/-- The printed index maps over the grid: every window's block index is the point's number on the batch axis, zero elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 4 := by have h := t.isLt; have : cfg0.N = 4 := N_0; omega

/-- Batch row r of point t is batch row 8t + r of the arrays. -/
def rowOf (t : Fin cfg0.N) (r : Fin 8) : Fin 32 := ⟨8 * t.val + r.val, by have := t_lt t; have := r.isLt; omega⟩

section blocks
variable (c : Dev nD) (t : Fin cfg0.N) (r : Fin 8) (p : Fin 64) (q : Fin 128)

theorem iblk0_apply : iblk m c 0 t (ix3 r p q) = gat m c (ix4 (rowOf t r) q p 0) := by
  obtain ⟨e0, e1, e2, -⟩ := idx_facts t
  have h : iblk m c 0 t (ix3 r p q) = (V m c main_v42 : S32x64x128.Idx → EReal) (ix3 (rowOf t r) p q) := by
    show (V m c main_v42 : S32x64x128.Idx → EReal) (((cfg0.win 0).blk t).view.emb (ix3 r p q)) = _
    refine congrArg _ ?_
    funext a; apply Fin.ext
    match a with
    | ⟨0, _⟩ => show win0_0.index t (0 : Fin 3) * 8 + 1 * r.val = 8 * t.val + r.val; omega
    | ⟨1, _⟩ => show win0_0.index t (1 : Fin 3) * 64 + 1 * p.val = p.val; omega
    | ⟨2, _⟩ => show win0_0.index t (2 : Fin 3) * 128 + 1 * q.val = q.val; omega
  rw [h, V42_eq]; rfl

theorem iblk1_apply : iblk m c 1 t (ix3 r p q) = gat m c (ix4 (rowOf t r) q p 1) := by
  obtain ⟨-, -, -, e0, e1, e2, -⟩ := idx_facts t
  have h : iblk m c 1 t (ix3 r p q) = (V m c main_v45 : S32x64x128.Idx → EReal) (ix3 (rowOf t r) p q) := by
    show (V m c main_v45 : S32x64x128.Idx → EReal) (((cfg0.win 1).blk t).view.emb (ix3 r p q)) = _
    refine congrArg _ ?_
    funext a; apply Fin.ext
    match a with
    | ⟨0, _⟩ => show win0_1.index t (0 : Fin 3) * 8 + 1 * r.val = 8 * t.val + r.val; omega
    | ⟨1, _⟩ => show win0_1.index t (1 : Fin 3) * 64 + 1 * p.val = p.val; omega
    | ⟨2, _⟩ => show win0_1.index t (2 : Fin 3) * 128 + 1 * q.val = q.val; omega
  rw [h, V45_eq]; rfl

theorem iblk2_apply : iblk m c 2 t (ix3 r p q) = tgt m c (ix4 (rowOf t r) q p 0) := by
  obtain ⟨-, -, -, -, -, -, e0, e1, e2, -⟩ := idx_facts t
  have h : iblk m c 2 t (ix3 r p q) = (V m c main_v48 : S32x64x128.Idx → EReal) (ix3 (rowOf t r) p q) := by
    show (V m c main_v48 : S32x64x128.Idx → EReal) (((cfg0.win 2).blk t).view.emb (ix3 r p q)) = _
    refine congrArg _ ?_
    funext a; apply Fin.ext
    match a with
    | ⟨0, _⟩ => show win0_2.index t (0 : Fin 3) * 8 + 1 * r.val = 8 * t.val + r.val; omega
    | ⟨1, _⟩ => show win0_2.index t (1 : Fin 3) * 64 + 1 * p.val = p.val; omega
    | ⟨2, _⟩ => show win0_2.index t (2 : Fin 3) * 128 + 1 * q.val = q.val; omega
  rw [h, V48_eq]; rfl

theorem iblk3_apply : iblk m c 3 t (ix3 r p q) = tgt m c (ix4 (rowOf t r) q p 1) := by
  obtain ⟨-, -, -, -, -, -, -, -, -, e0, e1, e2, -⟩ := idx_facts t
  have h : iblk m c 3 t (ix3 r p q) = (V m c main_v51 : S32x64x128.Idx → EReal) (ix3 (rowOf t r) p q) := by
    show (V m c main_v51 : S32x64x128.Idx → EReal) (((cfg0.win 3).blk t).view.emb (ix3 r p q)) = _
    refine congrArg _ ?_
    funext a; apply Fin.ext
    match a with
    | ⟨0, _⟩ => show win0_3.index t (0 : Fin 3) * 8 + 1 * r.val = 8 * t.val + r.val; omega
    | ⟨1, _⟩ => show win0_3.index t (1 : Fin 3) * 64 + 1 * p.val = p.val; omega
    | ⟨2, _⟩ => show win0_3.index t (2 : Fin 3) * 128 + 1 * q.val = q.val; omega
  rw [h, V51_eq]; rfl

end blocks

/-- Where entry (r, q) of output block t sits in its array. -/
theorem emb4 (t : Fin cfg0.N) (r : Fin 8) (q : Fin 128) :
    ((cfg0.win 4).blk t).view.emb (ix2 r q) = ix2 (rowOf t r) q := by
  obtain ⟨-, -, -, -, -, -, -, -, -, -, -, -, e0, e1, -⟩ := idx_facts t
  funext a; apply Fin.ext
  match a with
  | ⟨0, _⟩ => show win0_4.index t (0 : Fin 2) * 8 + 1 * r.val = 8 * t.val + r.val; omega
  | ⟨1, _⟩ => show win0_4.index t (1 : Fin 2) * 128 + 1 * q.val = q.val; omega

theorem emb5 (t : Fin cfg0.N) (r : Fin 8) (q : Fin 128) :
    ((cfg0.win 5).blk t).view.emb (ix2 r q) = ix2 (rowOf t r) q := by
  obtain ⟨-, -, -, -, -, -, -, -, -, -, -, -, -, -, e0, e1⟩ := idx_facts t
  funext a; apply Fin.ext
  match a with
  | ⟨0, _⟩ => show win0_5.index t (0 : Fin 2) * 8 + 1 * r.val = 8 * t.val + r.val; omega
  | ⟨1, _⟩ => show win0_5.index t (1 : Fin 2) * 128 + 1 * q.val = q.val; omega

/-- What point t writes back into the chamfer output is block t of the chamfer losses of all pairs. -/
theorem flushed4_eq (c : Dev nD) (t : Fin cfg0.N) :
    (dats m 0 c).flushed 4 t = ((cfg0.win 4).blk t).view.read (Elt Ideal) (chamferArr (gat m c) (tgt m c)) := by
  show (cfg0.win 4).cut (grid0.coords t) ((dats m 0 c).after 4 t) = _
  rw [after0_4]
  unfold out0_4
  rw [View.canon_unit_zero hz2]
  simp only [View.ld_unit_zero (S := S8x64x128) hz3]
  funext j
  obtain ⟨r, q, rfl⟩ : ∃ (r : Fin 8) (q : Fin 128), j = ix2 r q := ⟨j 0, j 1, eq_ix2 j⟩
  show k0_pay6 (F := Ideal) (iblk m c 0 t) (iblk m c 1 t) (iblk m c 2 t) (iblk m c 3 t) (ix2 r q)
      = chamferArr (gat m c) (tgt m c) (((cfg0.win 4).blk t).view.emb (ix2 r q))
  rw [emb4]
  refine (pay6_apply _ _ _ _ r q).trans ?_
  have hd : ∀ ps pt : Fin 64, blkDist (iblk m c 0 t) (iblk m c 1 t) (iblk m c 2 t) (iblk m c 3 t) r q ps pt
      = Cert.Polyline.dist (gat m c) (tgt m c) (rowOf t r) q ps pt := fun ps pt => by
    unfold blkDist Cert.Polyline.dist
    rw [iblk0_apply m c t r ps q, iblk1_apply m c t r ps q, iblk2_apply m c t r pt q, iblk3_apply m c t r pt q]
  simp only [hd]
  rfl

/-- What point t writes back into the direction output is block t of the direction losses of all pairs. -/
theorem flushed5_eq (c : Dev nD) (t : Fin cfg0.N) :
    (dats m 0 c).flushed 5 t = ((cfg0.win 5).blk t).view.read (Elt Ideal) (directionArr (gat m c) (tgt m c)) := by
  show (cfg0.win 5).cut (grid0.coords t) ((dats m 0 c).after 5 t) = _
  rw [after0_5]
  unfold out0_5
  rw [View.canon_unit_zero hz2]
  simp only [View.ld_unit_zero (S := S8x64x128) hz3]
  funext j
  obtain ⟨r, q, rfl⟩ : ∃ (r : Fin 8) (q : Fin 128), j = ix2 r q := ⟨j 0, j 1, eq_ix2 j⟩
  show k0_pay1 (F := Ideal) (k0_pay3 (iblk m c 1 t)) (k0_pay4 (iblk m c 2 t)) (k0_pay5 (iblk m c 3 t)) (k0_pay7 (iblk m c 0 t)) (k0_pay8 (iblk m c 0 t)) (ix2 r q)
      = directionArr (gat m c) (tgt m c) (((cfg0.win 5).blk t).view.emb (ix2 r q))
  rw [emb5]
  refine (pay1_apply _ _ _ _ r q).trans ?_
  have hs : (![blkSpan (iblk m c 0 t) r q, blkSpan (iblk m c 1 t) r q] : Fin 2 → EReal) = span (gat m c) (rowOf t r) q := by
    funext k
    match k with
    | ⟨0, _⟩ => show blkSpan (iblk m c 0 t) r q = _; unfold blkSpan span; rw [iblk0_apply m c t r 63 q, iblk0_apply m c t r 0 q]; rfl
    | ⟨1, _⟩ => show blkSpan (iblk m c 1 t) r q = _; unfold blkSpan span; rw [iblk1_apply m c t r 63 q, iblk1_apply m c t r 0 q]; rfl
  have ht : (![blkSpan (iblk m c 2 t) r q, blkSpan (iblk m c 3 t) r q] : Fin 2 → EReal) = span (tgt m c) (rowOf t r) q := by
    funext k
    match k with
    | ⟨0, _⟩ => show blkSpan (iblk m c 2 t) r q = _; unfold blkSpan span; rw [iblk2_apply m c t r 63 q, iblk2_apply m c t r 0 q]; rfl
    | ⟨1, _⟩ => show blkSpan (iblk m c 3 t) r q = _; unfold blkSpan span; rw [iblk3_apply m c t r 63 q, iblk3_apply m c t r 0 q]; rfl
  rw [hs, ht]
  rfl

/-- An index of an output array is in point t's block iff each coordinate is in the block's range on its axis. -/
theorem mem_blk4 (t : Fin cfg0.N) (i : S32x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v52_0).slice (win0_4.rect t)).set ↔ _
  rw [View.set_slice_whole, Rect.mem_set_unit]
  exact Iff.rfl

theorem mem_blk5 (t : Fin cfg0.N) (i : S32x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v52_1).slice (win0_5.rect t)).set ↔ _
  rw [View.set_slice_whole, Rect.mem_set_unit]
  exact Iff.rfl

/-- Batch row b lies in the block of point b / 8. -/
theorem cover4 (i : S32x128.Idx) : ∃ t : Fin cfg0.N, (cfg0.win 4).flush t = true ∧ i ∈ ((cfg0.win 4).blk t).view.set := by
  have hi0 : (i 0).val < 32 := (i 0).isLt
  have hi1 : (i 1).val < 128 := (i 1).isLt
  have hN : cfg0.N = 4 := N_0
  let t : Fin cfg0.N := ⟨(i 0).val / 8, by omega⟩
  obtain ⟨-, -, -, -, -, -, -, -, -, -, -, -, e0, e1, -⟩ := idx_facts t
  have ht : t.val = (i 0).val / 8 := rfl
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

theorem cover5 (i : S32x128.Idx) : ∃ t : Fin cfg0.N, (cfg0.win 5).flush t = true ∧ i ∈ ((cfg0.win 5).blk t).view.set := by
  have hi0 : (i 0).val < 32 := (i 0).isLt
  have hi1 : (i 1).val < 128 := (i 1).isLt
  have hN : cfg0.N = 4 := N_0
  let t : Fin cfg0.N := ⟨(i 0).val / 8, by omega⟩
  obtain ⟨-, -, -, -, -, -, -, -, -, -, -, -, -, -, e0, e1⟩ := idx_facts t
  have ht : t.val = (i 0).val / 8 := rfl
  refine ⟨t, flush0_5 t, ?_⟩
  rw [mem_blk5]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

/-- After the region the chamfer output holds the chamfer loss of every pair, -/
theorem final4 (c : Dev nD) : (dats m 0 c).arrAt 4 cfg0.N = chamferArr (gat m c) (tgt m c) :=
  (dats m 0 c).arrAt_eq_of_cover 4 (chamferArr (gat m c) (tgt m c)) (fun t _ => flushed4_eq m c t) cover4

/-- and the direction output the direction loss of every pair. -/
theorem final5 (c : Dev nD) : (dats m 0 c).arrAt 5 cfg0.N = directionArr (gat m c) (tgt m c) :=
  (dats m 0 c).arrAt_eq_of_cover 5 (directionArr (gat m c) (tgt m c)) (fun t _ => flushed5_eq m c t) cover5

end Cert.KernelIdeal.KValue

end
-- ==== Proof.LibHostNary3.lean ====
/-
  Reading a line of host operations that contains a three-operand operation (a `stablehlo.concatenate` of three
  arrays).
-/
import Idealize.ShloMosaic.Lib.StableHlo.Run

namespace HostNary3

open Idealize.ShloMosaic Idealize.ShloMosaic.StableHlo Idealize.ShloMosaic.TcCoe

variable {sig : RefSig} {τ : Topo} {Val : EltTy → Type}

/-- The result of a host operation over a LITERAL family of three references, with each operand's contents read at
    its own reference (rather than under a binder over the family's index), so that a rewriting pass can go on into
    the operands' own contents. The three-operand companion of the library's four-operand `nary4_result`. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end HostNary3

/-- `after_results` for a line whose n-ary operations have three operands: the fold unfolded, then each operation's
    result rewritten at its own buffer and passed over at any other, outermost first. -/
macro "host_results3" : tactic =>
  `(tactic| (simp only [Idealize.ShloMosaic.StableHlo.after_cons, Idealize.ShloMosaic.StableHlo.after_nil]
             repeat (first
               | rw [HostNary3.nary3_result]
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))
-- ==== Proof.KTail.lean ====
/-
  The host lines after the region. They sum each of the two [32, 128] output arrays over all pairs, divide each sum by the
  number of pairs (the larger of 4096 and 1, computed before the region), and join the cross-entropy term (computed before the
  region), the chamfer term and the direction term into one array of three. So the kernel's result is that join applied to the
  two scalars of the host lines before the region and to the chamfer and direction losses of every pair.
-/
import proofs.«155109_j52398601012070_2_alg».proof.Proof.KIData
import proofs.«155109_j52398601012070_2_alg».proof.Proof.KClosed
import proofs.«155109_j52398601012070_2_alg».proof.Proof.LibHostNary3
import Idealize.ShloMosaic.Lib.Pipeline.FrameSuffix

set_option maxRecDepth 16384

noncomputable section

namespace Cert.KernelIdeal.KValue

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.KernelIdeal.Frame Cert.Polyline

variable (m : (ℓ : Loc nD τ sig) → Buf (Elt Ideal) ℓ)

/-- The three losses as one array: the cross-entropy term, and the totals of the two per-pair arrays each divided by the
    number of pairs. -/
def lossVec (ce n : FVec Ideal S_ .f32) (P D : FVec Ideal S32x128 .f32) : FVec Ideal S3 .f32 :=
  concatenate S3 0
    [⟨S1, broadcastInDim S1 ![] bcast_S_S1 ce⟩,
     ⟨S1, broadcastInDim S1 ![] bcast_S_S1
        (Host.divf (F := Ideal) (Host.reduceAdd (F := Ideal) P (constant (F := Ideal) S_ .f32 0x00000000#32) reducesTo_S32x128_S_d0_1 h_S_) n)⟩,
     ⟨S1, broadcastInDim S1 ![] bcast_S_S1
        (Host.divf (F := Ideal) (Host.reduceAdd (F := Ideal) D (constant (F := Ideal) S_ .f32 0x00000000#32) reducesTo_S32x128_S_d0_1 h_S_) n)⟩]
    concatenates_S1_S1_S1_S3_d0

set_option maxHeartbeats 2000000 in
/-- The last host lines from ANY contents of the buffers: the join of the cross-entropy buffer and of the two output arrays'
    totals over the pair-count buffer. -/
theorem tail_of (W : Valuation τ sig (Elt Ideal)) :
    (StableHlo.after hostOps1 W (Proc.devRef .tc main_v60) : FVec Ideal S3 .f32)
      = lossVec (W (Proc.devRef .tc main_v24)) (W (Proc.devRef .tc main_v0)) (W (Proc.devRef .tc main_v52_0)) (W (Proc.devRef .tc main_v52_1)) := by
  host_results3
  rfl

/-- The kernel's result array after the whole program, from the frame run's proof data. -/
theorem tail_eq (c : Dev nD) :
    (Pipeline.afterTail₀ cfgs (dats m) 0 (V0 m) [hostOps1] c main_v60 : FVec Ideal S3 .f32)
      = lossVec (V m c main_v24) (V m c main_v0) (chamferArr (gat m c) (tgt m c)) (directionArr (gat m c) (tgt m c)) := by
  have h4 : Pipeline.withArrays spec0 c (V0 m c) (fun w => (dats m 0 c).arrAt w cfg0.N) (Proc.devRef .tc main_v52_0)
      = (dats m 0 c).arrAt 4 cfg0.N := Pipeline.withArrays_arr spec0 launch0.win.arr_inj c _ _ 4
  have h5 : Pipeline.withArrays spec0 c (V0 m c) (fun w => (dats m 0 c).arrAt w cfg0.N) (Proc.devRef .tc main_v52_1)
      = (dats m 0 c).arrAt 5 cfg0.N := Pipeline.withArrays_arr spec0 launch0.win.arr_inj c _ _ 5
  have h24 : Pipeline.withArrays spec0 c (V0 m c) (fun w => (dats m 0 c).arrAt w cfg0.N) (Proc.devRef .tc main_v24)
      = V0 m c (Proc.devRef .tc main_v24) :=
    Pipeline.withArrays_of_ne spec0 c _ _ main_v24 (by decide : ∀ w, Pipeline.arrRef spec0 w ≠ main_v24)
  have h0 : Pipeline.withArrays spec0 c (V0 m c) (fun w => (dats m 0 c).arrAt w cfg0.N) (Proc.devRef .tc main_v0)
      = V0 m c (Proc.devRef .tc main_v0) :=
    Pipeline.withArrays_of_ne spec0 c _ _ main_v0 (by decide : ∀ w, Pipeline.arrRef spec0 w ≠ main_v0)
  unfold Pipeline.afterTail₀
  show StableHlo.after hostOps1 (Pipeline.withArrays spec0 c (V0 m c) fun w => (dats m 0 c).arrAt w cfg0.N) (Proc.devRef .tc main_v60) = _
  rw [tail_of, h4, h5, h24, h0, final4, final5]

end Cert.KernelIdeal.KValue

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.KStagesTab.lean ====
/-
  What each buffer holds after the kernel program's host operations before the region, from the launch contents: one lemma per operation, in program
  order, each an instance of the general lemmas on reading a line of host operations — the buffer an operation writes holds the
  operation's function of its operands' buffers, and an operand's buffer, which no later operation writes, holds its own stage.
  The stage values are the reference's, as functions of the argument arrays.
-/
import proofs.«155109_j52398601012070_2_alg».proof.Proof.KIData
import proofs.«155109_j52398601012070_2_alg».proof.Proof.RefRead
import proofs.«155109_j52398601012070_2_alg».proof.Proof.LibHostRead

noncomputable section

namespace Cert.KernelIdeal.StageTab

open Idealize.ShloMosaic Idealize.ShloMosaic.TcCoe Idealize.ShloMosaic.StableHlo
open Idealize.SL.Sem
open Cert.KernelIdeal Cert.KernelIdeal.Gen Cert.KernelIdeal.Frame

variable (m : (ℓ : Loc nD τ sig) → Buf (Elt Ideal) ℓ) (c : Dev nD)

/-- The buffers the operations write, in program order. -/
abbrev outs : List (Ref sig .tc) :=
  [main_cst, main_cst_0, main_v0, main_v1, main_v2, main_c, main_v3, main_c_1, main_v4, main_v5, main_c_2, main_v6, main_v7, main_v8, main_c_3, main_v9, main_v10, main_c_4, main_v11, main_v12, main_v13, main_v14, main_v15, main_v16, main_v17, main_v18, main_call0_cst, main_call0_v0, main_call0_cst_0, main_call0_v1, main_call0_v2, main_call0_v3, main_call0_v4, main_call0_v5, main_call0_v6, main_call0_cst_1, main_call0_v7, main_call0_v8, main_call0_v9, main_call0_v10, main_v19, main_v20, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v21, main_cst_5, main_v22, main_cst_6, main_v23, main_v24, main_c_7, main_v25, main_v26, main_c_8, main_v27, main_v28, main_v29, main_c_9, main_v30, main_v31, main_c_10, main_v32, main_v33, main_v34, main_v35, main_v36, main_v37, main_v38, main_v39, main_v40, main_v41, main_v42, main_v43, main_v44, main_v45, main_v46, main_v47, main_v48, main_v49, main_v50, main_v51]

set_option maxRecDepth 8192 in
/-- Each operation writes its one result buffer. -/
theorem H : HostRead.Outs (τ := τ) (List.flatten (prefixOps (F := Ideal))) outs := by
  repeat' constructor

theorem st_main_arg0 : StableHlo.after (List.flatten (prefixOps (F := Ideal))) (fun b => m (c, b)) (Proc.devRef .tc main_arg0) = m ((c.tc : Thread nD τ).loc main_arg0) :=
  HostRead.after_take H 0 main_arg0 (by decide) _
theorem st_main_arg1 : StableHlo.after (List.flatten (prefixOps (F := Ideal))) (fun b => m (c, b)) (Proc.devRef .tc main_arg1) = m ((c.tc : Thread nD τ).loc main_arg1) :=
  HostRead.after_take H 0 main_arg1 (by decide) _
theorem st_main_arg2 : StableHlo.after (List.flatten (prefixOps (F := Ideal))) (fun b => m (c, b)) (Proc.devRef .tc main_arg2) = m ((c.tc : Thread nD τ).loc main_arg2) :=
  HostRead.after_take H 0 main_arg2 (by decide) _
theorem st_main_arg3 : StableHlo.after (List.flatten (prefixOps (F := Ideal))) (fun b => m (c, b)) (Proc.devRef .tc main_arg3) = m ((c.tc : Thread nD τ).loc main_arg3) :=
  HostRead.after_take H 0 main_arg3 (by decide) _
theorem st_main_arg4 : StableHlo.after (List.flatten (prefixOps (F := Ideal))) (fun b => m (c, b)) (Proc.devRef .tc main_arg4) = m ((c.tc : Thread nD τ).loc main_arg4) :=
  HostRead.after_take H 0 main_arg4 (by decide) _

theorem st_main_cst : StableHlo.after (List.flatten (prefixOps (F := Ideal))) (fun b => m (c, b)) (Proc.devRef .tc main_cst) = Cert.ReferenceIdeal.Read.val_main_cst (F := Ideal) := by
  rw [HostRead.after_at H 0 _ main_cst rfl (by decide) _, nullary_result]
  rfl

theorem st_main_cst_0 : StableHlo.after (List.flatten (prefixOps (F := Ideal))) (fun b => m (c, b)) (Proc.devRef .tc main_cst_0) = Cert.ReferenceIdeal.Read.val_main_cst_0 (F := Ideal) := by
  rw [HostRead.after_at H 1 _ main_cst_0 rfl (by decide) _, nullary_result]
  rfl

theorem st_main_v0 : StableHlo.after (List.flatten (prefixOps (F := Ideal))) (fun b => m (c, b)) (Proc.devRef .tc main_v0) = Cert.ReferenceIdeal.Read.val_main_v0 (F := Ideal) := by
  rw [HostRead.after_at H 2 _ main_v0 rfl (by decide) _, binary_result,
    ← HostRead.after_take H 2 main_cst (by decide) _,
    ← HostRead.after_take H 2 main_cst_0 (by decide) _, st_main_cst m c, st_main_cst_0 m c]
  rfl

theorem st_main_v1 : StableHlo.after (List.flatten (prefixOps (F := Ideal))) (fun b => m (c, b)) (Proc.devRef .tc main_v1) = Cert.ReferenceIdeal.Read.val_main_v1 (F := Ideal) := by
  rw [HostRead.after_at H 3 _ main_v1 rfl (by decide) _, nullary_result]
  rfl

theorem st_main_v2 : StableHlo.after (List.flatten (prefixOps (F := Ideal))) (fun b => m (c, b)) (Proc.devRef .tc main_v2) = Cert.ReferenceIdeal.Read.val_main_v2 (F := Ideal) := by
  rw [HostRead.after_at H 4 _ main_v2 rfl (by decide) _, unary_result,
    ← HostRead.after_take H 4 main_v1 (by decide) _, st_main_v1 m c]
  rfl

theorem st_main_c : StableHlo.after (List.flatten (prefixOps (F := Ideal))) (fun b => m (c, b)) (Proc.devRef .tc main_c) = Cert.ReferenceIdeal.Read.val_main_c (F := Ideal) := by
  rw [HostRead.after_at H 5 _ main_c rfl (by decide) _, nullary_result]
  rfl

theorem st_main_v3 : StableHlo.after (List.flatten (prefixOps (F := Ideal))) (fun b => m (c, b)) (Proc.devRef .tc main_v3) = Cert.ReferenceIdeal.Read.val_main_v3 (F := Ideal) := by
  rw [HostRead.after_at H 6 _ main_v3 rfl (by decide) _, unary_result,
    ← HostRead.after_take H 6 main_c (by decide) _, st_main_c m c]
  rfl

theorem st_main_c_1 : StableHlo.after (List.flatten (prefixOps (F := Ideal))) (fun b => m (c, b)) (Proc.devRef .tc main_c_1) = Cert.ReferenceIdeal.Read.val_main_c_1 (F := Ideal) := by
  rw [HostRead.after_at H 7 _ main_c_1 rfl (by decide) _, nullary_result]
  rfl

theorem st_main_v4 : StableHlo.after (List.flatten (prefixOps (F := Ideal))) (fun b => m (c, b)) (Proc.devRef .tc main_v4) = Cert.ReferenceIdeal.Read.val_main_v4 (F := Ideal) := by
  rw [HostRead.after_at H 8 _ main_v4 rfl (by decide) _, unary_result,
    ← HostRead.after_take H 8 main_c_1 (by decide) _, st_main_c_1 m c]
  rfl

theorem st_main_v5 : StableHlo.after (List.flatten (prefixOps (F := Ideal))) (fun b => m (c, b)) (Proc.devRef .tc main_v5) = Cert.ReferenceIdeal.Read.val_main_v5 (F := Ideal) := by
  rw [HostRead.after_at H 9 _ main_v5 rfl (by decide) _, binary_result,
    ← HostRead.after_take H 9 main_v2 (by decide) _,
    ← HostRead.after_take H 9 main_v4 (by decide) _, st_main_v2 m c, st_main_v4 m c]
  rfl

theorem st_main_c_2 : StableHlo.after (List.flatten (prefixOps (F := Ideal))) (fun b => m (c, b)) (Proc.devRef .tc main_c_2) = Cert.ReferenceIdeal.Read.val_main_c_2 (F := Ideal) := by
  rw [HostRead.after_at H 10 _ main_c_2 rfl (by decide) _, nullary_result]
  rfl

theorem st_main_v6 : StableHlo.after (List.flatten (prefixOps (F := Ideal))) (fun b => m (c, b)) (Proc.devRef .tc main_v6) = Cert.ReferenceIdeal.Read.val_main_v6 (F := Ideal) := by
  rw [HostRead.after_at H 11 _ main_v6 rfl (by decide) _, unary_result,
    ← HostRead.after_take H 11 main_c_2 (by decide) _, st_main_c_2 m c]
  rfl

theorem st_main_v7 : StableHlo.after (List.flatten (prefixOps (F := Ideal))) (fun b => m (c, b)) (Proc.devRef .tc main_v7) = Cert.ReferenceIdeal.Read.val_main_v7 (F := Ideal) := by
  rw [HostRead.after_at H 12 _ main_v7 rfl (by decide) _, binary_result,
    ← HostRead.after_take H 12 main_v2 (by decide) _,
    ← HostRead.after_take H 12 main_v6 (by decide) _, st_main_v2 m c, st_main_v6 m c]
  rfl

theorem st_main_v8 : StableHlo.after (List.flatten (prefixOps (F := Ideal))) (fun b => m (c, b)) (Proc.devRef .tc main_v8) = Cert.ReferenceIdeal.Read.val_main_v8 (F := Ideal) := by
  rw [HostRead.after_at H 13 _ main_v8 rfl (by decide) _, ternary_result,
    ← HostRead.after_take H 13 main_v5 (by decide) _,
    ← HostRead.after_take H 13 main_v7 (by decide) _,
    ← HostRead.after_take H 13 main_v2 (by decide) _, st_main_v5 m c, st_main_v7 m c, st_main_v2 m c]
  rfl

theorem st_main_c_3 : StableHlo.after (List.flatten (prefixOps (F := Ideal))) (fun b => m (c, b)) (Proc.devRef .tc main_c_3) = Cert.ReferenceIdeal.Read.val_main_c_3 (F := Ideal) := by
  rw [HostRead.after_at H 14 _ main_c_3 rfl (by decide) _, nullary_result]
  rfl

theorem st_main_v9 : StableHlo.after (List.flatten (prefixOps (F := Ideal))) (fun b => m (c, b)) (Proc.devRef .tc main_v9) = Cert.ReferenceIdeal.Read.val_main_v9 (F := Ideal) := by
  rw [HostRead.after_at H 15 _ main_v9 rfl (by decide) _, unary_result,
    ← HostRead.after_take H 15 main_c_3 (by decide) _, st_main_c_3 m c]
  rfl

theorem st_main_v10 : StableHlo.after (List.flatten (prefixOps (F := Ideal))) (fun b => m (c, b)) (Proc.devRef .tc main_v10) = Cert.ReferenceIdeal.Read.val_main_v10 (F := Ideal) (m ((c.tc : Thread nD τ).loc main_arg3)) := by
  rw [HostRead.after_at H 16 _ main_v10 rfl (by decide) _, binary_result,
    ← HostRead.after_take H 16 main_arg3 (by decide) _,
    ← HostRead.after_take H 16 main_v9 (by decide) _, st_main_arg3 m c, st_main_v9 m c]
  rfl

theorem st_main_c_4 : StableHlo.after (List.flatten (prefixOps (F := Ideal))) (fun b => m (c, b)) (Proc.devRef .tc main_c_4) = Cert.ReferenceIdeal.Read.val_main_c_4 (F := Ideal) := by
  rw [HostRead.after_at H 17 _ main_c_4 rfl (by decide) _, nullary_result]
  rfl

theorem st_main_v11 : StableHlo.after (List.flatten (prefixOps (F := Ideal))) (fun b => m (c, b)) (Proc.devRef .tc main_v11) = Cert.ReferenceIdeal.Read.val_main_v11 (F := Ideal) := by
  rw [HostRead.after_at H 18 _ main_v11 rfl (by decide) _, unary_result,
    ← HostRead.after_take H 18 main_c_4 (by decide) _, st_main_c_4 m c]
  rfl

theorem st_main_v12 : StableHlo.after (List.flatten (prefixOps (F := Ideal))) (fun b => m (c, b)) (Proc.devRef .tc main_v12) = Cert.ReferenceIdeal.Read.val_main_v12 (F := Ideal) (m ((c.tc : Thread nD τ).loc main_arg3)) := by
  rw [HostRead.after_at H 19 _ main_v12 rfl (by decide) _, binary_result,
    ← HostRead.after_take H 19 main_arg3 (by decide) _,
    ← HostRead.after_take H 19 main_v11 (by decide) _, st_main_arg3 m c, st_main_v11 m c]
  rfl

theorem st_main_v13 : StableHlo.after (List.flatten (prefixOps (F := Ideal))) (fun b => m (c, b)) (Proc.devRef .tc main_v13) = Cert.ReferenceIdeal.Read.val_main_v13 (F := Ideal) (m ((c.tc : Thread nD τ).loc main_arg3)) := by
  rw [HostRead.after_at H 20 _ main_v13 rfl (by decide) _, ternary_result,
    ← HostRead.after_take H 20 main_v10 (by decide) _,
    ← HostRead.after_take H 20 main_v12 (by decide) _,
    ← HostRead.after_take H 20 main_arg3 (by decide) _, st_main_v10 m c, st_main_v12 m c, st_main_arg3 m c]
  rfl

theorem st_main_v14 : StableHlo.after (List.flatten (prefixOps (F := Ideal))) (fun b => m (c, b)) (Proc.devRef .tc main_v14) = Cert.ReferenceIdeal.Read.val_main_v14 (F := Ideal) := by
  rw [HostRead.after_at H 21 _ main_v14 rfl (by decide) _, unary_result,
    ← HostRead.after_take H 21 main_v8 (by decide) _, st_main_v8 m c]
  rfl

theorem st_main_v15 : StableHlo.after (List.flatten (prefixOps (F := Ideal))) (fun b => m (c, b)) (Proc.devRef .tc main_v15) = Cert.ReferenceIdeal.Read.val_main_v15 (F := Ideal) := by
  rw [HostRead.after_at H 22 _ main_v15 rfl (by decide) _, unary_result,
    ← HostRead.after_take H 22 main_v14 (by decide) _, st_main_v14 m c]
  rfl

theorem st_main_v16 : StableHlo.after (List.flatten (prefixOps (F := Ideal))) (fun b => m (c, b)) (Proc.devRef .tc main_v16) = Cert.ReferenceIdeal.Read.val_main_v16 (F := Ideal) (m ((c.tc : Thread nD τ).loc main_arg3)) := by
  rw [HostRead.after_at H 23 _ main_v16 rfl (by decide) _, unary_result,
    ← HostRead.after_take H 23 main_v13 (by decide) _, st_main_v13 m c]
  rfl

theorem st_main_v17 : StableHlo.after (List.flatten (prefixOps (F := Ideal))) (fun b => m (c, b)) (Proc.devRef .tc main_v17) = Cert.ReferenceIdeal.Read.val_main_v17 (F := Ideal) (m ((c.tc : Thread nD τ).loc main_arg3)) := by
  rw [HostRead.after_at H 24 _ main_v17 rfl (by decide) _, binary_result,
    ← HostRead.after_take H 24 main_v15 (by decide) _,
    ← HostRead.after_take H 24 main_v16 (by decide) _, st_main_v15 m c, st_main_v16 m c]
  rfl

theorem st_main_v18 : StableHlo.after (List.flatten (prefixOps (F := Ideal))) (fun b => m (c, b)) (Proc.devRef .tc main_v18) = Cert.ReferenceIdeal.Read.val_main_v18 (F := Ideal) (m ((c.tc : Thread nD τ).loc main_arg3)) (m ((c.tc : Thread nD τ).loc main_arg4)) := by
  rw [HostRead.after_at H 25 _ main_v18 rfl (by decide) _, ternary_result,
    ← HostRead.after_take H 25 main_v3 (by decide) _,
    ← HostRead.after_take H 25 main_v17 (by decide) _,
    ← HostRead.after_take H 25 main_arg4 (by decide) _, st_main_v3 m c, st_main_v17 m c, st_main_arg4 m c]
  rfl

theorem st_main_call0_cst : StableHlo.after (List.flatten (prefixOps (F := Ideal))) (fun b => m (c, b)) (Proc.devRef .tc main_call0_cst) = Cert.ReferenceIdeal.Read.val_main_call0_cst (F := Ideal) := by
  rw [HostRead.after_at H 26 _ main_call0_cst rfl (by decide) _]
  exact eq_of_heq (HEq.trans (HostRead.tnullary_heq _ _ _) (heq_of_eq rfl))

theorem st_main_call0_v0 : StableHlo.after (List.flatten (prefixOps (F := Ideal))) (fun b => m (c, b)) (Proc.devRef .tc main_call0_v0) = Cert.ReferenceIdeal.Read.val_main_call0_v0 (F := Ideal) (m ((c.tc : Thread nD τ).loc main_arg0)) := by
  rw [HostRead.after_at H 27 _ main_call0_v0 rfl (by decide) _]
  exact eq_of_heq (HEq.trans (HostRead.tbinary_heq _ _ _ _ _ (m ((c.tc : Thread nD τ).loc main_arg0)) (Cert.ReferenceIdeal.Read.val_main_call0_cst (F := Ideal))
      (heq_of_eq ((HostRead.after_take H 27 main_arg0 (by decide) _).symm.trans (st_main_arg0 m c)))
      (heq_of_eq ((HostRead.after_take H 27 main_call0_cst (by decide) _).symm.trans (st_main_call0_cst m c)))) (heq_of_eq rfl))

theorem st_main_call0_cst_0 : StableHlo.after (List.flatten (prefixOps (F := Ideal))) (fun b => m (c, b)) (Proc.devRef .tc main_call0_cst_0) = Cert.ReferenceIdeal.Read.val_main_call0_cst_0 (F := Ideal) := by
  rw [HostRead.after_at H 28 _ main_call0_cst_0 rfl (by decide) _]
  exact eq_of_heq (HEq.trans (HostRead.tnullary_heq _ _ _) (heq_of_eq rfl))

theorem st_main_call0_v1 : StableHlo.after (List.flatten (prefixOps (F := Ideal))) (fun b => m (c, b)) (Proc.devRef .tc main_call0_v1) = Cert.ReferenceIdeal.Read.val_main_call0_v1 (F := Ideal) := by
  rw [HostRead.after_at H 29 _ main_call0_v1 rfl (by decide) _]
  exact eq_of_heq (HEq.trans (HostRead.tunary_heq _ _ _ _ (Cert.ReferenceIdeal.Read.val_main_call0_cst_0 (F := Ideal))
      (heq_of_eq ((HostRead.after_take H 29 main_call0_cst_0 (by decide) _).symm.trans (st_main_call0_cst_0 m c)))) (heq_of_eq rfl))

theorem st_main_call0_v2 : StableHlo.after (List.flatten (prefixOps (F := Ideal))) (fun b => m (c, b)) (Proc.devRef .tc main_call0_v2) = Cert.ReferenceIdeal.Read.val_main_call0_v2 (F := Ideal) (m ((c.tc : Thread nD τ).loc main_arg0)) := by
  rw [HostRead.after_at H 30 _ main_call0_v2 rfl (by decide) _]
  exact eq_of_heq (HEq.trans (HostRead.tbinary_heq _ _ _ _ _ (Cert.ReferenceIdeal.Read.val_main_call0_v1 (F := Ideal)) (Cert.ReferenceIdeal.Read.val_main_call0_v0 (F := Ideal) (m ((c.tc : Thread nD τ).loc main_arg0)))
      (heq_of_eq ((HostRead.after_take H 30 main_call0_v1 (by decide) _).symm.trans (st_main_call0_v1 m c)))
      (heq_of_eq ((HostRead.after_take H 30 main_call0_v0 (by decide) _).symm.trans (st_main_call0_v0 m c)))) (heq_of_eq rfl))

theorem st_main_call0_v3 : StableHlo.after (List.flatten (prefixOps (F := Ideal))) (fun b => m (c, b)) (Proc.devRef .tc main_call0_v3) = Cert.ReferenceIdeal.Read.val_main_call0_v3 (F := Ideal) (m ((c.tc : Thread nD τ).loc main_arg0)) := by
  rw [HostRead.after_at H 31 _ main_call0_v3 rfl (by decide) _]
  exact eq_of_heq (HEq.trans (HostRead.tunary_heq _ _ _ _ (Cert.ReferenceIdeal.Read.val_main_call0_v2 (F := Ideal) (m ((c.tc : Thread nD τ).loc main_arg0)))
      (heq_of_eq ((HostRead.after_take H 31 main_call0_v2 (by decide) _).symm.trans (st_main_call0_v2 m c)))) (heq_of_eq rfl))

theorem st_main_call0_v4 : StableHlo.after (List.flatten (prefixOps (F := Ideal))) (fun b => m (c, b)) (Proc.devRef .tc main_call0_v4) = Cert.ReferenceIdeal.Read.val_main_call0_v4 (F := Ideal) (m ((c.tc : Thread nD τ).loc main_arg0)) := by
  rw [HostRead.after_at H 32 _ main_call0_v4 rfl (by decide) _]
  exact eq_of_heq (HEq.trans (HostRead.tunary_heq _ _ _ _ (Cert.ReferenceIdeal.Read.val_main_call0_v3 (F := Ideal) (m ((c.tc : Thread nD τ).loc main_arg0)))
      (heq_of_eq ((HostRead.after_take H 32 main_call0_v3 (by decide) _).symm.trans (st_main_call0_v3 m c)))) (heq_of_eq rfl))

theorem st_main_call0_v5 : StableHlo.after (List.flatten (prefixOps (F := Ideal))) (fun b => m (c, b)) (Proc.devRef .tc main_call0_v5) = Cert.ReferenceIdeal.Read.val_main_call0_v5 (F := Ideal) (m ((c.tc : Thread nD τ).loc main_arg0)) := by
  rw [HostRead.after_at H 33 _ main_call0_v5 rfl (by decide) _]
  exact eq_of_heq (HEq.trans (HostRead.tbinary_heq _ _ _ _ _ (m ((c.tc : Thread nD τ).loc main_arg0)) (Cert.ReferenceIdeal.Read.val_main_call0_v4 (F := Ideal) (m ((c.tc : Thread nD τ).loc main_arg0)))
      (heq_of_eq ((HostRead.after_take H 33 main_arg0 (by decide) _).symm.trans (st_main_arg0 m c)))
      (heq_of_eq ((HostRead.after_take H 33 main_call0_v4 (by decide) _).symm.trans (st_main_call0_v4 m c)))) (heq_of_eq rfl))

theorem st_main_call0_v6 : StableHlo.after (List.flatten (prefixOps (F := Ideal))) (fun b => m (c, b)) (Proc.devRef .tc main_call0_v6) = Cert.ReferenceIdeal.Read.val_main_call0_v6 (F := Ideal) (m ((c.tc : Thread nD τ).loc main_arg0)) := by
  rw [HostRead.after_at H 34 _ main_call0_v6 rfl (by decide) _]
  exact eq_of_heq (HEq.trans (HostRead.tunary_heq _ _ _ _ (Cert.ReferenceIdeal.Read.val_main_call0_v5 (F := Ideal) (m ((c.tc : Thread nD τ).loc main_arg0)))
      (heq_of_eq ((HostRead.after_take H 34 main_call0_v5 (by decide) _).symm.trans (st_main_call0_v5 m c)))) (heq_of_eq rfl))

theorem st_main_call0_cst_1 : StableHlo.after (List.flatten (prefixOps (F := Ideal))) (fun b => m (c, b)) (Proc.devRef .tc main_call0_cst_1) = Cert.ReferenceIdeal.Read.val_main_call0_cst_1 (F := Ideal) := by
  rw [HostRead.after_at H 35 _ main_call0_cst_1 rfl (by decide) _]
  exact eq_of_heq (HEq.trans (HostRead.tnullary_heq _ _ _) (heq_of_eq rfl))

theorem st_main_call0_v7 : StableHlo.after (List.flatten (prefixOps (F := Ideal))) (fun b => m (c, b)) (Proc.devRef .tc main_call0_v7) = Cert.ReferenceIdeal.Read.val_main_call0_v7 (F := Ideal) (m ((c.tc : Thread nD τ).loc main_arg0)) := by
  rw [HostRead.after_at H 36 _ main_call0_v7 rfl (by decide) _]
  exact eq_of_heq (HEq.trans (HostRead.tbinary_heq _ _ _ _ _ (Cert.ReferenceIdeal.Read.val_main_call0_v6 (F := Ideal) (m ((c.tc : Thread nD τ).loc main_arg0))) (Cert.ReferenceIdeal.Read.val_main_call0_cst_1 (F := Ideal))
      (heq_of_eq ((HostRead.after_take H 36 main_call0_v6 (by decide) _).symm.trans (st_main_call0_v6 m c)))
      (heq_of_eq ((HostRead.after_take H 36 main_call0_cst_1 (by decide) _).symm.trans (st_main_call0_cst_1 m c)))) (heq_of_eq rfl))

theorem st_main_call0_v8 : StableHlo.after (List.flatten (prefixOps (F := Ideal))) (fun b => m (c, b)) (Proc.devRef .tc main_call0_v8) = Cert.ReferenceIdeal.Read.val_main_call0_v8 (F := Ideal) (m ((c.tc : Thread nD τ).loc main_arg0)) := by
  rw [HostRead.after_at H 37 _ main_call0_v8 rfl (by decide) _]
  exact eq_of_heq (HEq.trans (HostRead.tunary_heq _ _ _ _ (Cert.ReferenceIdeal.Read.val_main_call0_v7 (F := Ideal) (m ((c.tc : Thread nD τ).loc main_arg0)))
      (heq_of_eq ((HostRead.after_take H 37 main_call0_v7 (by decide) _).symm.trans (st_main_call0_v7 m c)))) (heq_of_eq rfl))

theorem st_main_call0_v9 : StableHlo.after (List.flatten (prefixOps (F := Ideal))) (fun b => m (c, b)) (Proc.devRef .tc main_call0_v9) = Cert.ReferenceIdeal.Read.val_main_call0_v9 (F := Ideal) (m ((c.tc : Thread nD τ).loc main_arg0)) := by
  rw [HostRead.after_at H 38 _ main_call0_v9 rfl (by decide) _]
  exact eq_of_heq (HEq.trans (HostRead.tunary_heq _ _ _ _ (Cert.ReferenceIdeal.Read.val_main_call0_v8 (F := Ideal) (m ((c.tc : Thread nD τ).loc main_arg0)))
      (heq_of_eq ((HostRead.after_take H 38 main_call0_v8 (by decide) _).symm.trans (st_main_call0_v8 m c)))) (heq_of_eq rfl))

theorem st_main_call0_v10 : StableHlo.after (List.flatten (prefixOps (F := Ideal))) (fun b => m (c, b)) (Proc.devRef .tc main_call0_v10) = Cert.ReferenceIdeal.Read.val_main_call0_v10 (F := Ideal) (m ((c.tc : Thread nD τ).loc main_arg0)) := by
  rw [HostRead.after_at H 39 _ main_call0_v10 rfl (by decide) _]
  exact eq_of_heq (HEq.trans (HostRead.tunary_heq _ _ _ _ (Cert.ReferenceIdeal.Read.val_main_call0_v9 (F := Ideal) (m ((c.tc : Thread nD τ).loc main_arg0)))
      (heq_of_eq ((HostRead.after_take H 39 main_call0_v9 (by decide) _).symm.trans (st_main_call0_v9 m c)))) (heq_of_eq rfl))

theorem st_main_v19 : StableHlo.after (List.flatten (prefixOps (F := Ideal))) (fun b => m (c, b)) (Proc.devRef .tc main_v19) = Cert.ReferenceIdeal.Read.val_main_v19 (F := Ideal) (m ((c.tc : Thread nD τ).loc main_arg0)) := by
  rw [HostRead.after_at H 40 _ main_v19 rfl (by decide) _]
  exact eq_of_heq (HEq.trans (HostRead.tbinary_heq _ _ _ _ _ (Cert.ReferenceIdeal.Read.val_main_call0_v5 (F := Ideal) (m ((c.tc : Thread nD τ).loc main_arg0))) (Cert.ReferenceIdeal.Read.val_main_call0_v10 (F := Ideal) (m ((c.tc : Thread nD τ).loc main_arg0)))
      (heq_of_eq ((HostRead.after_take H 40 main_call0_v5 (by decide) _).symm.trans (st_main_call0_v5 m c)))
      (heq_of_eq ((HostRead.after_take H 40 main_call0_v10 (by decide) _).symm.trans (st_main_call0_v10 m c)))) (heq_of_eq rfl))

theorem st_main_v20 : StableHlo.after (List.flatten (prefixOps (F := Ideal))) (fun b => m (c, b)) (Proc.devRef .tc main_v20) = Cert.ReferenceIdeal.Read.val_main_v20 (F := Ideal) (m ((c.tc : Thread nD τ).loc main_arg3)) (m ((c.tc : Thread nD τ).loc main_arg4)) := by
  rw [HostRead.after_at H 41 _ main_v20 rfl (by decide) _, unary_result,
    ← HostRead.after_take H 41 main_v18 (by decide) _, st_main_v18 m c]
  rfl

theorem st_main_call1_c : StableHlo.after (List.flatten (prefixOps (F := Ideal))) (fun b => m (c, b)) (Proc.devRef .tc main_call1_c) = Cert.ReferenceIdeal.Read.val_main_call1_c (F := Ideal) := by
  rw [HostRead.after_at H 42 _ main_call1_c rfl (by decide) _]
  exact eq_of_heq (HEq.trans (HostRead.tnullary_heq _ _ _) (heq_of_eq rfl))

theorem st_main_call1_v0 : StableHlo.after (List.flatten (prefixOps (F := Ideal))) (fun b => m (c, b)) (Proc.devRef .tc main_call1_v0) = Cert.ReferenceIdeal.Read.val_main_call1_v0 (F := Ideal) := by
  rw [HostRead.after_at H 43 _ main_call1_v0 rfl (by decide) _]
  exact eq_of_heq (HEq.trans (HostRead.tunary_heq _ _ _ _ (Cert.ReferenceIdeal.Read.val_main_call1_c (F := Ideal))
      (heq_of_eq ((HostRead.after_take H 43 main_call1_c (by decide) _).symm.trans (st_main_call1_c m c)))) (heq_of_eq rfl))

theorem st_main_call1_v1 : StableHlo.after (List.flatten (prefixOps (F := Ideal))) (fun b => m (c, b)) (Proc.devRef .tc main_call1_v1) = Cert.ReferenceIdeal.Read.val_main_call1_v1 (F := Ideal) (m ((c.tc : Thread nD τ).loc main_arg3)) (m ((c.tc : Thread nD τ).loc main_arg4)) := by
  rw [HostRead.after_at H 44 _ main_call1_v1 rfl (by decide) _]
  exact eq_of_heq (HEq.trans (HostRead.tbinary_heq _ _ _ _ _ (Cert.ReferenceIdeal.Read.val_main_v20 (F := Ideal) (m ((c.tc : Thread nD τ).loc main_arg3)) (m ((c.tc : Thread nD τ).loc main_arg4))) (Cert.ReferenceIdeal.Read.val_main_call1_v0 (F := Ideal))
      (heq_of_eq ((HostRead.after_take H 44 main_v20 (by decide) _).symm.trans (st_main_v20 m c)))
      (heq_of_eq ((HostRead.after_take H 44 main_call1_v0 (by decide) _).symm.trans (st_main_call1_v0 m c)))) (heq_of_eq rfl))

theorem st_main_call1_c_0 : StableHlo.after (List.flatten (prefixOps (F := Ideal))) (fun b => m (c, b)) (Proc.devRef .tc main_call1_c_0) = Cert.ReferenceIdeal.Read.val_main_call1_c_0 (F := Ideal) := by
  rw [HostRead.after_at H 45 _ main_call1_c_0 rfl (by decide) _]
  exact eq_of_heq (HEq.trans (HostRead.tnullary_heq _ _ _) (heq_of_eq rfl))

theorem st_main_call1_v2 : StableHlo.after (List.flatten (prefixOps (F := Ideal))) (fun b => m (c, b)) (Proc.devRef .tc main_call1_v2) = Cert.ReferenceIdeal.Read.val_main_call1_v2 (F := Ideal) := by
  rw [HostRead.after_at H 46 _ main_call1_v2 rfl (by decide) _]
  exact eq_of_heq (HEq.trans (HostRead.tunary_heq _ _ _ _ (Cert.ReferenceIdeal.Read.val_main_call1_c_0 (F := Ideal))
      (heq_of_eq ((HostRead.after_take H 46 main_call1_c_0 (by decide) _).symm.trans (st_main_call1_c_0 m c)))) (heq_of_eq rfl))

theorem st_main_call1_v3 : StableHlo.after (List.flatten (prefixOps (F := Ideal))) (fun b => m (c, b)) (Proc.devRef .tc main_call1_v3) = Cert.ReferenceIdeal.Read.val_main_call1_v3 (F := Ideal) (m ((c.tc : Thread nD τ).loc main_arg3)) (m ((c.tc : Thread nD τ).loc main_arg4)) := by
  rw [HostRead.after_at H 47 _ main_call1_v3 rfl (by decide) _]
  exact eq_of_heq (HEq.trans (HostRead.tbinary_heq _ _ _ _ _ (Cert.ReferenceIdeal.Read.val_main_v20 (F := Ideal) (m ((c.tc : Thread nD τ).loc main_arg3)) (m ((c.tc : Thread nD τ).loc main_arg4))) (Cert.ReferenceIdeal.Read.val_main_call1_v2 (F := Ideal))
      (heq_of_eq ((HostRead.after_take H 47 main_v20 (by decide) _).symm.trans (st_main_v20 m c)))
      (heq_of_eq ((HostRead.after_take H 47 main_call1_v2 (by decide) _).symm.trans (st_main_call1_v2 m c)))) (heq_of_eq rfl))

theorem st_main_call1_v4 : StableHlo.after (List.flatten (prefixOps (F := Ideal))) (fun b => m (c, b)) (Proc.devRef .tc main_call1_v4) = Cert.ReferenceIdeal.Read.val_main_call1_v4 (F := Ideal) (m ((c.tc : Thread nD τ).loc main_arg3)) (m ((c.tc : Thread nD τ).loc main_arg4)) := by
  rw [HostRead.after_at H 48 _ main_call1_v4 rfl (by decide) _]
  exact eq_of_heq (HEq.trans (HostRead.tternary_heq _ _ _ _ _ _ (Cert.ReferenceIdeal.Read.val_main_call1_v1 (F := Ideal) (m ((c.tc : Thread nD τ).loc main_arg3)) (m ((c.tc : Thread nD τ).loc main_arg4))) (Cert.ReferenceIdeal.Read.val_main_call1_v3 (F := Ideal) (m ((c.tc : Thread nD τ).loc main_arg3)) (m ((c.tc : Thread nD τ).loc main_arg4))) (Cert.ReferenceIdeal.Read.val_main_v20 (F := Ideal) (m ((c.tc : Thread nD τ).loc main_arg3)) (m ((c.tc : Thread nD τ).loc main_arg4)))
      (heq_of_eq ((HostRead.after_take H 48 main_call1_v1 (by decide) _).symm.trans (st_main_call1_v1 m c)))
      (heq_of_eq ((HostRead.after_take H 48 main_call1_v3 (by decide) _).symm.trans (st_main_call1_v3 m c)))
      (heq_of_eq ((HostRead.after_take H 48 main_v20 (by decide) _).symm.trans (st_main_v20 m c)))) (heq_of_eq rfl))

theorem st_main_call1_v5 : StableHlo.after (List.flatten (prefixOps (F := Ideal))) (fun b => m (c, b)) (Proc.devRef .tc main_call1_v5) = Cert.ReferenceIdeal.Read.val_main_call1_v5 (F := Ideal) (m ((c.tc : Thread nD τ).loc main_arg3)) (m ((c.tc : Thread nD τ).loc main_arg4)) := by
  rw [HostRead.after_at H 49 _ main_call1_v5 rfl (by decide) _, reshape_result,
    ← HostRead.after_take H 49 main_call1_v4 (by decide) _, st_main_call1_v4 m c]
  rfl

theorem st_main_call1_c_1 : StableHlo.after (List.flatten (prefixOps (F := Ideal))) (fun b => m (c, b)) (Proc.devRef .tc main_call1_c_1) = Cert.ReferenceIdeal.Read.val_main_call1_c_1 (F := Ideal) := by
  rw [HostRead.after_at H 50 _ main_call1_c_1 rfl (by decide) _]
  exact eq_of_heq (HEq.trans (HostRead.tnullary_heq _ _ _) (heq_of_eq rfl))

theorem st_main_call1_c_2 : StableHlo.after (List.flatten (prefixOps (F := Ideal))) (fun b => m (c, b)) (Proc.devRef .tc main_call1_c_2) = Cert.ReferenceIdeal.Read.val_main_call1_c_2 (F := Ideal) := by
  rw [HostRead.after_at H 51 _ main_call1_c_2 rfl (by decide) _]
  exact eq_of_heq (HEq.trans (HostRead.tnullary_heq _ _ _) (heq_of_eq rfl))

theorem st_main_call1_v6 : StableHlo.after (List.flatten (prefixOps (F := Ideal))) (fun b => m (c, b)) (Proc.devRef .tc main_call1_v6) = Cert.ReferenceIdeal.Read.val_main_call1_v6 (F := Ideal) := by
  rw [HostRead.after_at H 52 _ main_call1_v6 rfl (by decide) _]
  exact eq_of_heq (HEq.trans (HostRead.tunary_heq _ _ _ _ (Cert.ReferenceIdeal.Read.val_main_call1_c_2 (F := Ideal))
      (heq_of_eq ((HostRead.after_take H 52 main_call1_c_2 (by decide) _).symm.trans (st_main_call1_c_2 m c)))) (heq_of_eq rfl))

theorem st_main_call1_v7 : StableHlo.after (List.flatten (prefixOps (F := Ideal))) (fun b => m (c, b)) (Proc.devRef .tc main_call1_v7) = Cert.ReferenceIdeal.Read.val_main_call1_v7 (F := Ideal) (m ((c.tc : Thread nD τ).loc main_arg3)) (m ((c.tc : Thread nD τ).loc main_arg4)) := by
  rw [HostRead.after_at H 53 _ main_call1_v7 rfl (by decide) _]
  exact eq_of_heq (HEq.trans (HostRead.tbinary_heq _ _ _ _ _ (Cert.ReferenceIdeal.Read.val_main_call1_v5 (F := Ideal) (m ((c.tc : Thread nD τ).loc main_arg3)) (m ((c.tc : Thread nD τ).loc main_arg4))) (Cert.ReferenceIdeal.Read.val_main_call1_v6 (F := Ideal))
      (heq_of_eq ((HostRead.after_take H 53 main_call1_v5 (by decide) _).symm.trans (st_main_call1_v5 m c)))
      (heq_of_eq ((HostRead.after_take H 53 main_call1_v6 (by decide) _).symm.trans (st_main_call1_v6 m c)))) (heq_of_eq rfl))

theorem st_main_call1_v8 : StableHlo.after (List.flatten (prefixOps (F := Ideal))) (fun b => m (c, b)) (Proc.devRef .tc main_call1_v8) = Cert.ReferenceIdeal.Read.val_main_call1_v8 (F := Ideal) := by
  rw [HostRead.after_at H 54 _ main_call1_v8 rfl (by decide) _]
  exact eq_of_heq (HEq.trans (HostRead.tunary_heq _ _ _ _ (Cert.ReferenceIdeal.Read.val_main_call1_c_1 (F := Ideal))
      (heq_of_eq ((HostRead.after_take H 54 main_call1_c_1 (by decide) _).symm.trans (st_main_call1_c_1 m c)))) (heq_of_eq rfl))

theorem st_main_call1_v9 : StableHlo.after (List.flatten (prefixOps (F := Ideal))) (fun b => m (c, b)) (Proc.devRef .tc main_call1_v9) = Cert.ReferenceIdeal.Read.val_main_call1_v9 (F := Ideal) := by
  rw [HostRead.after_at H 55 _ main_call1_v9 rfl (by decide) _]
  exact eq_of_heq (HEq.trans (HostRead.tunary_heq _ _ _ _ (Cert.ReferenceIdeal.Read.val_main_call1_v8 (F := Ideal))
      (heq_of_eq ((HostRead.after_take H 55 main_call1_v8 (by decide) _).symm.trans (st_main_call1_v8 m c)))) (heq_of_eq rfl))

theorem st_main_call1_v10 : StableHlo.after (List.flatten (prefixOps (F := Ideal))) (fun b => m (c, b)) (Proc.devRef .tc main_call1_v10) = Cert.ReferenceIdeal.Read.val_main_call1_v10 (F := Ideal) (m ((c.tc : Thread nD τ).loc main_arg3)) (m ((c.tc : Thread nD τ).loc main_arg4)) := by
  rw [HostRead.after_at H 56 _ main_call1_v10 rfl (by decide) _]
  exact eq_of_heq (HEq.trans (HostRead.tbinary_heq _ _ _ _ _ (Cert.ReferenceIdeal.Read.val_main_call1_v5 (F := Ideal) (m ((c.tc : Thread nD τ).loc main_arg3)) (m ((c.tc : Thread nD τ).loc main_arg4))) (Cert.ReferenceIdeal.Read.val_main_call1_v9 (F := Ideal))
      (heq_of_eq ((HostRead.after_take H 56 main_call1_v5 (by decide) _).symm.trans (st_main_call1_v5 m c)))
      (heq_of_eq ((HostRead.after_take H 56 main_call1_v9 (by decide) _).symm.trans (st_main_call1_v9 m c)))) (heq_of_eq rfl))

theorem st_main_call1_v11 : StableHlo.after (List.flatten (prefixOps (F := Ideal))) (fun b => m (c, b)) (Proc.devRef .tc main_call1_v11) = Cert.ReferenceIdeal.Read.val_main_call1_v11 (F := Ideal) (m ((c.tc : Thread nD τ).loc main_arg3)) (m ((c.tc : Thread nD τ).loc main_arg4)) := by
  rw [HostRead.after_at H 57 _ main_call1_v11 rfl (by decide) _]
  exact eq_of_heq (HEq.trans (HostRead.tbinary_heq _ _ _ _ _ (Cert.ReferenceIdeal.Read.val_main_call1_v7 (F := Ideal) (m ((c.tc : Thread nD τ).loc main_arg3)) (m ((c.tc : Thread nD τ).loc main_arg4))) (Cert.ReferenceIdeal.Read.val_main_call1_v10 (F := Ideal) (m ((c.tc : Thread nD τ).loc main_arg3)) (m ((c.tc : Thread nD τ).loc main_arg4)))
      (heq_of_eq ((HostRead.after_take H 57 main_call1_v7 (by decide) _).symm.trans (st_main_call1_v7 m c)))
      (heq_of_eq ((HostRead.after_take H 57 main_call1_v10 (by decide) _).symm.trans (st_main_call1_v10 m c)))) (heq_of_eq rfl))

theorem st_main_call1_c_3 : StableHlo.after (List.flatten (prefixOps (F := Ideal))) (fun b => m (c, b)) (Proc.devRef .tc main_call1_c_3) = Cert.ReferenceIdeal.Read.val_main_call1_c_3 (F := Ideal) := by
  rw [HostRead.after_at H 58 _ main_call1_c_3 rfl (by decide) _]
  exact eq_of_heq (HEq.trans (HostRead.tnullary_heq _ _ _) (heq_of_eq rfl))

theorem st_main_call1_v12 : StableHlo.after (List.flatten (prefixOps (F := Ideal))) (fun b => m (c, b)) (Proc.devRef .tc main_call1_v12) = Cert.ReferenceIdeal.Read.val_main_call1_v12 (F := Ideal) (m ((c.tc : Thread nD τ).loc main_arg3)) (m ((c.tc : Thread nD τ).loc main_arg4)) := by
  rw [HostRead.after_at H 59 _ main_call1_v12 rfl (by decide) _]
  exact eq_of_heq (HEq.trans (HostRead.tbinary_heq _ _ _ _ _ (Cert.ReferenceIdeal.Read.val_main_call1_v11 (F := Ideal) (m ((c.tc : Thread nD τ).loc main_arg3)) (m ((c.tc : Thread nD τ).loc main_arg4))) (Cert.ReferenceIdeal.Read.val_main_call1_c_3 (F := Ideal))
      (heq_of_eq ((HostRead.after_take H 59 main_call1_v11 (by decide) _).symm.trans (st_main_call1_v11 m c)))
      (heq_of_eq ((HostRead.after_take H 59 main_call1_c_3 (by decide) _).symm.trans (st_main_call1_c_3 m c)))) (heq_of_eq rfl))

theorem st_main_call1_v13 : StableHlo.after (List.flatten (prefixOps (F := Ideal))) (fun b => m (c, b)) (Proc.devRef .tc main_call1_v13) = Cert.ReferenceIdeal.Read.val_main_call1_v13 (F := Ideal) (m ((c.tc : Thread nD τ).loc main_arg0)) (m ((c.tc : Thread nD τ).loc main_arg3)) (m ((c.tc : Thread nD τ).loc main_arg4)) := by
  rw [HostRead.after_at H 60 _ main_call1_v13 rfl (by decide) _]
  exact eq_of_heq (HEq.trans (HostRead.tbinary_heq _ _ _ _ _ (Cert.ReferenceIdeal.Read.val_main_v19 (F := Ideal) (m ((c.tc : Thread nD τ).loc main_arg0))) (Cert.ReferenceIdeal.Read.val_main_call1_v5 (F := Ideal) (m ((c.tc : Thread nD τ).loc main_arg3)) (m ((c.tc : Thread nD τ).loc main_arg4)))
      (heq_of_eq ((HostRead.after_take H 60 main_v19 (by decide) _).symm.trans (st_main_v19 m c)))
      (heq_of_eq ((HostRead.after_take H 60 main_call1_v5 (by decide) _).symm.trans (st_main_call1_v5 m c)))) (heq_of_eq rfl))

theorem st_main_call1_cst : StableHlo.after (List.flatten (prefixOps (F := Ideal))) (fun b => m (c, b)) (Proc.devRef .tc main_call1_cst) = Cert.ReferenceIdeal.Read.val_main_call1_cst (F := Ideal) := by
  rw [HostRead.after_at H 61 _ main_call1_cst rfl (by decide) _]
  exact eq_of_heq (HEq.trans (HostRead.tnullary_heq _ _ _) (heq_of_eq rfl))

theorem st_main_call1_v14 : StableHlo.after (List.flatten (prefixOps (F := Ideal))) (fun b => m (c, b)) (Proc.devRef .tc main_call1_v14) = Cert.ReferenceIdeal.Read.val_main_call1_v14 (F := Ideal) := by
  rw [HostRead.after_at H 62 _ main_call1_v14 rfl (by decide) _]
  exact eq_of_heq (HEq.trans (HostRead.tunary_heq _ _ _ _ (Cert.ReferenceIdeal.Read.val_main_call1_cst (F := Ideal))
      (heq_of_eq ((HostRead.after_take H 62 main_call1_cst (by decide) _).symm.trans (st_main_call1_cst m c)))) (heq_of_eq rfl))

theorem st_main_v21 : StableHlo.after (List.flatten (prefixOps (F := Ideal))) (fun b => m (c, b)) (Proc.devRef .tc main_v21) = Cert.ReferenceIdeal.Read.val_main_v21 (F := Ideal) (m ((c.tc : Thread nD τ).loc main_arg0)) (m ((c.tc : Thread nD τ).loc main_arg3)) (m ((c.tc : Thread nD τ).loc main_arg4)) := by
  rw [HostRead.after_at H 63 _ main_v21 rfl (by decide) _]
  exact eq_of_heq (HEq.trans (HostRead.tternary_heq _ _ _ _ _ _ (Cert.ReferenceIdeal.Read.val_main_call1_v12 (F := Ideal) (m ((c.tc : Thread nD τ).loc main_arg3)) (m ((c.tc : Thread nD τ).loc main_arg4))) (Cert.ReferenceIdeal.Read.val_main_call1_v13 (F := Ideal) (m ((c.tc : Thread nD τ).loc main_arg0)) (m ((c.tc : Thread nD τ).loc main_arg3)) (m ((c.tc : Thread nD τ).loc main_arg4))) (Cert.ReferenceIdeal.Read.val_main_call1_v14 (F := Ideal))
      (heq_of_eq ((HostRead.after_take H 63 main_call1_v12 (by decide) _).symm.trans (st_main_call1_v12 m c)))
      (heq_of_eq ((HostRead.after_take H 63 main_call1_v13 (by decide) _).symm.trans (st_main_call1_v13 m c)))
      (heq_of_eq ((HostRead.after_take H 63 main_call1_v14 (by decide) _).symm.trans (st_main_call1_v14 m c)))) (heq_of_eq rfl))

theorem st_main_cst_5 : StableHlo.after (List.flatten (prefixOps (F := Ideal))) (fun b => m (c, b)) (Proc.devRef .tc main_cst_5) = Cert.ReferenceIdeal.Read.val_main_cst_5 (F := Ideal) := by
  rw [HostRead.after_at H 64 _ main_cst_5 rfl (by decide) _, nullary_result]
  rfl

theorem st_main_v22 : StableHlo.after (List.flatten (prefixOps (F := Ideal))) (fun b => m (c, b)) (Proc.devRef .tc main_v22) = Cert.ReferenceIdeal.Read.val_main_v22 (F := Ideal) (m ((c.tc : Thread nD τ).loc main_arg0)) (m ((c.tc : Thread nD τ).loc main_arg3)) (m ((c.tc : Thread nD τ).loc main_arg4)) := by
  rw [HostRead.after_at H 65 _ main_v22 rfl (by decide) _, binary_result,
    ← HostRead.after_take H 65 main_v21 (by decide) _,
    ← HostRead.after_take H 65 main_cst_5 (by decide) _, st_main_v21 m c, st_main_cst_5 m c]
  rfl

theorem st_main_cst_6 : StableHlo.after (List.flatten (prefixOps (F := Ideal))) (fun b => m (c, b)) (Proc.devRef .tc main_cst_6) = Cert.ReferenceIdeal.Read.val_main_cst_6 (F := Ideal) := by
  rw [HostRead.after_at H 66 _ main_cst_6 rfl (by decide) _, nullary_result]
  rfl

theorem st_main_v23 : StableHlo.after (List.flatten (prefixOps (F := Ideal))) (fun b => m (c, b)) (Proc.devRef .tc main_v23) = Cert.ReferenceIdeal.Read.val_main_v23 (F := Ideal) (m ((c.tc : Thread nD τ).loc main_arg0)) (m ((c.tc : Thread nD τ).loc main_arg3)) (m ((c.tc : Thread nD τ).loc main_arg4)) := by
  rw [HostRead.after_at H 67 _ main_v23 rfl (by decide) _, binary_result,
    ← HostRead.after_take H 67 main_v22 (by decide) _,
    ← HostRead.after_take H 67 main_cst_6 (by decide) _, st_main_v22 m c, st_main_cst_6 m c]
  rfl

theorem st_main_v24 : StableHlo.after (List.flatten (prefixOps (F := Ideal))) (fun b => m (c, b)) (Proc.devRef .tc main_v24) = Cert.ReferenceIdeal.Read.val_main_v24 (F := Ideal) (m ((c.tc : Thread nD τ).loc main_arg0)) (m ((c.tc : Thread nD τ).loc main_arg3)) (m ((c.tc : Thread nD τ).loc main_arg4)) := by
  rw [HostRead.after_at H 68 _ main_v24 rfl (by decide) _, unary_result,
    ← HostRead.after_take H 68 main_v23 (by decide) _, st_main_v23 m c]
  rfl

end Cert.KernelIdeal.StageTab

end
-- ==== Proof.KRef.lean ====
/-
  Where the two programs meet. The host lines of the kernel's program before the region are the reference's first lines, word
  for word: the gathered matched polylines, the cross-entropy term and the number of pairs are the same terms of the
  arguments in both. And the reference's last lines join its three scalars exactly as the kernel's program does.
-/
import proofs.«155109_j52398601012070_2_alg».proof.Proof.KIData
import proofs.«155109_j52398601012070_2_alg».proof.Proof.KHost
import proofs.«155109_j52398601012070_2_alg».proof.Proof.KTail
import proofs.«155109_j52398601012070_2_alg».proof.Proof.RefRead
import proofs.«155109_j52398601012070_2_alg».proof.Proof.KStagesTab

noncomputable section

namespace Cert.Bridge

open Idealize.ShloMosaic Idealize.ShloMosaic.TcCoe Idealize.ShloMosaic.ValueIdx Idealize.ShloMosaic.StableHlo
open Idealize.SL.Sem
open Cert.KernelIdeal Cert.KernelIdeal.Gen Cert.KernelIdeal.Frame Cert.KernelIdeal.KValue Cert.Polyline

variable (m : (ℓ : Loc nD τ sig) → Buf (Elt Ideal) ℓ)

set_option maxRecDepth 200000 in
set_option maxHeartbeats 4000000 in
/-- The gathered matched polylines: the reference's gather of the same two arguments. -/
theorem gat_eq (c : Dev nD) :
    gat m c = Cert.ReferenceIdeal.Read.val_main_v39 (F := Ideal)
      (m ((c.tc : Thread nD τ).loc main_arg1)) (m ((c.tc : Thread nD τ).loc main_arg3)) := by
  show (V m c main_v39 : S32x128x64x2.Idx → EReal) = _
  open_prefix
  after_results_simp
  rfl

set_option maxRecDepth 200000 in
set_option maxHeartbeats 4000000 in
/-- The target polylines are the argument as launched. -/
theorem tgt_eq (c : Dev nD) : tgt m c = m ((c.tc : Thread nD τ).loc main_arg2) := by
  show (V m c main_arg2 : S32x128x64x2.Idx → EReal) = _
  open_prefix
  after_results_simp
  try rfl

/-- The cross-entropy term: the reference's, of the same three arguments (the last line of the table of the host lines
    before the region, each read as the reference's stage of the same name). -/
theorem ce_eq (c : Dev nD) :
    (V m c main_v24 : FVec Ideal S_ .f32) = Cert.ReferenceIdeal.Read.val_main_v24 (F := Ideal)
      (m ((c.tc : Thread nD τ).loc main_arg0)) (m ((c.tc : Thread nD τ).loc main_arg3)) (m ((c.tc : Thread nD τ).loc main_arg4)) :=
  Cert.KernelIdeal.StageTab.st_main_v24 m c

/-- The number of pairs: the reference's constant. -/
theorem npairs_eq (c : Dev nD) :
    (V m c main_v0 : FVec Ideal S_ .f32) = Cert.ReferenceIdeal.Read.val_main_v0 (F := Ideal) :=
  Cert.KernelIdeal.StageTab.st_main_v0 m c

/-- The reference's result is the same join of its three scalars. -/
theorem ref_result_eq (x0 : FVec Ideal S32x256x21 .f32) (x1 : FVec Ideal S32x256x64x2 .f32) (x2 : FVec Ideal S32x128x64x2 .f32)
    (x3 x4 : IVec S32x128 32) :
    Cert.ReferenceIdeal.Read.val_main_v89 (F := Ideal) x0 x1 x2 x3 x4
      = lossVec (Cert.ReferenceIdeal.Read.val_main_v24 (F := Ideal) x0 x3 x4) (Cert.ReferenceIdeal.Read.val_main_v0 (F := Ideal))
          (Cert.ReferenceIdeal.Read.val_main_v57 (F := Ideal) x1 x2 x3) (Cert.ReferenceIdeal.Read.val_main_v83 (F := Ideal) x1 x2 x3) := rfl

end Cert.Bridge

end
-- ==== Proof.RefSpec.lean ====
/-
  The reference program's two per-pair loss arrays are the specification's formulas.

  The gathered matched polylines (the array the gather writes) are never opened: every statement below holds for
  whatever array stands there. Reading the chain of operations at a pair (b, m):
  * the five-axis difference array at (b, m, ps, pt, k) is matched (b, m, ps, k) minus target (b, m, pt, k); its
    absolute value summed over k from the zero word is the specification's L1 distance;
  * each minimum folds min from +∞ over one axis of the distance array [32,128,64,64] — axis 2 is the matched
    point, axis 3 the target point —, each mean is a sum from the zero word divided by 64, and the reference
    puts the factor one half on the right of the sum of the two means;
  * the start-to-end vectors come from two slices (point 63 and point 0) reshaped [32,128,1,2] → [32,128,2], a
    row-major re-indexing that fixes (b, m, k); a length is the square root of the sum from the zero word of the
    two squares, kept on a unit axis and broadcast back over k.
  No finiteness is used: only 0 + x = x and the commutativity of the product on the extended reals.
-/
import proofs.«155109_j52398601012070_2_alg».proof.Proof.RefRead
import proofs.«155109_j52398601012070_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index maps of the chain, composed, are the coordinate constructors -/

/-- Entry (b, m, ps, pt, k) of the difference array reads the matched polylines at (b, m, ps, k) … -/
theorem idx_matched (b : Fin 32) (m : Fin 128) (ps pt : Fin 64) (k : Fin 2) :
    idx_main_v40 (idx_main_v42 (idx_main_v46 (ix4 b m ps pt) k)) = ix4 b m ps k := by
  funext a; match a with | ⟨0, _⟩ => rfl | ⟨1, _⟩ => rfl | ⟨2, _⟩ => rfl | ⟨3, _⟩ => rfl

/-- … and the target polylines at (b, m, pt, k). -/
theorem idx_target (b : Fin 32) (m : Fin 128) (ps pt : Fin 64) (k : Fin 2) :
    idx_main_v41 (idx_main_v43 (idx_main_v46 (ix4 b m ps pt) k)) = ix4 b m pt k := by
  funext a; match a with | ⟨0, _⟩ => rfl | ⟨1, _⟩ => rfl | ⟨2, _⟩ => rfl | ⟨3, _⟩ => rfl

/-- The sum over target points reads the array of minima over matched points at (b, m, pt). -/
theorem idx_sum_tgt (b : Fin 32) (m : Fin 128) (pt : Fin 64) : idx_main_v48 (ix2 b m) pt = ix3 b m pt := by
  funext a; match a with | ⟨0, _⟩ => rfl | ⟨1, _⟩ => rfl | ⟨2, _⟩ => rfl

/-- The sum over matched points reads the array of minima over target points at (b, m, ps). -/
theorem idx_sum_src (b : Fin 32) (m : Fin 128) (ps : Fin 64) : idx_main_v52 (ix2 b m) ps = ix3 b m ps := by
  funext a; match a with | ⟨0, _⟩ => rfl | ⟨1, _⟩ => rfl | ⟨2, _⟩ => rfl

/-- The distance array [32,128,64,64] loses its axis 2 (the matched point) … -/
theorem red_src : S32x128x64x64.Reduces [2] S32x128x64 := by decide
/-- … or its axis 3 (the target point). -/
theorem red_tgt : S32x128x64x64.Reduces [3] S32x128x64 := by decide

/-- Inserting the matched point ps into (b, m, pt) on axis 2 gives (b, m, ps, pt). -/
theorem lift_src (b : Fin 32) (m : Fin 128) (pt ps : Fin 64) : red_src.lift (ix3 b m pt) ps = ix4 b m ps pt := by
  funext a; match a with | ⟨0, _⟩ => rfl | ⟨1, _⟩ => rfl | ⟨2, _⟩ => rfl | ⟨3, _⟩ => rfl

/-- Inserting the target point pt into (b, m, ps) on axis 3 gives (b, m, ps, pt). -/
theorem lift_tgt (b : Fin 32) (m : Fin 128) (ps pt : Fin 64) : red_tgt.lift (ix3 b m ps) pt = ix4 b m ps pt := by
  funext a; match a with | ⟨0, _⟩ => rfl | ⟨1, _⟩ => rfl | ⟨2, _⟩ => rfl | ⟨3, _⟩ => rfl

section Chamfer

variable (x1 : (⟨S32x256x64x2, .f32⟩ : BufTy).Contents (Elt Ideal)) (x2 : (⟨S32x128x64x2, .f32⟩ : BufTy).Contents (Elt Ideal))
  (x3 : (⟨S32x128, .i32⟩ : BufTy).Contents (Elt Ideal))

/-- One coordinate's absolute difference between matched point ps and target point pt. -/
theorem absdiff_at (b : Fin 32) (m : Fin 128) (ps pt : Fin 64) (k : Fin 2) :
    val_main_v45 (F := Ideal) x1 x2 x3 (idx_main_v46 (ix4 b m ps pt) k)
      = Polyline.eabs ((val_main_v39 (F := Ideal) x1 x3 : Polyline.Pts) (ix4 b m ps k) - (x2 : Polyline.Pts) (ix4 b m pt k)) := by
  rw [val_main_v45_apply, val_main_v44_apply, val_main_v42_apply, val_main_v40_apply, val_main_v43_apply,
    val_main_v41_apply, idx_matched, idx_target]
  rfl

/-- The host's sum over the two coordinates, from the zero word, is the L1 distance. -/
theorem dist_at (b : Fin 32) (m : Fin 128) (ps pt : Fin 64) :
    val_main_v46 (F := Ideal) x1 x2 x3 (ix4 b m ps pt) = Polyline.dist (val_main_v39 (F := Ideal) x1 x3) x2 b m ps pt := by
  rw [val_main_v46_apply, Fin.sum_univ_two, absdiff_at, absdiff_at, val_main_cst_11_apply, Ideal.ofBits_def,
    Ideal.ofBits_zero_f32, zero_add]
  rfl

/-- The minimum over matched points, at target point pt. -/
theorem min_src_at (b : Fin 32) (m : Fin 128) (pt : Fin 64) :
    val_main_v47 (F := Ideal) x1 x2 x3 (ix3 b m pt)
      = (Finset.univ : Finset (Fin 64)).fold min Polyline.cTop
          (fun ps => Polyline.dist (val_main_v39 (F := Ideal) x1 x3) x2 b m ps pt) := by
  unfold val_main_v47
  refine (Host.reduce_eq_fold_single (FloatOps.minimumf (F := Ideal) (φ := .f32)) _ _
    reducesTo_S32x128x64x64_S32x128x64_d2 red_src h_S_ (ix3 b m pt)).trans ?_
  exact Finset.fold_congr fun ps _ =>
    (congrArg (val_main_v46 (F := Ideal) x1 x2 x3) (lift_src b m pt ps)).trans (dist_at x1 x2 x3 b m ps pt)

/-- The minimum over target points, at matched point ps. -/
theorem min_tgt_at (b : Fin 32) (m : Fin 128) (ps : Fin 64) :
    val_main_v51 (F := Ideal) x1 x2 x3 (ix3 b m ps)
      = (Finset.univ : Finset (Fin 64)).fold min Polyline.cTop
          (fun pt => Polyline.dist (val_main_v39 (F := Ideal) x1 x3) x2 b m ps pt) := by
  unfold val_main_v51
  refine (Host.reduce_eq_fold_single (FloatOps.minimumf (F := Ideal) (φ := .f32)) _ _
    reducesTo_S32x128x64x64_S32x128x64_d3 red_tgt h_S_ (ix3 b m ps)).trans ?_
  exact Finset.fold_congr fun pt _ =>
    (congrArg (val_main_v46 (F := Ideal) x1 x2 x3) (lift_tgt b m ps pt)).trans (dist_at x1 x2 x3 b m ps pt)

/-- The mean over target points of the nearest matched point. -/
theorem mean_tgt_at (b : Fin 32) (m : Fin 128) :
    val_main_v50 (F := Ideal) x1 x2 x3 (ix2 b m)
      = Ideal.div (∑ pt : Fin 64, (Finset.univ : Finset (Fin 64)).fold min Polyline.cTop
          (fun ps => Polyline.dist (val_main_v39 (F := Ideal) x1 x3) x2 b m ps pt)) Polyline.c64 := by
  rw [val_main_v50_apply, val_main_v48_apply, val_main_v49_apply, val_main_cst_13_apply, val_main_cst_14_apply,
    Ideal.ofBits_def, Ideal.ofBits_def, Ideal.ofBits_zero_f32, zero_add]
  refine congrArg (fun s => Ideal.div s Polyline.c64) (Finset.sum_congr rfl fun pt _ => ?_)
  rw [idx_sum_tgt, min_src_at]

/-- The mean over matched points of the nearest target point. -/
theorem mean_src_at (b : Fin 32) (m : Fin 128) :
    val_main_v54 (F := Ideal) x1 x2 x3 (ix2 b m)
      = Ideal.div (∑ ps : Fin 64, (Finset.univ : Finset (Fin 64)).fold min Polyline.cTop
          (fun pt => Polyline.dist (val_main_v39 (F := Ideal) x1 x3) x2 b m ps pt)) Polyline.c64 := by
  rw [val_main_v54_apply, val_main_v52_apply, val_main_v53_apply, val_main_cst_16_apply, val_main_cst_17_apply,
    Ideal.ofBits_def, Ideal.ofBits_def, Ideal.ofBits_zero_f32, zero_add]
  refine congrArg (fun s => Ideal.div s Polyline.c64) (Finset.sum_congr rfl fun ps _ => ?_)
  rw [idx_sum_src, min_tgt_at]

/-- The reference's symmetric mean-of-minima array is the specification's: the factor one half changes sides. -/
theorem ref_chamfer :
    Cert.ReferenceIdeal.Read.val_main_v57 (F := Ideal) x1 x2 x3
      = Cert.Polyline.chamferArr (Cert.ReferenceIdeal.Read.val_main_v39 (F := Ideal) x1 x3) x2 := by
  funext i
  obtain ⟨b, m, rfl⟩ : ∃ (b : Fin 32) (m : Fin 128), i = ix2 b m := ⟨i 0, i 1, eq_ix2 i⟩
  show _ = Polyline.chamfer (val_main_v39 (F := Ideal) x1 x3) x2 b m
  rw [val_main_v57_apply, val_main_v55_apply, mean_tgt_at, mean_src_at, val_main_v56_apply, val_main_cst_18_apply]
  exact mul_comm _ _

end Chamfer

/-! ## The direction loss -/

/-- Coordinate k of the last point of polyline (b, m) … -/
theorem idx_last_matched (b : Fin 32) (m : Fin 128) (k : Fin 2) :
    idx_main_v60 (idx_main_v61 (ix3 b m k)) = ix4 b m 63 k := by
  have hb := b.isLt; have hm := m.isLt; have hk := k.isLt
  funext a; refine Fin.ext ?_
  match a with
  | ⟨0, _⟩ => show ((b.val * 128 + m.val) * 2 + k.val) / 256 = b.val; omega
  | ⟨1, _⟩ => show ((b.val * 128 + m.val) * 2 + k.val) / 2 % 128 = m.val; omega
  | ⟨2, _⟩ => rfl
  | ⟨3, _⟩ => show ((b.val * 128 + m.val) * 2 + k.val) % 2 = k.val; omega

/-- … and of its first point, in the matched polylines … -/
theorem idx_first_matched (b : Fin 32) (m : Fin 128) (k : Fin 2) :
    idx_main_v62 (idx_main_v63 (ix3 b m k)) = ix4 b m 0 k := by
  have hb := b.isLt; have hm := m.isLt; have hk := k.isLt
  funext a; refine Fin.ext ?_
  match a with
  | ⟨0, _⟩ => show ((b.val * 128 + m.val) * 2 + k.val) / 256 = b.val; omega
  | ⟨1, _⟩ => show ((b.val * 128 + m.val) * 2 + k.val) / 2 % 128 = m.val; omega
  | ⟨2, _⟩ => rfl
  | ⟨3, _⟩ => show ((b.val * 128 + m.val) * 2 + k.val) % 2 = k.val; omega

/-- … and the same two in the target polylines. -/
theorem idx_last_target (b : Fin 32) (m : Fin 128) (k : Fin 2) :
    idx_main_v65 (idx_main_v66 (ix3 b m k)) = ix4 b m 63 k := by
  have hb := b.isLt; have hm := m.isLt; have hk := k.isLt
  funext a; refine Fin.ext ?_
  match a with
  | ⟨0, _⟩ => show ((b.val * 128 + m.val) * 2 + k.val) / 256 = b.val; omega
  | ⟨1, _⟩ => show ((b.val * 128 + m.val) * 2 + k.val) / 2 % 128 = m.val; omega
  | ⟨2, _⟩ => rfl
  | ⟨3, _⟩ => show ((b.val * 128 + m.val) * 2 + k.val) % 2 = k.val; omega

theorem idx_first_target (b : Fin 32) (m : Fin 128) (k : Fin 2) :
    idx_main_v67 (idx_main_v68 (ix3 b m k)) = ix4 b m 0 k := by
  have hb := b.isLt; have hm := m.isLt; have hk := k.isLt
  funext a; refine Fin.ext ?_
  match a with
  | ⟨0, _⟩ => show ((b.val * 128 + m.val) * 2 + k.val) / 256 = b.val; omega
  | ⟨1, _⟩ => show ((b.val * 128 + m.val) * 2 + k.val) / 2 % 128 = m.val; omega
  | ⟨2, _⟩ => rfl
  | ⟨3, _⟩ => show ((b.val * 128 + m.val) * 2 + k.val) % 2 = k.val; omega

/-- The sums over the two coordinates read their operand at (b, m, k). -/
theorem idx_sq_matched (b : Fin 32) (m : Fin 128) (k : Fin 2) : idx_main_call2_v1 (ix2 b m) k = ix3 b m k := by
  funext a; match a with | ⟨0, _⟩ => rfl | ⟨1, _⟩ => rfl | ⟨2, _⟩ => rfl
theorem idx_sq_target (b : Fin 32) (m : Fin 128) (k : Fin 2) : idx_main_call3_v1 (ix2 b m) k = ix3 b m k := by
  funext a; match a with | ⟨0, _⟩ => rfl | ⟨1, _⟩ => rfl | ⟨2, _⟩ => rfl
theorem idx_dot (b : Fin 32) (m : Fin 128) (k : Fin 2) : idx_main_v81 (ix2 b m) k = ix3 b m k := by
  funext a; match a with | ⟨0, _⟩ => rfl | ⟨1, _⟩ => rfl | ⟨2, _⟩ => rfl

/-- The length is kept on a unit axis and read back from it at both coordinates. -/
theorem idx_len_matched (b : Fin 32) (m : Fin 128) (k : Fin 2) :
    idx_main_call2_v2 (idx_main_v73 (ix3 b m k)) = ix2 b m := by
  funext a; match a with | ⟨0, _⟩ => rfl | ⟨1, _⟩ => rfl
theorem idx_len_target (b : Fin 32) (m : Fin 128) (k : Fin 2) :
    idx_main_call3_v2 (idx_main_v78 (ix3 b m k)) = ix2 b m := by
  funext a; match a with | ⟨0, _⟩ => rfl | ⟨1, _⟩ => rfl

section Direction

variable (x1 : (⟨S32x256x64x2, .f32⟩ : BufTy).Contents (Elt Ideal)) (x2 : (⟨S32x128x64x2, .f32⟩ : BufTy).Contents (Elt Ideal))
  (x3 : (⟨S32x128, .i32⟩ : BufTy).Contents (Elt Ideal))

/-- The start-to-end vector of the matched polyline. -/
theorem span_matched_at (b : Fin 32) (m : Fin 128) (k : Fin 2) :
    val_main_v64 (F := Ideal) x1 x3 (ix3 b m k) = Polyline.span (val_main_v39 (F := Ideal) x1 x3) b m k := by
  rw [val_main_v64_apply, val_main_v61_apply, val_main_v60_apply, val_main_v63_apply, val_main_v62_apply,
    idx_last_matched, idx_first_matched]
  rfl

/-- The start-to-end vector of the target polyline. -/
theorem span_target_at (b : Fin 32) (m : Fin 128) (k : Fin 2) :
    val_main_v69 (F := Ideal) x2 (ix3 b m k) = Polyline.span x2 b m k := by
  rw [val_main_v69_apply, val_main_v66_apply, val_main_v65_apply, val_main_v68_apply, val_main_v67_apply,
    idx_last_target, idx_first_target]
  rfl

/-- Its length: the square root of the host's sum, from the zero word, of the two squares. -/
theorem len_matched_at (b : Fin 32) (m : Fin 128) (k : Fin 2) :
    val_main_v70 (F := Ideal) x1 x3 (idx_main_v73 (ix3 b m k))
      = Polyline.len (Polyline.span (val_main_v39 (F := Ideal) x1 x3) b m) := by
  rw [val_main_v70_apply, val_main_call2_v2_apply, idx_len_matched, val_main_call2_v1_apply, Fin.sum_univ_two,
    idx_sq_matched, idx_sq_matched, val_main_call2_v0_apply, val_main_call2_v0_apply, span_matched_at, span_matched_at,
    val_main_call2_cst_apply, Ideal.ofBits_def, Ideal.ofBits_zero_f32, zero_add]
  rfl

theorem len_target_at (b : Fin 32) (m : Fin 128) (k : Fin 2) :
    val_main_v75 (F := Ideal) x2 (idx_main_v78 (ix3 b m k)) = Polyline.len (Polyline.span x2 b m) := by
  rw [val_main_v75_apply, val_main_call3_v2_apply, idx_len_target, val_main_call3_v1_apply, Fin.sum_univ_two,
    idx_sq_target, idx_sq_target, val_main_call3_v0_apply, val_main_call3_v0_apply, span_target_at, span_target_at,
    val_main_call3_cst_apply, Ideal.ofBits_def, Ideal.ofBits_zero_f32, zero_add]
  rfl

/-- Coordinate k of the matched vector over its length plus ε. -/
theorem unit_matched_at (b : Fin 32) (m : Fin 128) (k : Fin 2) :
    val_main_v74 (F := Ideal) x1 x3 (ix3 b m k)
      = Polyline.unit (Polyline.span (val_main_v39 (F := Ideal) x1 x3) b m) k := by
  rw [val_main_v74_apply, span_matched_at, val_main_v73_apply, val_main_v72_apply, len_matched_at, val_main_v71_apply,
    val_main_cst_20_apply]
  rfl

/-- Coordinate k of the target vector over its length plus ε. -/
theorem unit_target_at (b : Fin 32) (m : Fin 128) (k : Fin 2) :
    val_main_v79 (F := Ideal) x2 (ix3 b m k) = Polyline.unit (Polyline.span x2 b m) k := by
  rw [val_main_v79_apply, span_target_at, val_main_v78_apply, val_main_v77_apply, len_target_at, val_main_v76_apply,
    val_main_cst_21_apply]
  rfl

/-- The cosine: the host's sum over the two coordinates, from the zero word, of the products of the unit vectors. -/
theorem cosine_at (b : Fin 32) (m : Fin 128) :
    val_main_v81 (F := Ideal) x1 x2 x3 (ix2 b m)
      = Polyline.unit (Polyline.span (val_main_v39 (F := Ideal) x1 x3) b m) 0 * Polyline.unit (Polyline.span x2 b m) 0
        + Polyline.unit (Polyline.span (val_main_v39 (F := Ideal) x1 x3) b m) 1 * Polyline.unit (Polyline.span x2 b m) 1 := by
  rw [val_main_v81_apply, Fin.sum_univ_two, idx_dot, idx_dot, val_main_v80_apply, val_main_v80_apply, unit_matched_at,
    unit_matched_at, unit_target_at, unit_target_at, val_main_cst_22_apply, Ideal.ofBits_def, Ideal.ofBits_zero_f32,
    zero_add]
  rfl

/-- The reference's direction array is the specification's. -/
theorem ref_direction :
    Cert.ReferenceIdeal.Read.val_main_v83 (F := Ideal) x1 x2 x3
      = Cert.Polyline.directionArr (Cert.ReferenceIdeal.Read.val_main_v39 (F := Ideal) x1 x3) x2 := by
  funext i
  obtain ⟨b, m, rfl⟩ : ∃ (b : Fin 32) (m : Fin 128), i = ix2 b m := ⟨i 0, i 1, eq_ix2 i⟩
  show _ = Polyline.direction (val_main_v39 (F := Ideal) x1 x3) x2 b m
  rw [val_main_v83_apply, cosine_at, val_main_v82_apply, val_main_cst_23_apply]
  rfl

end Direction

end Cert.ReferenceIdeal.RefValue

end
-- ==== Proof.RefStagesTab.lean ====
/-
  What each buffer holds after the reference program's operations, from the launch contents: one lemma per operation, in program
  order, each an instance of the general lemmas on reading a line of host operations — the buffer an operation writes holds the
  operation's function of its operands' buffers, and an operand's buffer, which no later operation writes, holds its own stage.
  The stage values are the reference's, as functions of the argument arrays.
-/
import proofs.«155109_j52398601012070_2_alg».proof.Proof.RefRun
import proofs.«155109_j52398601012070_2_alg».proof.Proof.RefRead
import proofs.«155109_j52398601012070_2_alg».proof.Proof.LibHostRead
import proofs.«155109_j52398601012070_2_alg».proof.Proof.LibHostNary3

noncomputable section

namespace Cert.ReferenceIdeal.StageTab

open Idealize.ShloMosaic Idealize.ShloMosaic.TcCoe Idealize.ShloMosaic.StableHlo
open Idealize.SL.Sem
open Cert.ReferenceIdeal Cert.ReferenceIdeal.Gen Cert.ReferenceIdeal.Value

variable (m : (ℓ : Loc nD τ sig) → Buf (Elt Ideal) ℓ) (c : Dev nD)

/-- The buffers the operations write, in program order. -/
abbrev outs : List (Ref sig .tc) :=
  [main_cst, main_cst_0, main_v0, main_v1, main_v2, main_c, main_v3, main_c_1, main_v4, main_v5, main_c_2, main_v6, main_v7, main_v8, main_c_3, main_v9, main_v10, main_c_4, main_v11, main_v12, main_v13, main_v14, main_v15, main_v16, main_v17, main_v18, main_call0_cst, main_call0_v0, main_call0_cst_0, main_call0_v1, main_call0_v2, main_call0_v3, main_call0_v4, main_call0_v5, main_call0_v6, main_call0_cst_1, main_call0_v7, main_call0_v8, main_call0_v9, main_call0_v10, main_v19, main_v20, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v21, main_cst_5, main_v22, main_cst_6, main_v23, main_v24, main_c_7, main_v25, main_v26, main_c_8, main_v27, main_v28, main_v29, main_c_9, main_v30, main_v31, main_c_10, main_v32, main_v33, main_v34, main_v35, main_v36, main_v37, main_v38, main_v39, main_v40, main_v41, main_v42, main_v43, main_v44, main_v45, main_cst_11, main_v46, main_cst_12, main_v47, main_cst_13, main_v48, main_cst_14, main_v49, main_v50, main_cst_15, main_v51, main_cst_16, main_v52, main_cst_17, main_v53, main_v54, main_v55, main_cst_18, main_v56, main_v57, main_cst_19, main_v58, main_v59, main_v60, main_v61, main_v62, main_v63, main_v64, main_v65, main_v66, main_v67, main_v68, main_v69, main_call2_v0, main_call2_cst, main_call2_v1, main_call2_v2, main_v70, main_cst_20, main_v71, main_v72, main_v73, main_v74, main_call3_v0, main_call3_cst, main_call3_v1, main_call3_v2, main_v75, main_cst_21, main_v76, main_v77, main_v78, main_v79, main_v80, main_cst_22, main_v81, main_cst_23, main_v82, main_v83, main_cst_24, main_v84, main_v85, main_v86, main_v87, main_v88, main_v89]

set_option maxRecDepth 8192 in
/-- Each operation writes its one result buffer. -/
theorem H : HostRead.Outs (τ := τ) (ops (F := Ideal)) outs := by
  repeat' constructor

theorem st_main_arg0 : StableHlo.after (ops (F := Ideal)) (launchContents m c) (Proc.devRef .tc main_arg0) = m ((c.tc : Thread nD τ).loc main_arg0) :=
  HostRead.after_take H 0 main_arg0 (by decide) _
theorem st_main_arg1 : StableHlo.after (ops (F := Ideal)) (launchContents m c) (Proc.devRef .tc main_arg1) = m ((c.tc : Thread nD τ).loc main_arg1) :=
  HostRead.after_take H 0 main_arg1 (by decide) _
theorem st_main_arg2 : StableHlo.after (ops (F := Ideal)) (launchContents m c) (Proc.devRef .tc main_arg2) = m ((c.tc : Thread nD τ).loc main_arg2) :=
  HostRead.after_take H 0 main_arg2 (by decide) _
theorem st_main_arg3 : StableHlo.after (ops (F := Ideal)) (launchContents m c) (Proc.devRef .tc main_arg3) = m ((c.tc : Thread nD τ).loc main_arg3) :=
  HostRead.after_take H 0 main_arg3 (by decide) _
theorem st_main_arg4 : StableHlo.after (ops (F := Ideal)) (launchContents m c) (Proc.devRef .tc main_arg4) = m ((c.tc : Thread nD τ).loc main_arg4) :=
  HostRead.after_take H 0 main_arg4 (by decide) _

theorem st_main_cst : StableHlo.after (ops (F := Ideal)) (launchContents m c) (Proc.devRef .tc main_cst) = Cert.ReferenceIdeal.Read.val_main_cst (F := Ideal) := by
  rw [HostRead.after_at H 0 _ main_cst rfl (by decide) _, nullary_result]
  rfl

theorem st_main_cst_0 : StableHlo.after (ops (F := Ideal)) (launchContents m c) (Proc.devRef .tc main_cst_0) = Cert.ReferenceIdeal.Read.val_main_cst_0 (F := Ideal) := by
  rw [HostRead.after_at H 1 _ main_cst_0 rfl (by decide) _, nullary_result]
  rfl

theorem st_main_v0 : StableHlo.after (ops (F := Ideal)) (launchContents m c) (Proc.devRef .tc main_v0) = Cert.ReferenceIdeal.Read.val_main_v0 (F := Ideal) := by
  rw [HostRead.after_at H 2 _ main_v0 rfl (by decide) _, binary_result,
    ← HostRead.after_take H 2 main_cst (by decide) _,
    ← HostRead.after_take H 2 main_cst_0 (by decide) _, st_main_cst m c, st_main_cst_0 m c]
  rfl

theorem st_main_v1 : StableHlo.after (ops (F := Ideal)) (launchContents m c) (Proc.devRef .tc main_v1) = Cert.ReferenceIdeal.Read.val_main_v1 (F := Ideal) := by
  rw [HostRead.after_at H 3 _ main_v1 rfl (by decide) _, nullary_result]
  rfl

theorem st_main_v2 : StableHlo.after (ops (F := Ideal)) (launchContents m c) (Proc.devRef .tc main_v2) = Cert.ReferenceIdeal.Read.val_main_v2 (F := Ideal) := by
  rw [HostRead.after_at H 4 _ main_v2 rfl (by decide) _, unary_result,
    ← HostRead.after_take H 4 main_v1 (by decide) _, st_main_v1 m c]
  rfl

theorem st_main_c : StableHlo.after (ops (F := Ideal)) (launchContents m c) (Proc.devRef .tc main_c) = Cert.ReferenceIdeal.Read.val_main_c (F := Ideal) := by
  rw [HostRead.after_at H 5 _ main_c rfl (by decide) _, nullary_result]
  rfl

theorem st_main_v3 : StableHlo.after (ops (F := Ideal)) (launchContents m c) (Proc.devRef .tc main_v3) = Cert.ReferenceIdeal.Read.val_main_v3 (F := Ideal) := by
  rw [HostRead.after_at H 6 _ main_v3 rfl (by decide) _, unary_result,
    ← HostRead.after_take H 6 main_c (by decide) _, st_main_c m c]
  rfl

theorem st_main_c_1 : StableHlo.after (ops (F := Ideal)) (launchContents m c) (Proc.devRef .tc main_c_1) = Cert.ReferenceIdeal.Read.val_main_c_1 (F := Ideal) := by
  rw [HostRead.after_at H 7 _ main_c_1 rfl (by decide) _, nullary_result]
  rfl

theorem st_main_v4 : StableHlo.after (ops (F := Ideal)) (launchContents m c) (Proc.devRef .tc main_v4) = Cert.ReferenceIdeal.Read.val_main_v4 (F := Ideal) := by
  rw [HostRead.after_at H 8 _ main_v4 rfl (by decide) _, unary_result,
    ← HostRead.after_take H 8 main_c_1 (by decide) _, st_main_c_1 m c]
  rfl

theorem st_main_v5 : StableHlo.after (ops (F := Ideal)) (launchContents m c) (Proc.devRef .tc main_v5) = Cert.ReferenceIdeal.Read.val_main_v5 (F := Ideal) := by
  rw [HostRead.after_at H 9 _ main_v5 rfl (by decide) _, binary_result,
    ← HostRead.after_take H 9 main_v2 (by decide) _,
    ← HostRead.after_take H 9 main_v4 (by decide) _, st_main_v2 m c, st_main_v4 m c]
  rfl

theorem st_main_c_2 : StableHlo.after (ops (F := Ideal)) (launchContents m c) (Proc.devRef .tc main_c_2) = Cert.ReferenceIdeal.Read.val_main_c_2 (F := Ideal) := by
  rw [HostRead.after_at H 10 _ main_c_2 rfl (by decide) _, nullary_result]
  rfl

theorem st_main_v6 : StableHlo.after (ops (F := Ideal)) (launchContents m c) (Proc.devRef .tc main_v6) = Cert.ReferenceIdeal.Read.val_main_v6 (F := Ideal) := by
  rw [HostRead.after_at H 11 _ main_v6 rfl (by decide) _, unary_result,
    ← HostRead.after_take H 11 main_c_2 (by decide) _, st_main_c_2 m c]
  rfl

theorem st_main_v7 : StableHlo.after (ops (F := Ideal)) (launchContents m c) (Proc.devRef .tc main_v7) = Cert.ReferenceIdeal.Read.val_main_v7 (F := Ideal) := by
  rw [HostRead.after_at H 12 _ main_v7 rfl (by decide) _, binary_result,
    ← HostRead.after_take H 12 main_v2 (by decide) _,
    ← HostRead.after_take H 12 main_v6 (by decide) _, st_main_v2 m c, st_main_v6 m c]
  rfl

theorem st_main_v8 : StableHlo.after (ops (F := Ideal)) (launchContents m c) (Proc.devRef .tc main_v8) = Cert.ReferenceIdeal.Read.val_main_v8 (F := Ideal) := by
  rw [HostRead.after_at H 13 _ main_v8 rfl (by decide) _, ternary_result,
    ← HostRead.after_take H 13 main_v5 (by decide) _,
    ← HostRead.after_take H 13 main_v7 (by decide) _,
    ← HostRead.after_take H 13 main_v2 (by decide) _, st_main_v5 m c, st_main_v7 m c, st_main_v2 m c]
  rfl

theorem st_main_c_3 : StableHlo.after (ops (F := Ideal)) (launchContents m c) (Proc.devRef .tc main_c_3) = Cert.ReferenceIdeal.Read.val_main_c_3 (F := Ideal) := by
  rw [HostRead.after_at H 14 _ main_c_3 rfl (by decide) _, nullary_result]
  rfl

theorem st_main_v9 : StableHlo.after (ops (F := Ideal)) (launchContents m c) (Proc.devRef .tc main_v9) = Cert.ReferenceIdeal.Read.val_main_v9 (F := Ideal) := by
  rw [HostRead.after_at H 15 _ main_v9 rfl (by decide) _, unary_result,
    ← HostRead.after_take H 15 main_c_3 (by decide) _, st_main_c_3 m c]
  rfl

theorem st_main_v10 : StableHlo.after (ops (F := Ideal)) (launchContents m c) (Proc.devRef .tc main_v10) = Cert.ReferenceIdeal.Read.val_main_v10 (F := Ideal) (m ((c.tc : Thread nD τ).loc main_arg3)) := by
  rw [HostRead.after_at H 16 _ main_v10 rfl (by decide) _, binary_result,
    ← HostRead.after_take H 16 main_arg3 (by decide) _,
    ← HostRead.after_take H 16 main_v9 (by decide) _, st_main_arg3 m c, st_main_v9 m c]
  rfl

theorem st_main_c_4 : StableHlo.after (ops (F := Ideal)) (launchContents m c) (Proc.devRef .tc main_c_4) = Cert.ReferenceIdeal.Read.val_main_c_4 (F := Ideal) := by
  rw [HostRead.after_at H 17 _ main_c_4 rfl (by decide) _, nullary_result]
  rfl

theorem st_main_v11 : StableHlo.after (ops (F := Ideal)) (launchContents m c) (Proc.devRef .tc main_v11) = Cert.ReferenceIdeal.Read.val_main_v11 (F := Ideal) := by
  rw [HostRead.after_at H 18 _ main_v11 rfl (by decide) _, unary_result,
    ← HostRead.after_take H 18 main_c_4 (by decide) _, st_main_c_4 m c]
  rfl

theorem st_main_v12 : StableHlo.after (ops (F := Ideal)) (launchContents m c) (Proc.devRef .tc main_v12) = Cert.ReferenceIdeal.Read.val_main_v12 (F := Ideal) (m ((c.tc : Thread nD τ).loc main_arg3)) := by
  rw [HostRead.after_at H 19 _ main_v12 rfl (by decide) _, binary_result,
    ← HostRead.after_take H 19 main_arg3 (by decide) _,
    ← HostRead.after_take H 19 main_v11 (by decide) _, st_main_arg3 m c, st_main_v11 m c]
  rfl

theorem st_main_v13 : StableHlo.after (ops (F := Ideal)) (launchContents m c) (Proc.devRef .tc main_v13) = Cert.ReferenceIdeal.Read.val_main_v13 (F := Ideal) (m ((c.tc : Thread nD τ).loc main_arg3)) := by
  rw [HostRead.after_at H 20 _ main_v13 rfl (by decide) _, ternary_result,
    ← HostRead.after_take H 20 main_v10 (by decide) _,
    ← HostRead.after_take H 20 main_v12 (by decide) _,
    ← HostRead.after_take H 20 main_arg3 (by decide) _, st_main_v10 m c, st_main_v12 m c, st_main_arg3 m c]
  rfl

theorem st_main_v14 : StableHlo.after (ops (F := Ideal)) (launchContents m c) (Proc.devRef .tc main_v14) = Cert.ReferenceIdeal.Read.val_main_v14 (F := Ideal) := by
  rw [HostRead.after_at H 21 _ main_v14 rfl (by decide) _, unary_result,
    ← HostRead.after_take H 21 main_v8 (by decide) _, st_main_v8 m c]
  rfl

theorem st_main_v15 : StableHlo.after (ops (F := Ideal)) (launchContents m c) (Proc.devRef .tc main_v15) = Cert.ReferenceIdeal.Read.val_main_v15 (F := Ideal) := by
  rw [HostRead.after_at H 22 _ main_v15 rfl (by decide) _, unary_result,
    ← HostRead.after_take H 22 main_v14 (by decide) _, st_main_v14 m c]
  rfl

theorem st_main_v16 : StableHlo.after (ops (F := Ideal)) (launchContents m c) (Proc.devRef .tc main_v16) = Cert.ReferenceIdeal.Read.val_main_v16 (F := Ideal) (m ((c.tc : Thread nD τ).loc main_arg3)) := by
  rw [HostRead.after_at H 23 _ main_v16 rfl (by decide) _, unary_result,
    ← HostRead.after_take H 23 main_v13 (by decide) _, st_main_v13 m c]
  rfl

theorem st_main_v17 : StableHlo.after (ops (F := Ideal)) (launchContents m c) (Proc.devRef .tc main_v17) = Cert.ReferenceIdeal.Read.val_main_v17 (F := Ideal) (m ((c.tc : Thread nD τ).loc main_arg3)) := by
  rw [HostRead.after_at H 24 _ main_v17 rfl (by decide) _, binary_result,
    ← HostRead.after_take H 24 main_v15 (by decide) _,
    ← HostRead.after_take H 24 main_v16 (by decide) _, st_main_v15 m c, st_main_v16 m c]
  rfl

theorem st_main_v18 : StableHlo.after (ops (F := Ideal)) (launchContents m c) (Proc.devRef .tc main_v18) = Cert.ReferenceIdeal.Read.val_main_v18 (F := Ideal) (m ((c.tc : Thread nD τ).loc main_arg3)) (m ((c.tc : Thread nD τ).loc main_arg4)) := by
  rw [HostRead.after_at H 25 _ main_v18 rfl (by decide) _, ternary_result,
    ← HostRead.after_take H 25 main_v3 (by decide) _,
    ← HostRead.after_take H 25 main_v17 (by decide) _,
    ← HostRead.after_take H 25 main_arg4 (by decide) _, st_main_v3 m c, st_main_v17 m c, st_main_arg4 m c]
  rfl

theorem st_main_call0_cst : StableHlo.after (ops (F := Ideal)) (launchContents m c) (Proc.devRef .tc main_call0_cst) = Cert.ReferenceIdeal.Read.val_main_call0_cst (F := Ideal) := by
  rw [HostRead.after_at H 26 _ main_call0_cst rfl (by decide) _]
  exact eq_of_heq (HEq.trans (HostRead.tnullary_heq _ _ _) (heq_of_eq rfl))

theorem st_main_call0_v0 : StableHlo.after (ops (F := Ideal)) (launchContents m c) (Proc.devRef .tc main_call0_v0) = Cert.ReferenceIdeal.Read.val_main_call0_v0 (F := Ideal) (m ((c.tc : Thread nD τ).loc main_arg0)) := by
  rw [HostRead.after_at H 27 _ main_call0_v0 rfl (by decide) _]
  exact eq_of_heq (HEq.trans (HostRead.tbinary_heq _ _ _ _ _ (m ((c.tc : Thread nD τ).loc main_arg0)) (Cert.ReferenceIdeal.Read.val_main_call0_cst (F := Ideal))
      (heq_of_eq ((HostRead.after_take H 27 main_arg0 (by decide) _).symm.trans (st_main_arg0 m c)))
      (heq_of_eq ((HostRead.after_take H 27 main_call0_cst (by decide) _).symm.trans (st_main_call0_cst m c)))) (heq_of_eq rfl))

theorem st_main_call0_cst_0 : StableHlo.after (ops (F := Ideal)) (launchContents m c) (Proc.devRef .tc main_call0_cst_0) = Cert.ReferenceIdeal.Read.val_main_call0_cst_0 (F := Ideal) := by
  rw [HostRead.after_at H 28 _ main_call0_cst_0 rfl (by decide) _]
  exact eq_of_heq (HEq.trans (HostRead.tnullary_heq _ _ _) (heq_of_eq rfl))

theorem st_main_call0_v1 : StableHlo.after (ops (F := Ideal)) (launchContents m c) (Proc.devRef .tc main_call0_v1) = Cert.ReferenceIdeal.Read.val_main_call0_v1 (F := Ideal) := by
  rw [HostRead.after_at H 29 _ main_call0_v1 rfl (by decide) _]
  exact eq_of_heq (HEq.trans (HostRead.tunary_heq _ _ _ _ (Cert.ReferenceIdeal.Read.val_main_call0_cst_0 (F := Ideal))
      (heq_of_eq ((HostRead.after_take H 29 main_call0_cst_0 (by decide) _).symm.trans (st_main_call0_cst_0 m c)))) (heq_of_eq rfl))

theorem st_main_call0_v2 : StableHlo.after (ops (F := Ideal)) (launchContents m c) (Proc.devRef .tc main_call0_v2) = Cert.ReferenceIdeal.Read.val_main_call0_v2 (F := Ideal) (m ((c.tc : Thread nD τ).loc main_arg0)) := by
  rw [HostRead.after_at H 30 _ main_call0_v2 rfl (by decide) _]
  exact eq_of_heq (HEq.trans (HostRead.tbinary_heq _ _ _ _ _ (Cert.ReferenceIdeal.Read.val_main_call0_v1 (F := Ideal)) (Cert.ReferenceIdeal.Read.val_main_call0_v0 (F := Ideal) (m ((c.tc : Thread nD τ).loc main_arg0)))
      (heq_of_eq ((HostRead.after_take H 30 main_call0_v1 (by decide) _).symm.trans (st_main_call0_v1 m c)))
      (heq_of_eq ((HostRead.after_take H 30 main_call0_v0 (by decide) _).symm.trans (st_main_call0_v0 m c)))) (heq_of_eq rfl))

theorem st_main_call0_v3 : StableHlo.after (ops (F := Ideal)) (launchContents m c) (Proc.devRef .tc main_call0_v3) = Cert.ReferenceIdeal.Read.val_main_call0_v3 (F := Ideal) (m ((c.tc : Thread nD τ).loc main_arg0)) := by
  rw [HostRead.after_at H 31 _ main_call0_v3 rfl (by decide) _]
  exact eq_of_heq (HEq.trans (HostRead.tunary_heq _ _ _ _ (Cert.ReferenceIdeal.Read.val_main_call0_v2 (F := Ideal) (m ((c.tc : Thread nD τ).loc main_arg0)))
      (heq_of_eq ((HostRead.after_take H 31 main_call0_v2 (by decide) _).symm.trans (st_main_call0_v2 m c)))) (heq_of_eq rfl))

theorem st_main_call0_v4 : StableHlo.after (ops (F := Ideal)) (launchContents m c) (Proc.devRef .tc main_call0_v4) = Cert.ReferenceIdeal.Read.val_main_call0_v4 (F := Ideal) (m ((c.tc : Thread nD τ).loc main_arg0)) := by
  rw [HostRead.after_at H 32 _ main_call0_v4 rfl (by decide) _]
  exact eq_of_heq (HEq.trans (HostRead.tunary_heq _ _ _ _ (Cert.ReferenceIdeal.Read.val_main_call0_v3 (F := Ideal) (m ((c.tc : Thread nD τ).loc main_arg0)))
      (heq_of_eq ((HostRead.after_take H 32 main_call0_v3 (by decide) _).symm.trans (st_main_call0_v3 m c)))) (heq_of_eq rfl))

theorem st_main_call0_v5 : StableHlo.after (ops (F := Ideal)) (launchContents m c) (Proc.devRef .tc main_call0_v5) = Cert.ReferenceIdeal.Read.val_main_call0_v5 (F := Ideal) (m ((c.tc : Thread nD τ).loc main_arg0)) := by
  rw [HostRead.after_at H 33 _ main_call0_v5 rfl (by decide) _]
  exact eq_of_heq (HEq.trans (HostRead.tbinary_heq _ _ _ _ _ (m ((c.tc : Thread nD τ).loc main_arg0)) (Cert.ReferenceIdeal.Read.val_main_call0_v4 (F := Ideal) (m ((c.tc : Thread nD τ).loc main_arg0)))
      (heq_of_eq ((HostRead.after_take H 33 main_arg0 (by decide) _).symm.trans (st_main_arg0 m c)))
      (heq_of_eq ((HostRead.after_take H 33 main_call0_v4 (by decide) _).symm.trans (st_main_call0_v4 m c)))) (heq_of_eq rfl))

theorem st_main_call0_v6 : StableHlo.after (ops (F := Ideal)) (launchContents m c) (Proc.devRef .tc main_call0_v6) = Cert.ReferenceIdeal.Read.val_main_call0_v6 (F := Ideal) (m ((c.tc : Thread nD τ).loc main_arg0)) := by
  rw [HostRead.after_at H 34 _ main_call0_v6 rfl (by decide) _]
  exact eq_of_heq (HEq.trans (HostRead.tunary_heq _ _ _ _ (Cert.ReferenceIdeal.Read.val_main_call0_v5 (F := Ideal) (m ((c.tc : Thread nD τ).loc main_arg0)))
      (heq_of_eq ((HostRead.after_take H 34 main_call0_v5 (by decide) _).symm.trans (st_main_call0_v5 m c)))) (heq_of_eq rfl))

theorem st_main_call0_cst_1 : StableHlo.after (ops (F := Ideal)) (launchContents m c) (Proc.devRef .tc main_call0_cst_1) = Cert.ReferenceIdeal.Read.val_main_call0_cst_1 (F := Ideal) := by
  rw [HostRead.after_at H 35 _ main_call0_cst_1 rfl (by decide) _]
  exact eq_of_heq (HEq.trans (HostRead.tnullary_heq _ _ _) (heq_of_eq rfl))

theorem st_main_call0_v7 : StableHlo.after (ops (F := Ideal)) (launchContents m c) (Proc.devRef .tc main_call0_v7) = Cert.ReferenceIdeal.Read.val_main_call0_v7 (F := Ideal) (m ((c.tc : Thread nD τ).loc main_arg0)) := by
  rw [HostRead.after_at H 36 _ main_call0_v7 rfl (by decide) _]
  exact eq_of_heq (HEq.trans (HostRead.tbinary_heq _ _ _ _ _ (Cert.ReferenceIdeal.Read.val_main_call0_v6 (F := Ideal) (m ((c.tc : Thread nD τ).loc main_arg0))) (Cert.ReferenceIdeal.Read.val_main_call0_cst_1 (F := Ideal))
      (heq_of_eq ((HostRead.after_take H 36 main_call0_v6 (by decide) _).symm.trans (st_main_call0_v6 m c)))
      (heq_of_eq ((HostRead.after_take H 36 main_call0_cst_1 (by decide) _).symm.trans (st_main_call0_cst_1 m c)))) (heq_of_eq rfl))

theorem st_main_call0_v8 : StableHlo.after (ops (F := Ideal)) (launchContents m c) (Proc.devRef .tc main_call0_v8) = Cert.ReferenceIdeal.Read.val_main_call0_v8 (F := Ideal) (m ((c.tc : Thread nD τ).loc main_arg0)) := by
  rw [HostRead.after_at H 37 _ main_call0_v8 rfl (by decide) _]
  exact eq_of_heq (HEq.trans (HostRead.tunary_heq _ _ _ _ (Cert.ReferenceIdeal.Read.val_main_call0_v7 (F := Ideal) (m ((c.tc : Thread nD τ).loc main_arg0)))
      (heq_of_eq ((HostRead.after_take H 37 main_call0_v7 (by decide) _).symm.trans (st_main_call0_v7 m c)))) (heq_of_eq rfl))

theorem st_main_call0_v9 : StableHlo.after (ops (F := Ideal)) (launchContents m c) (Proc.devRef .tc main_call0_v9) = Cert.ReferenceIdeal.Read.val_main_call0_v9 (F := Ideal) (m ((c.tc : Thread nD τ).loc main_arg0)) := by
  rw [HostRead.after_at H 38 _ main_call0_v9 rfl (by decide) _]
  exact eq_of_heq (HEq.trans (HostRead.tunary_heq _ _ _ _ (Cert.ReferenceIdeal.Read.val_main_call0_v8 (F := Ideal) (m ((c.tc : Thread nD τ).loc main_arg0)))
      (heq_of_eq ((HostRead.after_take H 38 main_call0_v8 (by decide) _).symm.trans (st_main_call0_v8 m c)))) (heq_of_eq rfl))

theorem st_main_call0_v10 : StableHlo.after (ops (F := Ideal)) (launchContents m c) (Proc.devRef .tc main_call0_v10) = Cert.ReferenceIdeal.Read.val_main_call0_v10 (F := Ideal) (m ((c.tc : Thread nD τ).loc main_arg0)) := by
  rw [HostRead.after_at H 39 _ main_call0_v10 rfl (by decide) _]
  exact eq_of_heq (HEq.trans (HostRead.tunary_heq _ _ _ _ (Cert.ReferenceIdeal.Read.val_main_call0_v9 (F := Ideal) (m ((c.tc : Thread nD τ).loc main_arg0)))
      (heq_of_eq ((HostRead.after_take H 39 main_call0_v9 (by decide) _).symm.trans (st_main_call0_v9 m c)))) (heq_of_eq rfl))

theorem st_main_v19 : StableHlo.after (ops (F := Ideal)) (launchContents m c) (Proc.devRef .tc main_v19) = Cert.ReferenceIdeal.Read.val_main_v19 (F := Ideal) (m ((c.tc : Thread nD τ).loc main_arg0)) := by
  rw [HostRead.after_at H 40 _ main_v19 rfl (by decide) _]
  exact eq_of_heq (HEq.trans (HostRead.tbinary_heq _ _ _ _ _ (Cert.ReferenceIdeal.Read.val_main_call0_v5 (F := Ideal) (m ((c.tc : Thread nD τ).loc main_arg0))) (Cert.ReferenceIdeal.Read.val_main_call0_v10 (F := Ideal) (m ((c.tc : Thread nD τ).loc main_arg0)))
      (heq_of_eq ((HostRead.after_take H 40 main_call0_v5 (by decide) _).symm.trans (st_main_call0_v5 m c)))
      (heq_of_eq ((HostRead.after_take H 40 main_call0_v10 (by decide) _).symm.trans (st_main_call0_v10 m c)))) (heq_of_eq rfl))

theorem st_main_v20 : StableHlo.after (ops (F := Ideal)) (launchContents m c) (Proc.devRef .tc main_v20) = Cert.ReferenceIdeal.Read.val_main_v20 (F := Ideal) (m ((c.tc : Thread nD τ).loc main_arg3)) (m ((c.tc : Thread nD τ).loc main_arg4)) := by
  rw [HostRead.after_at H 41 _ main_v20 rfl (by decide) _, unary_result,
    ← HostRead.after_take H 41 main_v18 (by decide) _, st_main_v18 m c]
  rfl

theorem st_main_call1_c : StableHlo.after (ops (F := Ideal)) (launchContents m c) (Proc.devRef .tc main_call1_c) = Cert.ReferenceIdeal.Read.val_main_call1_c (F := Ideal) := by
  rw [HostRead.after_at H 42 _ main_call1_c rfl (by decide) _]
  exact eq_of_heq (HEq.trans (HostRead.tnullary_heq _ _ _) (heq_of_eq rfl))

theorem st_main_call1_v0 : StableHlo.after (ops (F := Ideal)) (launchContents m c) (Proc.devRef .tc main_call1_v0) = Cert.ReferenceIdeal.Read.val_main_call1_v0 (F := Ideal) := by
  rw [HostRead.after_at H 43 _ main_call1_v0 rfl (by decide) _]
  exact eq_of_heq (HEq.trans (HostRead.tunary_heq _ _ _ _ (Cert.ReferenceIdeal.Read.val_main_call1_c (F := Ideal))
      (heq_of_eq ((HostRead.after_take H 43 main_call1_c (by decide) _).symm.trans (st_main_call1_c m c)))) (heq_of_eq rfl))

theorem st_main_call1_v1 : StableHlo.after (ops (F := Ideal)) (launchContents m c) (Proc.devRef .tc main_call1_v1) = Cert.ReferenceIdeal.Read.val_main_call1_v1 (F := Ideal) (m ((c.tc : Thread nD τ).loc main_arg3)) (m ((c.tc : Thread nD τ).loc main_arg4)) := by
  rw [HostRead.after_at H 44 _ main_call1_v1 rfl (by decide) _]
  exact eq_of_heq (HEq.trans (HostRead.tbinary_heq _ _ _ _ _ (Cert.ReferenceIdeal.Read.val_main_v20 (F := Ideal) (m ((c.tc : Thread nD τ).loc main_arg3)) (m ((c.tc : Thread nD τ).loc main_arg4))) (Cert.ReferenceIdeal.Read.val_main_call1_v0 (F := Ideal))
      (heq_of_eq ((HostRead.after_take H 44 main_v20 (by decide) _).symm.trans (st_main_v20 m c)))
      (heq_of_eq ((HostRead.after_take H 44 main_call1_v0 (by decide) _).symm.trans (st_main_call1_v0 m c)))) (heq_of_eq rfl))

theorem st_main_call1_c_0 : StableHlo.after (ops (F := Ideal)) (launchContents m c) (Proc.devRef .tc main_call1_c_0) = Cert.ReferenceIdeal.Read.val_main_call1_c_0 (F := Ideal) := by
  rw [HostRead.after_at H 45 _ main_call1_c_0 rfl (by decide) _]
  exact eq_of_heq (HEq.trans (HostRead.tnullary_heq _ _ _) (heq_of_eq rfl))

theorem st_main_call1_v2 : StableHlo.after (ops (F := Ideal)) (launchContents m c) (Proc.devRef .tc main_call1_v2) = Cert.ReferenceIdeal.Read.val_main_call1_v2 (F := Ideal) := by
  rw [HostRead.after_at H 46 _ main_call1_v2 rfl (by decide) _]
  exact eq_of_heq (HEq.trans (HostRead.tunary_heq _ _ _ _ (Cert.ReferenceIdeal.Read.val_main_call1_c_0 (F := Ideal))
      (heq_of_eq ((HostRead.after_take H 46 main_call1_c_0 (by decide) _).symm.trans (st_main_call1_c_0 m c)))) (heq_of_eq rfl))

theorem st_main_call1_v3 : StableHlo.after (ops (F := Ideal)) (launchContents m c) (Proc.devRef .tc main_call1_v3) = Cert.ReferenceIdeal.Read.val_main_call1_v3 (F := Ideal) (m ((c.tc : Thread nD τ).loc main_arg3)) (m ((c.tc : Thread nD τ).loc main_arg4)) := by
  rw [HostRead.after_at H 47 _ main_call1_v3 rfl (by decide) _]
  exact eq_of_heq (HEq.trans (HostRead.tbinary_heq _ _ _ _ _ (Cert.ReferenceIdeal.Read.val_main_v20 (F := Ideal) (m ((c.tc : Thread nD τ).loc main_arg3)) (m ((c.tc : Thread nD τ).loc main_arg4))) (Cert.ReferenceIdeal.Read.val_main_call1_v2 (F := Ideal))
      (heq_of_eq ((HostRead.after_take H 47 main_v20 (by decide) _).symm.trans (st_main_v20 m c)))
      (heq_of_eq ((HostRead.after_take H 47 main_call1_v2 (by decide) _).symm.trans (st_main_call1_v2 m c)))) (heq_of_eq rfl))

theorem st_main_call1_v4 : StableHlo.after (ops (F := Ideal)) (launchContents m c) (Proc.devRef .tc main_call1_v4) = Cert.ReferenceIdeal.Read.val_main_call1_v4 (F := Ideal) (m ((c.tc : Thread nD τ).loc main_arg3)) (m ((c.tc : Thread nD τ).loc main_arg4)) := by
  rw [HostRead.after_at H 48 _ main_call1_v4 rfl (by decide) _]
  exact eq_of_heq (HEq.trans (HostRead.tternary_heq _ _ _ _ _ _ (Cert.ReferenceIdeal.Read.val_main_call1_v1 (F := Ideal) (m ((c.tc : Thread nD τ).loc main_arg3)) (m ((c.tc : Thread nD τ).loc main_arg4))) (Cert.ReferenceIdeal.Read.val_main_call1_v3 (F := Ideal) (m ((c.tc : Thread nD τ).loc main_arg3)) (m ((c.tc : Thread nD τ).loc main_arg4))) (Cert.ReferenceIdeal.Read.val_main_v20 (F := Ideal) (m ((c.tc : Thread nD τ).loc main_arg3)) (m ((c.tc : Thread nD τ).loc main_arg4)))
      (heq_of_eq ((HostRead.after_take H 48 main_call1_v1 (by decide) _).symm.trans (st_main_call1_v1 m c)))
      (heq_of_eq ((HostRead.after_take H 48 main_call1_v3 (by decide) _).symm.trans (st_main_call1_v3 m c)))
      (heq_of_eq ((HostRead.after_take H 48 main_v20 (by decide) _).symm.trans (st_main_v20 m c)))) (heq_of_eq rfl))

theorem st_main_call1_v5 : StableHlo.after (ops (F := Ideal)) (launchContents m c) (Proc.devRef .tc main_call1_v5) = Cert.ReferenceIdeal.Read.val_main_call1_v5 (F := Ideal) (m ((c.tc : Thread nD τ).loc main_arg3)) (m ((c.tc : Thread nD τ).loc main_arg4)) := by
  rw [HostRead.after_at H 49 _ main_call1_v5 rfl (by decide) _, reshape_result,
    ← HostRead.after_take H 49 main_call1_v4 (by decide) _, st_main_call1_v4 m c]
  rfl

theorem st_main_call1_c_1 : StableHlo.after (ops (F := Ideal)) (launchContents m c) (Proc.devRef .tc main_call1_c_1) = Cert.ReferenceIdeal.Read.val_main_call1_c_1 (F := Ideal) := by
  rw [HostRead.after_at H 50 _ main_call1_c_1 rfl (by decide) _]
  exact eq_of_heq (HEq.trans (HostRead.tnullary_heq _ _ _) (heq_of_eq rfl))

theorem st_main_call1_c_2 : StableHlo.after (ops (F := Ideal)) (launchContents m c) (Proc.devRef .tc main_call1_c_2) = Cert.ReferenceIdeal.Read.val_main_call1_c_2 (F := Ideal) := by
  rw [HostRead.after_at H 51 _ main_call1_c_2 rfl (by decide) _]
  exact eq_of_heq (HEq.trans (HostRead.tnullary_heq _ _ _) (heq_of_eq rfl))

theorem st_main_call1_v6 : StableHlo.after (ops (F := Ideal)) (launchContents m c) (Proc.devRef .tc main_call1_v6) = Cert.ReferenceIdeal.Read.val_main_call1_v6 (F := Ideal) := by
  rw [HostRead.after_at H 52 _ main_call1_v6 rfl (by decide) _]
  exact eq_of_heq (HEq.trans (HostRead.tunary_heq _ _ _ _ (Cert.ReferenceIdeal.Read.val_main_call1_c_2 (F := Ideal))
      (heq_of_eq ((HostRead.after_take H 52 main_call1_c_2 (by decide) _).symm.trans (st_main_call1_c_2 m c)))) (heq_of_eq rfl))

theorem st_main_call1_v7 : StableHlo.after (ops (F := Ideal)) (launchContents m c) (Proc.devRef .tc main_call1_v7) = Cert.ReferenceIdeal.Read.val_main_call1_v7 (F := Ideal) (m ((c.tc : Thread nD τ).loc main_arg3)) (m ((c.tc : Thread nD τ).loc main_arg4)) := by
  rw [HostRead.after_at H 53 _ main_call1_v7 rfl (by decide) _]
  exact eq_of_heq (HEq.trans (HostRead.tbinary_heq _ _ _ _ _ (Cert.ReferenceIdeal.Read.val_main_call1_v5 (F := Ideal) (m ((c.tc : Thread nD τ).loc main_arg3)) (m ((c.tc : Thread nD τ).loc main_arg4))) (Cert.ReferenceIdeal.Read.val_main_call1_v6 (F := Ideal))
      (heq_of_eq ((HostRead.after_take H 53 main_call1_v5 (by decide) _).symm.trans (st_main_call1_v5 m c)))
      (heq_of_eq ((HostRead.after_take H 53 main_call1_v6 (by decide) _).symm.trans (st_main_call1_v6 m c)))) (heq_of_eq rfl))

theorem st_main_call1_v8 : StableHlo.after (ops (F := Ideal)) (launchContents m c) (Proc.devRef .tc main_call1_v8) = Cert.ReferenceIdeal.Read.val_main_call1_v8 (F := Ideal) := by
  rw [HostRead.after_at H 54 _ main_call1_v8 rfl (by decide) _]
  exact eq_of_heq (HEq.trans (HostRead.tunary_heq _ _ _ _ (Cert.ReferenceIdeal.Read.val_main_call1_c_1 (F := Ideal))
      (heq_of_eq ((HostRead.after_take H 54 main_call1_c_1 (by decide) _).symm.trans (st_main_call1_c_1 m c)))) (heq_of_eq rfl))

theorem st_main_call1_v9 : StableHlo.after (ops (F := Ideal)) (launchContents m c) (Proc.devRef .tc main_call1_v9) = Cert.ReferenceIdeal.Read.val_main_call1_v9 (F := Ideal) := by
  rw [HostRead.after_at H 55 _ main_call1_v9 rfl (by decide) _]
  exact eq_of_heq (HEq.trans (HostRead.tunary_heq _ _ _ _ (Cert.ReferenceIdeal.Read.val_main_call1_v8 (F := Ideal))
      (heq_of_eq ((HostRead.after_take H 55 main_call1_v8 (by decide) _).symm.trans (st_main_call1_v8 m c)))) (heq_of_eq rfl))

theorem st_main_call1_v10 : StableHlo.after (ops (F := Ideal)) (launchContents m c) (Proc.devRef .tc main_call1_v10) = Cert.ReferenceIdeal.Read.val_main_call1_v10 (F := Ideal) (m ((c.tc : Thread nD τ).loc main_arg3)) (m ((c.tc : Thread nD τ).loc main_arg4)) := by
  rw [HostRead.after_at H 56 _ main_call1_v10 rfl (by decide) _]
  exact eq_of_heq (HEq.trans (HostRead.tbinary_heq _ _ _ _ _ (Cert.ReferenceIdeal.Read.val_main_call1_v5 (F := Ideal) (m ((c.tc : Thread nD τ).loc main_arg3)) (m ((c.tc : Thread nD τ).loc main_arg4))) (Cert.ReferenceIdeal.Read.val_main_call1_v9 (F := Ideal))
      (heq_of_eq ((HostRead.after_take H 56 main_call1_v5 (by decide) _).symm.trans (st_main_call1_v5 m c)))
      (heq_of_eq ((HostRead.after_take H 56 main_call1_v9 (by decide) _).symm.trans (st_main_call1_v9 m c)))) (heq_of_eq rfl))

theorem st_main_call1_v11 : StableHlo.after (ops (F := Ideal)) (launchContents m c) (Proc.devRef .tc main_call1_v11) = Cert.ReferenceIdeal.Read.val_main_call1_v11 (F := Ideal) (m ((c.tc : Thread nD τ).loc main_arg3)) (m ((c.tc : Thread nD τ).loc main_arg4)) := by
  rw [HostRead.after_at H 57 _ main_call1_v11 rfl (by decide) _]
  exact eq_of_heq (HEq.trans (HostRead.tbinary_heq _ _ _ _ _ (Cert.ReferenceIdeal.Read.val_main_call1_v7 (F := Ideal) (m ((c.tc : Thread nD τ).loc main_arg3)) (m ((c.tc : Thread nD τ).loc main_arg4))) (Cert.ReferenceIdeal.Read.val_main_call1_v10 (F := Ideal) (m ((c.tc : Thread nD τ).loc main_arg3)) (m ((c.tc : Thread nD τ).loc main_arg4)))
      (heq_of_eq ((HostRead.after_take H 57 main_call1_v7 (by decide) _).symm.trans (st_main_call1_v7 m c)))
      (heq_of_eq ((HostRead.after_take H 57 main_call1_v10 (by decide) _).symm.trans (st_main_call1_v10 m c)))) (heq_of_eq rfl))

theorem st_main_call1_c_3 : StableHlo.after (ops (F := Ideal)) (launchContents m c) (Proc.devRef .tc main_call1_c_3) = Cert.ReferenceIdeal.Read.val_main_call1_c_3 (F := Ideal) := by
  rw [HostRead.after_at H 58 _ main_call1_c_3 rfl (by decide) _]
  exact eq_of_heq (HEq.trans (HostRead.tnullary_heq _ _ _) (heq_of_eq rfl))

theorem st_main_call1_v12 : StableHlo.after (ops (F := Ideal)) (launchContents m c) (Proc.devRef .tc main_call1_v12) = Cert.ReferenceIdeal.Read.val_main_call1_v12 (F := Ideal) (m ((c.tc : Thread nD τ).loc main_arg3)) (m ((c.tc : Thread nD τ).loc main_arg4)) := by
  rw [HostRead.after_at H 59 _ main_call1_v12 rfl (by decide) _]
  exact eq_of_heq (HEq.trans (HostRead.tbinary_heq _ _ _ _ _ (Cert.ReferenceIdeal.Read.val_main_call1_v11 (F := Ideal) (m ((c.tc : Thread nD τ).loc main_arg3)) (m ((c.tc : Thread nD τ).loc main_arg4))) (Cert.ReferenceIdeal.Read.val_main_call1_c_3 (F := Ideal))
      (heq_of_eq ((HostRead.after_take H 59 main_call1_v11 (by decide) _).symm.trans (st_main_call1_v11 m c)))
      (heq_of_eq ((HostRead.after_take H 59 main_call1_c_3 (by decide) _).symm.trans (st_main_call1_c_3 m c)))) (heq_of_eq rfl))

theorem st_main_call1_v13 : StableHlo.after (ops (F := Ideal)) (launchContents m c) (Proc.devRef .tc main_call1_v13) = Cert.ReferenceIdeal.Read.val_main_call1_v13 (F := Ideal) (m ((c.tc : Thread nD τ).loc main_arg0)) (m ((c.tc : Thread nD τ).loc main_arg3)) (m ((c.tc : Thread nD τ).loc main_arg4)) := by
  rw [HostRead.after_at H 60 _ main_call1_v13 rfl (by decide) _]
  exact eq_of_heq (HEq.trans (HostRead.tbinary_heq _ _ _ _ _ (Cert.ReferenceIdeal.Read.val_main_v19 (F := Ideal) (m ((c.tc : Thread nD τ).loc main_arg0))) (Cert.ReferenceIdeal.Read.val_main_call1_v5 (F := Ideal) (m ((c.tc : Thread nD τ).loc main_arg3)) (m ((c.tc : Thread nD τ).loc main_arg4)))
      (heq_of_eq ((HostRead.after_take H 60 main_v19 (by decide) _).symm.trans (st_main_v19 m c)))
      (heq_of_eq ((HostRead.after_take H 60 main_call1_v5 (by decide) _).symm.trans (st_main_call1_v5 m c)))) (heq_of_eq rfl))

theorem st_main_call1_cst : StableHlo.after (ops (F := Ideal)) (launchContents m c) (Proc.devRef .tc main_call1_cst) = Cert.ReferenceIdeal.Read.val_main_call1_cst (F := Ideal) := by
  rw [HostRead.after_at H 61 _ main_call1_cst rfl (by decide) _]
  exact eq_of_heq (HEq.trans (HostRead.tnullary_heq _ _ _) (heq_of_eq rfl))

theorem st_main_call1_v14 : StableHlo.after (ops (F := Ideal)) (launchContents m c) (Proc.devRef .tc main_call1_v14) = Cert.ReferenceIdeal.Read.val_main_call1_v14 (F := Ideal) := by
  rw [HostRead.after_at H 62 _ main_call1_v14 rfl (by decide) _]
  exact eq_of_heq (HEq.trans (HostRead.tunary_heq _ _ _ _ (Cert.ReferenceIdeal.Read.val_main_call1_cst (F := Ideal))
      (heq_of_eq ((HostRead.after_take H 62 main_call1_cst (by decide) _).symm.trans (st_main_call1_cst m c)))) (heq_of_eq rfl))

theorem st_main_v21 : StableHlo.after (ops (F := Ideal)) (launchContents m c) (Proc.devRef .tc main_v21) = Cert.ReferenceIdeal.Read.val_main_v21 (F := Ideal) (m ((c.tc : Thread nD τ).loc main_arg0)) (m ((c.tc : Thread nD τ).loc main_arg3)) (m ((c.tc : Thread nD τ).loc main_arg4)) := by
  rw [HostRead.after_at H 63 _ main_v21 rfl (by decide) _]
  exact eq_of_heq (HEq.trans (HostRead.tternary_heq _ _ _ _ _ _ (Cert.ReferenceIdeal.Read.val_main_call1_v12 (F := Ideal) (m ((c.tc : Thread nD τ).loc main_arg3)) (m ((c.tc : Thread nD τ).loc main_arg4))) (Cert.ReferenceIdeal.Read.val_main_call1_v13 (F := Ideal) (m ((c.tc : Thread nD τ).loc main_arg0)) (m ((c.tc : Thread nD τ).loc main_arg3)) (m ((c.tc : Thread nD τ).loc main_arg4))) (Cert.ReferenceIdeal.Read.val_main_call1_v14 (F := Ideal))
      (heq_of_eq ((HostRead.after_take H 63 main_call1_v12 (by decide) _).symm.trans (st_main_call1_v12 m c)))
      (heq_of_eq ((HostRead.after_take H 63 main_call1_v13 (by decide) _).symm.trans (st_main_call1_v13 m c)))
      (heq_of_eq ((HostRead.after_take H 63 main_call1_v14 (by decide) _).symm.trans (st_main_call1_v14 m c)))) (heq_of_eq rfl))

theorem st_main_cst_5 : StableHlo.after (ops (F := Ideal)) (launchContents m c) (Proc.devRef .tc main_cst_5) = Cert.ReferenceIdeal.Read.val_main_cst_5 (F := Ideal) := by
  rw [HostRead.after_at H 64 _ main_cst_5 rfl (by decide) _, nullary_result]
  rfl

theorem st_main_v22 : StableHlo.after (ops (F := Ideal)) (launchContents m c) (Proc.devRef .tc main_v22) = Cert.ReferenceIdeal.Read.val_main_v22 (F := Ideal) (m ((c.tc : Thread nD τ).loc main_arg0)) (m ((c.tc : Thread nD τ).loc main_arg3)) (m ((c.tc : Thread nD τ).loc main_arg4)) := by
  rw [HostRead.after_at H 65 _ main_v22 rfl (by decide) _, binary_result,
    ← HostRead.after_take H 65 main_v21 (by decide) _,
    ← HostRead.after_take H 65 main_cst_5 (by decide) _, st_main_v21 m c, st_main_cst_5 m c]
  rfl

theorem st_main_cst_6 : StableHlo.after (ops (F := Ideal)) (launchContents m c) (Proc.devRef .tc main_cst_6) = Cert.ReferenceIdeal.Read.val_main_cst_6 (F := Ideal) := by
  rw [HostRead.after_at H 66 _ main_cst_6 rfl (by decide) _, nullary_result]
  rfl

theorem st_main_v23 : StableHlo.after (ops (F := Ideal)) (launchContents m c) (Proc.devRef .tc main_v23) = Cert.ReferenceIdeal.Read.val_main_v23 (F := Ideal) (m ((c.tc : Thread nD τ).loc main_arg0)) (m ((c.tc : Thread nD τ).loc main_arg3)) (m ((c.tc : Thread nD τ).loc main_arg4)) := by
  rw [HostRead.after_at H 67 _ main_v23 rfl (by decide) _, binary_result,
    ← HostRead.after_take H 67 main_v22 (by decide) _,
    ← HostRead.after_take H 67 main_cst_6 (by decide) _, st_main_v22 m c, st_main_cst_6 m c]
  rfl

theorem st_main_v24 : StableHlo.after (ops (F := Ideal)) (launchContents m c) (Proc.devRef .tc main_v24) = Cert.ReferenceIdeal.Read.val_main_v24 (F := Ideal) (m ((c.tc : Thread nD τ).loc main_arg0)) (m ((c.tc : Thread nD τ).loc main_arg3)) (m ((c.tc : Thread nD τ).loc main_arg4)) := by
  rw [HostRead.after_at H 68 _ main_v24 rfl (by decide) _, unary_result,
    ← HostRead.after_take H 68 main_v23 (by decide) _, st_main_v23 m c]
  rfl

theorem st_main_c_7 : StableHlo.after (ops (F := Ideal)) (launchContents m c) (Proc.devRef .tc main_c_7) = Cert.ReferenceIdeal.Read.val_main_c_7 (F := Ideal) := by
  rw [HostRead.after_at H 69 _ main_c_7 rfl (by decide) _, nullary_result]
  rfl

theorem st_main_v25 : StableHlo.after (ops (F := Ideal)) (launchContents m c) (Proc.devRef .tc main_v25) = Cert.ReferenceIdeal.Read.val_main_v25 (F := Ideal) := by
  rw [HostRead.after_at H 70 _ main_v25 rfl (by decide) _, unary_result,
    ← HostRead.after_take H 70 main_c_7 (by decide) _, st_main_c_7 m c]
  rfl

theorem st_main_v26 : StableHlo.after (ops (F := Ideal)) (launchContents m c) (Proc.devRef .tc main_v26) = Cert.ReferenceIdeal.Read.val_main_v26 (F := Ideal) := by
  rw [HostRead.after_at H 71 _ main_v26 rfl (by decide) _, binary_result,
    ← HostRead.after_take H 71 main_v2 (by decide) _,
    ← HostRead.after_take H 71 main_v25 (by decide) _, st_main_v2 m c, st_main_v25 m c]
  rfl

theorem st_main_c_8 : StableHlo.after (ops (F := Ideal)) (launchContents m c) (Proc.devRef .tc main_c_8) = Cert.ReferenceIdeal.Read.val_main_c_8 (F := Ideal) := by
  rw [HostRead.after_at H 72 _ main_c_8 rfl (by decide) _, nullary_result]
  rfl

theorem st_main_v27 : StableHlo.after (ops (F := Ideal)) (launchContents m c) (Proc.devRef .tc main_v27) = Cert.ReferenceIdeal.Read.val_main_v27 (F := Ideal) := by
  rw [HostRead.after_at H 73 _ main_v27 rfl (by decide) _, unary_result,
    ← HostRead.after_take H 73 main_c_8 (by decide) _, st_main_c_8 m c]
  rfl

theorem st_main_v28 : StableHlo.after (ops (F := Ideal)) (launchContents m c) (Proc.devRef .tc main_v28) = Cert.ReferenceIdeal.Read.val_main_v28 (F := Ideal) := by
  rw [HostRead.after_at H 74 _ main_v28 rfl (by decide) _, binary_result,
    ← HostRead.after_take H 74 main_v2 (by decide) _,
    ← HostRead.after_take H 74 main_v27 (by decide) _, st_main_v2 m c, st_main_v27 m c]
  rfl

theorem st_main_v29 : StableHlo.after (ops (F := Ideal)) (launchContents m c) (Proc.devRef .tc main_v29) = Cert.ReferenceIdeal.Read.val_main_v29 (F := Ideal) := by
  rw [HostRead.after_at H 75 _ main_v29 rfl (by decide) _, ternary_result,
    ← HostRead.after_take H 75 main_v26 (by decide) _,
    ← HostRead.after_take H 75 main_v28 (by decide) _,
    ← HostRead.after_take H 75 main_v2 (by decide) _, st_main_v26 m c, st_main_v28 m c, st_main_v2 m c]
  rfl

theorem st_main_c_9 : StableHlo.after (ops (F := Ideal)) (launchContents m c) (Proc.devRef .tc main_c_9) = Cert.ReferenceIdeal.Read.val_main_c_9 (F := Ideal) := by
  rw [HostRead.after_at H 76 _ main_c_9 rfl (by decide) _, nullary_result]
  rfl

theorem st_main_v30 : StableHlo.after (ops (F := Ideal)) (launchContents m c) (Proc.devRef .tc main_v30) = Cert.ReferenceIdeal.Read.val_main_v30 (F := Ideal) := by
  rw [HostRead.after_at H 77 _ main_v30 rfl (by decide) _, unary_result,
    ← HostRead.after_take H 77 main_c_9 (by decide) _, st_main_c_9 m c]
  rfl

theorem st_main_v31 : StableHlo.after (ops (F := Ideal)) (launchContents m c) (Proc.devRef .tc main_v31) = Cert.ReferenceIdeal.Read.val_main_v31 (F := Ideal) (m ((c.tc : Thread nD τ).loc main_arg3)) := by
  rw [HostRead.after_at H 78 _ main_v31 rfl (by decide) _, binary_result,
    ← HostRead.after_take H 78 main_arg3 (by decide) _,
    ← HostRead.after_take H 78 main_v30 (by decide) _, st_main_arg3 m c, st_main_v30 m c]
  rfl

theorem st_main_c_10 : StableHlo.after (ops (F := Ideal)) (launchContents m c) (Proc.devRef .tc main_c_10) = Cert.ReferenceIdeal.Read.val_main_c_10 (F := Ideal) := by
  rw [HostRead.after_at H 79 _ main_c_10 rfl (by decide) _, nullary_result]
  rfl

theorem st_main_v32 : StableHlo.after (ops (F := Ideal)) (launchContents m c) (Proc.devRef .tc main_v32) = Cert.ReferenceIdeal.Read.val_main_v32 (F := Ideal) := by
  rw [HostRead.after_at H 80 _ main_v32 rfl (by decide) _, unary_result,
    ← HostRead.after_take H 80 main_c_10 (by decide) _, st_main_c_10 m c]
  rfl

theorem st_main_v33 : StableHlo.after (ops (F := Ideal)) (launchContents m c) (Proc.devRef .tc main_v33) = Cert.ReferenceIdeal.Read.val_main_v33 (F := Ideal) (m ((c.tc : Thread nD τ).loc main_arg3)) := by
  rw [HostRead.after_at H 81 _ main_v33 rfl (by decide) _, binary_result,
    ← HostRead.after_take H 81 main_arg3 (by decide) _,
    ← HostRead.after_take H 81 main_v32 (by decide) _, st_main_arg3 m c, st_main_v32 m c]
  rfl

theorem st_main_v34 : StableHlo.after (ops (F := Ideal)) (launchContents m c) (Proc.devRef .tc main_v34) = Cert.ReferenceIdeal.Read.val_main_v34 (F := Ideal) (m ((c.tc : Thread nD τ).loc main_arg3)) := by
  rw [HostRead.after_at H 82 _ main_v34 rfl (by decide) _, ternary_result,
    ← HostRead.after_take H 82 main_v31 (by decide) _,
    ← HostRead.after_take H 82 main_v33 (by decide) _,
    ← HostRead.after_take H 82 main_arg3 (by decide) _, st_main_v31 m c, st_main_v33 m c, st_main_arg3 m c]
  rfl

theorem st_main_v35 : StableHlo.after (ops (F := Ideal)) (launchContents m c) (Proc.devRef .tc main_v35) = Cert.ReferenceIdeal.Read.val_main_v35 (F := Ideal) := by
  rw [HostRead.after_at H 83 _ main_v35 rfl (by decide) _, unary_result,
    ← HostRead.after_take H 83 main_v29 (by decide) _, st_main_v29 m c]
  rfl

theorem st_main_v36 : StableHlo.after (ops (F := Ideal)) (launchContents m c) (Proc.devRef .tc main_v36) = Cert.ReferenceIdeal.Read.val_main_v36 (F := Ideal) := by
  rw [HostRead.after_at H 84 _ main_v36 rfl (by decide) _, unary_result,
    ← HostRead.after_take H 84 main_v35 (by decide) _, st_main_v35 m c]
  rfl

theorem st_main_v37 : StableHlo.after (ops (F := Ideal)) (launchContents m c) (Proc.devRef .tc main_v37) = Cert.ReferenceIdeal.Read.val_main_v37 (F := Ideal) (m ((c.tc : Thread nD τ).loc main_arg3)) := by
  rw [HostRead.after_at H 85 _ main_v37 rfl (by decide) _, unary_result,
    ← HostRead.after_take H 85 main_v34 (by decide) _, st_main_v34 m c]
  rfl

theorem st_main_v38 : StableHlo.after (ops (F := Ideal)) (launchContents m c) (Proc.devRef .tc main_v38) = Cert.ReferenceIdeal.Read.val_main_v38 (F := Ideal) (m ((c.tc : Thread nD τ).loc main_arg3)) := by
  rw [HostRead.after_at H 86 _ main_v38 rfl (by decide) _, binary_result,
    ← HostRead.after_take H 86 main_v36 (by decide) _,
    ← HostRead.after_take H 86 main_v37 (by decide) _, st_main_v36 m c, st_main_v37 m c]
  rfl

theorem st_main_v39 : StableHlo.after (ops (F := Ideal)) (launchContents m c) (Proc.devRef .tc main_v39) = Cert.ReferenceIdeal.Read.val_main_v39 (F := Ideal) (m ((c.tc : Thread nD τ).loc main_arg1)) (m ((c.tc : Thread nD τ).loc main_arg3)) := by
  rw [HostRead.after_at H 87 _ main_v39 rfl (by decide) _, binary_result,
    ← HostRead.after_take H 87 main_arg1 (by decide) _,
    ← HostRead.after_take H 87 main_v38 (by decide) _, st_main_arg1 m c, st_main_v38 m c]
  rfl

theorem st_main_v40 : StableHlo.after (ops (F := Ideal)) (launchContents m c) (Proc.devRef .tc main_v40) = Cert.ReferenceIdeal.Read.val_main_v40 (F := Ideal) (m ((c.tc : Thread nD τ).loc main_arg1)) (m ((c.tc : Thread nD τ).loc main_arg3)) := by
  rw [HostRead.after_at H 88 _ main_v40 rfl (by decide) _, unary_result,
    ← HostRead.after_take H 88 main_v39 (by decide) _, st_main_v39 m c]
  rfl

theorem st_main_v41 : StableHlo.after (ops (F := Ideal)) (launchContents m c) (Proc.devRef .tc main_v41) = Cert.ReferenceIdeal.Read.val_main_v41 (F := Ideal) (m ((c.tc : Thread nD τ).loc main_arg2)) := by
  rw [HostRead.after_at H 89 _ main_v41 rfl (by decide) _, unary_result,
    ← HostRead.after_take H 89 main_arg2 (by decide) _, st_main_arg2 m c]
  rfl

theorem st_main_v42 : StableHlo.after (ops (F := Ideal)) (launchContents m c) (Proc.devRef .tc main_v42) = Cert.ReferenceIdeal.Read.val_main_v42 (F := Ideal) (m ((c.tc : Thread nD τ).loc main_arg1)) (m ((c.tc : Thread nD τ).loc main_arg3)) := by
  rw [HostRead.after_at H 90 _ main_v42 rfl (by decide) _, unary_result,
    ← HostRead.after_take H 90 main_v40 (by decide) _, st_main_v40 m c]
  rfl

theorem st_main_v43 : StableHlo.after (ops (F := Ideal)) (launchContents m c) (Proc.devRef .tc main_v43) = Cert.ReferenceIdeal.Read.val_main_v43 (F := Ideal) (m ((c.tc : Thread nD τ).loc main_arg2)) := by
  rw [HostRead.after_at H 91 _ main_v43 rfl (by decide) _, unary_result,
    ← HostRead.after_take H 91 main_v41 (by decide) _, st_main_v41 m c]
  rfl

theorem st_main_v44 : StableHlo.after (ops (F := Ideal)) (launchContents m c) (Proc.devRef .tc main_v44) = Cert.ReferenceIdeal.Read.val_main_v44 (F := Ideal) (m ((c.tc : Thread nD τ).loc main_arg1)) (m ((c.tc : Thread nD τ).loc main_arg2)) (m ((c.tc : Thread nD τ).loc main_arg3)) := by
  rw [HostRead.after_at H 92 _ main_v44 rfl (by decide) _, binary_result,
    ← HostRead.after_take H 92 main_v42 (by decide) _,
    ← HostRead.after_take H 92 main_v43 (by decide) _, st_main_v42 m c, st_main_v43 m c]
  rfl

theorem st_main_v45 : StableHlo.after (ops (F := Ideal)) (launchContents m c) (Proc.devRef .tc main_v45) = Cert.ReferenceIdeal.Read.val_main_v45 (F := Ideal) (m ((c.tc : Thread nD τ).loc main_arg1)) (m ((c.tc : Thread nD τ).loc main_arg2)) (m ((c.tc : Thread nD τ).loc main_arg3)) := by
  rw [HostRead.after_at H 93 _ main_v45 rfl (by decide) _, unary_result,
    ← HostRead.after_take H 93 main_v44 (by decide) _, st_main_v44 m c]
  rfl

theorem st_main_cst_11 : StableHlo.after (ops (F := Ideal)) (launchContents m c) (Proc.devRef .tc main_cst_11) = Cert.ReferenceIdeal.Read.val_main_cst_11 (F := Ideal) := by
  rw [HostRead.after_at H 94 _ main_cst_11 rfl (by decide) _, nullary_result]
  rfl

theorem st_main_v46 : StableHlo.after (ops (F := Ideal)) (launchContents m c) (Proc.devRef .tc main_v46) = Cert.ReferenceIdeal.Read.val_main_v46 (F := Ideal) (m ((c.tc : Thread nD τ).loc main_arg1)) (m ((c.tc : Thread nD τ).loc main_arg2)) (m ((c.tc : Thread nD τ).loc main_arg3)) := by
  rw [HostRead.after_at H 95 _ main_v46 rfl (by decide) _, binary_result,
    ← HostRead.after_take H 95 main_v45 (by decide) _,
    ← HostRead.after_take H 95 main_cst_11 (by decide) _, st_main_v45 m c, st_main_cst_11 m c]
  rfl

theorem st_main_cst_12 : StableHlo.after (ops (F := Ideal)) (launchContents m c) (Proc.devRef .tc main_cst_12) = Cert.ReferenceIdeal.Read.val_main_cst_12 (F := Ideal) := by
  rw [HostRead.after_at H 96 _ main_cst_12 rfl (by decide) _, nullary_result]
  rfl

theorem st_main_v47 : StableHlo.after (ops (F := Ideal)) (launchContents m c) (Proc.devRef .tc main_v47) = Cert.ReferenceIdeal.Read.val_main_v47 (F := Ideal) (m ((c.tc : Thread nD τ).loc main_arg1)) (m ((c.tc : Thread nD τ).loc main_arg2)) (m ((c.tc : Thread nD τ).loc main_arg3)) := by
  rw [HostRead.after_at H 97 _ main_v47 rfl (by decide) _, binary_result,
    ← HostRead.after_take H 97 main_v46 (by decide) _,
    ← HostRead.after_take H 97 main_cst_12 (by decide) _, st_main_v46 m c, st_main_cst_12 m c]
  rfl

theorem st_main_cst_13 : StableHlo.after (ops (F := Ideal)) (launchContents m c) (Proc.devRef .tc main_cst_13) = Cert.ReferenceIdeal.Read.val_main_cst_13 (F := Ideal) := by
  rw [HostRead.after_at H 98 _ main_cst_13 rfl (by decide) _, nullary_result]
  rfl

theorem st_main_v48 : StableHlo.after (ops (F := Ideal)) (launchContents m c) (Proc.devRef .tc main_v48) = Cert.ReferenceIdeal.Read.val_main_v48 (F := Ideal) (m ((c.tc : Thread nD τ).loc main_arg1)) (m ((c.tc : Thread nD τ).loc main_arg2)) (m ((c.tc : Thread nD τ).loc main_arg3)) := by
  rw [HostRead.after_at H 99 _ main_v48 rfl (by decide) _, binary_result,
    ← HostRead.after_take H 99 main_v47 (by decide) _,
    ← HostRead.after_take H 99 main_cst_13 (by decide) _, st_main_v47 m c, st_main_cst_13 m c]
  rfl

theorem st_main_cst_14 : StableHlo.after (ops (F := Ideal)) (launchContents m c) (Proc.devRef .tc main_cst_14) = Cert.ReferenceIdeal.Read.val_main_cst_14 (F := Ideal) := by
  rw [HostRead.after_at H 100 _ main_cst_14 rfl (by decide) _, nullary_result]
  rfl

theorem st_main_v49 : StableHlo.after (ops (F := Ideal)) (launchContents m c) (Proc.devRef .tc main_v49) = Cert.ReferenceIdeal.Read.val_main_v49 (F := Ideal) := by
  rw [HostRead.after_at H 101 _ main_v49 rfl (by decide) _, unary_result,
    ← HostRead.after_take H 101 main_cst_14 (by decide) _, st_main_cst_14 m c]
  rfl

theorem st_main_v50 : StableHlo.after (ops (F := Ideal)) (launchContents m c) (Proc.devRef .tc main_v50) = Cert.ReferenceIdeal.Read.val_main_v50 (F := Ideal) (m ((c.tc : Thread nD τ).loc main_arg1)) (m ((c.tc : Thread nD τ).loc main_arg2)) (m ((c.tc : Thread nD τ).loc main_arg3)) := by
  rw [HostRead.after_at H 102 _ main_v50 rfl (by decide) _, binary_result,
    ← HostRead.after_take H 102 main_v48 (by decide) _,
    ← HostRead.after_take H 102 main_v49 (by decide) _, st_main_v48 m c, st_main_v49 m c]
  rfl

theorem st_main_cst_15 : StableHlo.after (ops (F := Ideal)) (launchContents m c) (Proc.devRef .tc main_cst_15) = Cert.ReferenceIdeal.Read.val_main_cst_15 (F := Ideal) := by
  rw [HostRead.after_at H 103 _ main_cst_15 rfl (by decide) _, nullary_result]
  rfl

theorem st_main_v51 : StableHlo.after (ops (F := Ideal)) (launchContents m c) (Proc.devRef .tc main_v51) = Cert.ReferenceIdeal.Read.val_main_v51 (F := Ideal) (m ((c.tc : Thread nD τ).loc main_arg1)) (m ((c.tc : Thread nD τ).loc main_arg2)) (m ((c.tc : Thread nD τ).loc main_arg3)) := by
  rw [HostRead.after_at H 104 _ main_v51 rfl (by decide) _, binary_result,
    ← HostRead.after_take H 104 main_v46 (by decide) _,
    ← HostRead.after_take H 104 main_cst_15 (by decide) _, st_main_v46 m c, st_main_cst_15 m c]
  rfl

theorem st_main_cst_16 : StableHlo.after (ops (F := Ideal)) (launchContents m c) (Proc.devRef .tc main_cst_16) = Cert.ReferenceIdeal.Read.val_main_cst_16 (F := Ideal) := by
  rw [HostRead.after_at H 105 _ main_cst_16 rfl (by decide) _, nullary_result]
  rfl

theorem st_main_v52 : StableHlo.after (ops (F := Ideal)) (launchContents m c) (Proc.devRef .tc main_v52) = Cert.ReferenceIdeal.Read.val_main_v52 (F := Ideal) (m ((c.tc : Thread nD τ).loc main_arg1)) (m ((c.tc : Thread nD τ).loc main_arg2)) (m ((c.tc : Thread nD τ).loc main_arg3)) := by
  rw [HostRead.after_at H 106 _ main_v52 rfl (by decide) _, binary_result,
    ← HostRead.after_take H 106 main_v51 (by decide) _,
    ← HostRead.after_take H 106 main_cst_16 (by decide) _, st_main_v51 m c, st_main_cst_16 m c]
  rfl

theorem st_main_cst_17 : StableHlo.after (ops (F := Ideal)) (launchContents m c) (Proc.devRef .tc main_cst_17) = Cert.ReferenceIdeal.Read.val_main_cst_17 (F := Ideal) := by
  rw [HostRead.after_at H 107 _ main_cst_17 rfl (by decide) _, nullary_result]
  rfl

theorem st_main_v53 : StableHlo.after (ops (F := Ideal)) (launchContents m c) (Proc.devRef .tc main_v53) = Cert.ReferenceIdeal.Read.val_main_v53 (F := Ideal) := by
  rw [HostRead.after_at H 108 _ main_v53 rfl (by decide) _, unary_result,
    ← HostRead.after_take H 108 main_cst_17 (by decide) _, st_main_cst_17 m c]
  rfl

theorem st_main_v54 : StableHlo.after (ops (F := Ideal)) (launchContents m c) (Proc.devRef .tc main_v54) = Cert.ReferenceIdeal.Read.val_main_v54 (F := Ideal) (m ((c.tc : Thread nD τ).loc main_arg1)) (m ((c.tc : Thread nD τ).loc main_arg2)) (m ((c.tc : Thread nD τ).loc main_arg3)) := by
  rw [HostRead.after_at H 109 _ main_v54 rfl (by decide) _, binary_result,
    ← HostRead.after_take H 109 main_v52 (by decide) _,
    ← HostRead.after_take H 109 main_v53 (by decide) _, st_main_v52 m c, st_main_v53 m c]
  rfl

theorem st_main_v55 : StableHlo.after (ops (F := Ideal)) (launchContents m c) (Proc.devRef .tc main_v55) = Cert.ReferenceIdeal.Read.val_main_v55 (F := Ideal) (m ((c.tc : Thread nD τ).loc main_arg1)) (m ((c.tc : Thread nD τ).loc main_arg2)) (m ((c.tc : Thread nD τ).loc main_arg3)) := by
  rw [HostRead.after_at H 110 _ main_v55 rfl (by decide) _, binary_result,
    ← HostRead.after_take H 110 main_v50 (by decide) _,
    ← HostRead.after_take H 110 main_v54 (by decide) _, st_main_v50 m c, st_main_v54 m c]
  rfl

theorem st_main_cst_18 : StableHlo.after (ops (F := Ideal)) (launchContents m c) (Proc.devRef .tc main_cst_18) = Cert.ReferenceIdeal.Read.val_main_cst_18 (F := Ideal) := by
  rw [HostRead.after_at H 111 _ main_cst_18 rfl (by decide) _, nullary_result]
  rfl

theorem st_main_v56 : StableHlo.after (ops (F := Ideal)) (launchContents m c) (Proc.devRef .tc main_v56) = Cert.ReferenceIdeal.Read.val_main_v56 (F := Ideal) := by
  rw [HostRead.after_at H 112 _ main_v56 rfl (by decide) _, unary_result,
    ← HostRead.after_take H 112 main_cst_18 (by decide) _, st_main_cst_18 m c]
  rfl

theorem st_main_v57 : StableHlo.after (ops (F := Ideal)) (launchContents m c) (Proc.devRef .tc main_v57) = Cert.ReferenceIdeal.Read.val_main_v57 (F := Ideal) (m ((c.tc : Thread nD τ).loc main_arg1)) (m ((c.tc : Thread nD τ).loc main_arg2)) (m ((c.tc : Thread nD τ).loc main_arg3)) := by
  rw [HostRead.after_at H 113 _ main_v57 rfl (by decide) _, binary_result,
    ← HostRead.after_take H 113 main_v55 (by decide) _,
    ← HostRead.after_take H 113 main_v56 (by decide) _, st_main_v55 m c, st_main_v56 m c]
  rfl

theorem st_main_cst_19 : StableHlo.after (ops (F := Ideal)) (launchContents m c) (Proc.devRef .tc main_cst_19) = Cert.ReferenceIdeal.Read.val_main_cst_19 (F := Ideal) := by
  rw [HostRead.after_at H 114 _ main_cst_19 rfl (by decide) _, nullary_result]
  rfl

theorem st_main_v58 : StableHlo.after (ops (F := Ideal)) (launchContents m c) (Proc.devRef .tc main_v58) = Cert.ReferenceIdeal.Read.val_main_v58 (F := Ideal) (m ((c.tc : Thread nD τ).loc main_arg1)) (m ((c.tc : Thread nD τ).loc main_arg2)) (m ((c.tc : Thread nD τ).loc main_arg3)) := by
  rw [HostRead.after_at H 115 _ main_v58 rfl (by decide) _, binary_result,
    ← HostRead.after_take H 115 main_v57 (by decide) _,
    ← HostRead.after_take H 115 main_cst_19 (by decide) _, st_main_v57 m c, st_main_cst_19 m c]
  rfl

theorem st_main_v59 : StableHlo.after (ops (F := Ideal)) (launchContents m c) (Proc.devRef .tc main_v59) = Cert.ReferenceIdeal.Read.val_main_v59 (F := Ideal) (m ((c.tc : Thread nD τ).loc main_arg1)) (m ((c.tc : Thread nD τ).loc main_arg2)) (m ((c.tc : Thread nD τ).loc main_arg3)) := by
  rw [HostRead.after_at H 116 _ main_v59 rfl (by decide) _, binary_result,
    ← HostRead.after_take H 116 main_v58 (by decide) _,
    ← HostRead.after_take H 116 main_v0 (by decide) _, st_main_v58 m c, st_main_v0 m c]
  rfl

theorem st_main_v60 : StableHlo.after (ops (F := Ideal)) (launchContents m c) (Proc.devRef .tc main_v60) = Cert.ReferenceIdeal.Read.val_main_v60 (F := Ideal) (m ((c.tc : Thread nD τ).loc main_arg1)) (m ((c.tc : Thread nD τ).loc main_arg3)) := by
  rw [HostRead.after_at H 117 _ main_v60 rfl (by decide) _, unary_result,
    ← HostRead.after_take H 117 main_v39 (by decide) _, st_main_v39 m c]
  rfl

theorem st_main_v61 : StableHlo.after (ops (F := Ideal)) (launchContents m c) (Proc.devRef .tc main_v61) = Cert.ReferenceIdeal.Read.val_main_v61 (F := Ideal) (m ((c.tc : Thread nD τ).loc main_arg1)) (m ((c.tc : Thread nD τ).loc main_arg3)) := by
  rw [HostRead.after_at H 118 _ main_v61 rfl (by decide) _, reshape_result,
    ← HostRead.after_take H 118 main_v60 (by decide) _, st_main_v60 m c]
  rfl

theorem st_main_v62 : StableHlo.after (ops (F := Ideal)) (launchContents m c) (Proc.devRef .tc main_v62) = Cert.ReferenceIdeal.Read.val_main_v62 (F := Ideal) (m ((c.tc : Thread nD τ).loc main_arg1)) (m ((c.tc : Thread nD τ).loc main_arg3)) := by
  rw [HostRead.after_at H 119 _ main_v62 rfl (by decide) _, unary_result,
    ← HostRead.after_take H 119 main_v39 (by decide) _, st_main_v39 m c]
  rfl

theorem st_main_v63 : StableHlo.after (ops (F := Ideal)) (launchContents m c) (Proc.devRef .tc main_v63) = Cert.ReferenceIdeal.Read.val_main_v63 (F := Ideal) (m ((c.tc : Thread nD τ).loc main_arg1)) (m ((c.tc : Thread nD τ).loc main_arg3)) := by
  rw [HostRead.after_at H 120 _ main_v63 rfl (by decide) _, reshape_result,
    ← HostRead.after_take H 120 main_v62 (by decide) _, st_main_v62 m c]
  rfl

theorem st_main_v64 : StableHlo.after (ops (F := Ideal)) (launchContents m c) (Proc.devRef .tc main_v64) = Cert.ReferenceIdeal.Read.val_main_v64 (F := Ideal) (m ((c.tc : Thread nD τ).loc main_arg1)) (m ((c.tc : Thread nD τ).loc main_arg3)) := by
  rw [HostRead.after_at H 121 _ main_v64 rfl (by decide) _, binary_result,
    ← HostRead.after_take H 121 main_v61 (by decide) _,
    ← HostRead.after_take H 121 main_v63 (by decide) _, st_main_v61 m c, st_main_v63 m c]
  rfl

theorem st_main_v65 : StableHlo.after (ops (F := Ideal)) (launchContents m c) (Proc.devRef .tc main_v65) = Cert.ReferenceIdeal.Read.val_main_v65 (F := Ideal) (m ((c.tc : Thread nD τ).loc main_arg2)) := by
  rw [HostRead.after_at H 122 _ main_v65 rfl (by decide) _, unary_result,
    ← HostRead.after_take H 122 main_arg2 (by decide) _, st_main_arg2 m c]
  rfl

theorem st_main_v66 : StableHlo.after (ops (F := Ideal)) (launchContents m c) (Proc.devRef .tc main_v66) = Cert.ReferenceIdeal.Read.val_main_v66 (F := Ideal) (m ((c.tc : Thread nD τ).loc main_arg2)) := by
  rw [HostRead.after_at H 123 _ main_v66 rfl (by decide) _, reshape_result,
    ← HostRead.after_take H 123 main_v65 (by decide) _, st_main_v65 m c]
  rfl

theorem st_main_v67 : StableHlo.after (ops (F := Ideal)) (launchContents m c) (Proc.devRef .tc main_v67) = Cert.ReferenceIdeal.Read.val_main_v67 (F := Ideal) (m ((c.tc : Thread nD τ).loc main_arg2)) := by
  rw [HostRead.after_at H 124 _ main_v67 rfl (by decide) _, unary_result,
    ← HostRead.after_take H 124 main_arg2 (by decide) _, st_main_arg2 m c]
  rfl

theorem st_main_v68 : StableHlo.after (ops (F := Ideal)) (launchContents m c) (Proc.devRef .tc main_v68) = Cert.ReferenceIdeal.Read.val_main_v68 (F := Ideal) (m ((c.tc : Thread nD τ).loc main_arg2)) := by
  rw [HostRead.after_at H 125 _ main_v68 rfl (by decide) _, reshape_result,
    ← HostRead.after_take H 125 main_v67 (by decide) _, st_main_v67 m c]
  rfl

theorem st_main_v69 : StableHlo.after (ops (F := Ideal)) (launchContents m c) (Proc.devRef .tc main_v69) = Cert.ReferenceIdeal.Read.val_main_v69 (F := Ideal) (m ((c.tc : Thread nD τ).loc main_arg2)) := by
  rw [HostRead.after_at H 126 _ main_v69 rfl (by decide) _, binary_result,
    ← HostRead.after_take H 126 main_v66 (by decide) _,
    ← HostRead.after_take H 126 main_v68 (by decide) _, st_main_v66 m c, st_main_v68 m c]
  rfl

theorem st_main_call2_v0 : StableHlo.after (ops (F := Ideal)) (launchContents m c) (Proc.devRef .tc main_call2_v0) = Cert.ReferenceIdeal.Read.val_main_call2_v0 (F := Ideal) (m ((c.tc : Thread nD τ).loc main_arg1)) (m ((c.tc : Thread nD τ).loc main_arg3)) := by
  rw [HostRead.after_at H 127 _ main_call2_v0 rfl (by decide) _]
  exact eq_of_heq (HEq.trans (HostRead.tbinary_heq _ _ _ _ _ (Cert.ReferenceIdeal.Read.val_main_v64 (F := Ideal) (m ((c.tc : Thread nD τ).loc main_arg1)) (m ((c.tc : Thread nD τ).loc main_arg3))) (Cert.ReferenceIdeal.Read.val_main_v64 (F := Ideal) (m ((c.tc : Thread nD τ).loc main_arg1)) (m ((c.tc : Thread nD τ).loc main_arg3)))
      (heq_of_eq ((HostRead.after_take H 127 main_v64 (by decide) _).symm.trans (st_main_v64 m c)))
      (heq_of_eq ((HostRead.after_take H 127 main_v64 (by decide) _).symm.trans (st_main_v64 m c)))) (heq_of_eq rfl))

theorem st_main_call2_cst : StableHlo.after (ops (F := Ideal)) (launchContents m c) (Proc.devRef .tc main_call2_cst) = Cert.ReferenceIdeal.Read.val_main_call2_cst (F := Ideal) := by
  rw [HostRead.after_at H 128 _ main_call2_cst rfl (by decide) _]
  exact eq_of_heq (HEq.trans (HostRead.tnullary_heq _ _ _) (heq_of_eq rfl))

theorem st_main_call2_v1 : StableHlo.after (ops (F := Ideal)) (launchContents m c) (Proc.devRef .tc main_call2_v1) = Cert.ReferenceIdeal.Read.val_main_call2_v1 (F := Ideal) (m ((c.tc : Thread nD τ).loc main_arg1)) (m ((c.tc : Thread nD τ).loc main_arg3)) := by
  rw [HostRead.after_at H 129 _ main_call2_v1 rfl (by decide) _]
  exact eq_of_heq (HEq.trans (HostRead.tbinary_heq _ _ _ _ _ (Cert.ReferenceIdeal.Read.val_main_call2_v0 (F := Ideal) (m ((c.tc : Thread nD τ).loc main_arg1)) (m ((c.tc : Thread nD τ).loc main_arg3))) (Cert.ReferenceIdeal.Read.val_main_call2_cst (F := Ideal))
      (heq_of_eq ((HostRead.after_take H 129 main_call2_v0 (by decide) _).symm.trans (st_main_call2_v0 m c)))
      (heq_of_eq ((HostRead.after_take H 129 main_call2_cst (by decide) _).symm.trans (st_main_call2_cst m c)))) (heq_of_eq rfl))

theorem st_main_call2_v2 : StableHlo.after (ops (F := Ideal)) (launchContents m c) (Proc.devRef .tc main_call2_v2) = Cert.ReferenceIdeal.Read.val_main_call2_v2 (F := Ideal) (m ((c.tc : Thread nD τ).loc main_arg1)) (m ((c.tc : Thread nD τ).loc main_arg3)) := by
  rw [HostRead.after_at H 130 _ main_call2_v2 rfl (by decide) _]
  exact eq_of_heq (HEq.trans (HostRead.tunary_heq _ _ _ _ (Cert.ReferenceIdeal.Read.val_main_call2_v1 (F := Ideal) (m ((c.tc : Thread nD τ).loc main_arg1)) (m ((c.tc : Thread nD τ).loc main_arg3)))
      (heq_of_eq ((HostRead.after_take H 130 main_call2_v1 (by decide) _).symm.trans (st_main_call2_v1 m c)))) (heq_of_eq rfl))

theorem st_main_v70 : StableHlo.after (ops (F := Ideal)) (launchContents m c) (Proc.devRef .tc main_v70) = Cert.ReferenceIdeal.Read.val_main_v70 (F := Ideal) (m ((c.tc : Thread nD τ).loc main_arg1)) (m ((c.tc : Thread nD τ).loc main_arg3)) := by
  rw [HostRead.after_at H 131 _ main_v70 rfl (by decide) _]
  exact eq_of_heq (HEq.trans (HostRead.tunary_heq _ _ _ _ (Cert.ReferenceIdeal.Read.val_main_call2_v2 (F := Ideal) (m ((c.tc : Thread nD τ).loc main_arg1)) (m ((c.tc : Thread nD τ).loc main_arg3)))
      (heq_of_eq ((HostRead.after_take H 131 main_call2_v2 (by decide) _).symm.trans (st_main_call2_v2 m c)))) (heq_of_eq rfl))

theorem st_main_cst_20 : StableHlo.after (ops (F := Ideal)) (launchContents m c) (Proc.devRef .tc main_cst_20) = Cert.ReferenceIdeal.Read.val_main_cst_20 (F := Ideal) := by
  rw [HostRead.after_at H 132 _ main_cst_20 rfl (by decide) _, nullary_result]
  rfl

theorem st_main_v71 : StableHlo.after (ops (F := Ideal)) (launchContents m c) (Proc.devRef .tc main_v71) = Cert.ReferenceIdeal.Read.val_main_v71 (F := Ideal) := by
  rw [HostRead.after_at H 133 _ main_v71 rfl (by decide) _, unary_result,
    ← HostRead.after_take H 133 main_cst_20 (by decide) _, st_main_cst_20 m c]
  rfl

theorem st_main_v72 : StableHlo.after (ops (F := Ideal)) (launchContents m c) (Proc.devRef .tc main_v72) = Cert.ReferenceIdeal.Read.val_main_v72 (F := Ideal) (m ((c.tc : Thread nD τ).loc main_arg1)) (m ((c.tc : Thread nD τ).loc main_arg3)) := by
  rw [HostRead.after_at H 134 _ main_v72 rfl (by decide) _, binary_result,
    ← HostRead.after_take H 134 main_v70 (by decide) _,
    ← HostRead.after_take H 134 main_v71 (by decide) _, st_main_v70 m c, st_main_v71 m c]
  rfl

theorem st_main_v73 : StableHlo.after (ops (F := Ideal)) (launchContents m c) (Proc.devRef .tc main_v73) = Cert.ReferenceIdeal.Read.val_main_v73 (F := Ideal) (m ((c.tc : Thread nD τ).loc main_arg1)) (m ((c.tc : Thread nD τ).loc main_arg3)) := by
  rw [HostRead.after_at H 135 _ main_v73 rfl (by decide) _, unary_result,
    ← HostRead.after_take H 135 main_v72 (by decide) _, st_main_v72 m c]
  rfl

theorem st_main_v74 : StableHlo.after (ops (F := Ideal)) (launchContents m c) (Proc.devRef .tc main_v74) = Cert.ReferenceIdeal.Read.val_main_v74 (F := Ideal) (m ((c.tc : Thread nD τ).loc main_arg1)) (m ((c.tc : Thread nD τ).loc main_arg3)) := by
  rw [HostRead.after_at H 136 _ main_v74 rfl (by decide) _, binary_result,
    ← HostRead.after_take H 136 main_v64 (by decide) _,
    ← HostRead.after_take H 136 main_v73 (by decide) _, st_main_v64 m c, st_main_v73 m c]
  rfl

theorem st_main_call3_v0 : StableHlo.after (ops (F := Ideal)) (launchContents m c) (Proc.devRef .tc main_call3_v0) = Cert.ReferenceIdeal.Read.val_main_call3_v0 (F := Ideal) (m ((c.tc : Thread nD τ).loc main_arg2)) := by
  rw [HostRead.after_at H 137 _ main_call3_v0 rfl (by decide) _]
  exact eq_of_heq (HEq.trans (HostRead.tbinary_heq _ _ _ _ _ (Cert.ReferenceIdeal.Read.val_main_v69 (F := Ideal) (m ((c.tc : Thread nD τ).loc main_arg2))) (Cert.ReferenceIdeal.Read.val_main_v69 (F := Ideal) (m ((c.tc : Thread nD τ).loc main_arg2)))
      (heq_of_eq ((HostRead.after_take H 137 main_v69 (by decide) _).symm.trans (st_main_v69 m c)))
      (heq_of_eq ((HostRead.after_take H 137 main_v69 (by decide) _).symm.trans (st_main_v69 m c)))) (heq_of_eq rfl))

theorem st_main_call3_cst : StableHlo.after (ops (F := Ideal)) (launchContents m c) (Proc.devRef .tc main_call3_cst) = Cert.ReferenceIdeal.Read.val_main_call3_cst (F := Ideal) := by
  rw [HostRead.after_at H 138 _ main_call3_cst rfl (by decide) _]
  exact eq_of_heq (HEq.trans (HostRead.tnullary_heq _ _ _) (heq_of_eq rfl))

theorem st_main_call3_v1 : StableHlo.after (ops (F := Ideal)) (launchContents m c) (Proc.devRef .tc main_call3_v1) = Cert.ReferenceIdeal.Read.val_main_call3_v1 (F := Ideal) (m ((c.tc : Thread nD τ).loc main_arg2)) := by
  rw [HostRead.after_at H 139 _ main_call3_v1 rfl (by decide) _]
  exact eq_of_heq (HEq.trans (HostRead.tbinary_heq _ _ _ _ _ (Cert.ReferenceIdeal.Read.val_main_call3_v0 (F := Ideal) (m ((c.tc : Thread nD τ).loc main_arg2))) (Cert.ReferenceIdeal.Read.val_main_call3_cst (F := Ideal))
      (heq_of_eq ((HostRead.after_take H 139 main_call3_v0 (by decide) _).symm.trans (st_main_call3_v0 m c)))
      (heq_of_eq ((HostRead.after_take H 139 main_call3_cst (by decide) _).symm.trans (st_main_call3_cst m c)))) (heq_of_eq rfl))

theorem st_main_call3_v2 : StableHlo.after (ops (F := Ideal)) (launchContents m c) (Proc.devRef .tc main_call3_v2) = Cert.ReferenceIdeal.Read.val_main_call3_v2 (F := Ideal) (m ((c.tc : Thread nD τ).loc main_arg2)) := by
  rw [HostRead.after_at H 140 _ main_call3_v2 rfl (by decide) _]
  exact eq_of_heq (HEq.trans (HostRead.tunary_heq _ _ _ _ (Cert.ReferenceIdeal.Read.val_main_call3_v1 (F := Ideal) (m ((c.tc : Thread nD τ).loc main_arg2)))
      (heq_of_eq ((HostRead.after_take H 140 main_call3_v1 (by decide) _).symm.trans (st_main_call3_v1 m c)))) (heq_of_eq rfl))

theorem st_main_v75 : StableHlo.after (ops (F := Ideal)) (launchContents m c) (Proc.devRef .tc main_v75) = Cert.ReferenceIdeal.Read.val_main_v75 (F := Ideal) (m ((c.tc : Thread nD τ).loc main_arg2)) := by
  rw [HostRead.after_at H 141 _ main_v75 rfl (by decide) _]
  exact eq_of_heq (HEq.trans (HostRead.tunary_heq _ _ _ _ (Cert.ReferenceIdeal.Read.val_main_call3_v2 (F := Ideal) (m ((c.tc : Thread nD τ).loc main_arg2)))
      (heq_of_eq ((HostRead.after_take H 141 main_call3_v2 (by decide) _).symm.trans (st_main_call3_v2 m c)))) (heq_of_eq rfl))

theorem st_main_cst_21 : StableHlo.after (ops (F := Ideal)) (launchContents m c) (Proc.devRef .tc main_cst_21) = Cert.ReferenceIdeal.Read.val_main_cst_21 (F := Ideal) := by
  rw [HostRead.after_at H 142 _ main_cst_21 rfl (by decide) _, nullary_result]
  rfl

theorem st_main_v76 : StableHlo.after (ops (F := Ideal)) (launchContents m c) (Proc.devRef .tc main_v76) = Cert.ReferenceIdeal.Read.val_main_v76 (F := Ideal) := by
  rw [HostRead.after_at H 143 _ main_v76 rfl (by decide) _, unary_result,
    ← HostRead.after_take H 143 main_cst_21 (by decide) _, st_main_cst_21 m c]
  rfl

theorem st_main_v77 : StableHlo.after (ops (F := Ideal)) (launchContents m c) (Proc.devRef .tc main_v77) = Cert.ReferenceIdeal.Read.val_main_v77 (F := Ideal) (m ((c.tc : Thread nD τ).loc main_arg2)) := by
  rw [HostRead.after_at H 144 _ main_v77 rfl (by decide) _, binary_result,
    ← HostRead.after_take H 144 main_v75 (by decide) _,
    ← HostRead.after_take H 144 main_v76 (by decide) _, st_main_v75 m c, st_main_v76 m c]
  rfl

theorem st_main_v78 : StableHlo.after (ops (F := Ideal)) (launchContents m c) (Proc.devRef .tc main_v78) = Cert.ReferenceIdeal.Read.val_main_v78 (F := Ideal) (m ((c.tc : Thread nD τ).loc main_arg2)) := by
  rw [HostRead.after_at H 145 _ main_v78 rfl (by decide) _, unary_result,
    ← HostRead.after_take H 145 main_v77 (by decide) _, st_main_v77 m c]
  rfl

theorem st_main_v79 : StableHlo.after (ops (F := Ideal)) (launchContents m c) (Proc.devRef .tc main_v79) = Cert.ReferenceIdeal.Read.val_main_v79 (F := Ideal) (m ((c.tc : Thread nD τ).loc main_arg2)) := by
  rw [HostRead.after_at H 146 _ main_v79 rfl (by decide) _, binary_result,
    ← HostRead.after_take H 146 main_v69 (by decide) _,
    ← HostRead.after_take H 146 main_v78 (by decide) _, st_main_v69 m c, st_main_v78 m c]
  rfl

theorem st_main_v80 : StableHlo.after (ops (F := Ideal)) (launchContents m c) (Proc.devRef .tc main_v80) = Cert.ReferenceIdeal.Read.val_main_v80 (F := Ideal) (m ((c.tc : Thread nD τ).loc main_arg1)) (m ((c.tc : Thread nD τ).loc main_arg2)) (m ((c.tc : Thread nD τ).loc main_arg3)) := by
  rw [HostRead.after_at H 147 _ main_v80 rfl (by decide) _, binary_result,
    ← HostRead.after_take H 147 main_v74 (by decide) _,
    ← HostRead.after_take H 147 main_v79 (by decide) _, st_main_v74 m c, st_main_v79 m c]
  rfl

theorem st_main_cst_22 : StableHlo.after (ops (F := Ideal)) (launchContents m c) (Proc.devRef .tc main_cst_22) = Cert.ReferenceIdeal.Read.val_main_cst_22 (F := Ideal) := by
  rw [HostRead.after_at H 148 _ main_cst_22 rfl (by decide) _, nullary_result]
  rfl

theorem st_main_v81 : StableHlo.after (ops (F := Ideal)) (launchContents m c) (Proc.devRef .tc main_v81) = Cert.ReferenceIdeal.Read.val_main_v81 (F := Ideal) (m ((c.tc : Thread nD τ).loc main_arg1)) (m ((c.tc : Thread nD τ).loc main_arg2)) (m ((c.tc : Thread nD τ).loc main_arg3)) := by
  rw [HostRead.after_at H 149 _ main_v81 rfl (by decide) _, binary_result,
    ← HostRead.after_take H 149 main_v80 (by decide) _,
    ← HostRead.after_take H 149 main_cst_22 (by decide) _, st_main_v80 m c, st_main_cst_22 m c]
  rfl

theorem st_main_cst_23 : StableHlo.after (ops (F := Ideal)) (launchContents m c) (Proc.devRef .tc main_cst_23) = Cert.ReferenceIdeal.Read.val_main_cst_23 (F := Ideal) := by
  rw [HostRead.after_at H 150 _ main_cst_23 rfl (by decide) _, nullary_result]
  rfl

theorem st_main_v82 : StableHlo.after (ops (F := Ideal)) (launchContents m c) (Proc.devRef .tc main_v82) = Cert.ReferenceIdeal.Read.val_main_v82 (F := Ideal) := by
  rw [HostRead.after_at H 151 _ main_v82 rfl (by decide) _, unary_result,
    ← HostRead.after_take H 151 main_cst_23 (by decide) _, st_main_cst_23 m c]
  rfl

theorem st_main_v83 : StableHlo.after (ops (F := Ideal)) (launchContents m c) (Proc.devRef .tc main_v83) = Cert.ReferenceIdeal.Read.val_main_v83 (F := Ideal) (m ((c.tc : Thread nD τ).loc main_arg1)) (m ((c.tc : Thread nD τ).loc main_arg2)) (m ((c.tc : Thread nD τ).loc main_arg3)) := by
  rw [HostRead.after_at H 152 _ main_v83 rfl (by decide) _, binary_result,
    ← HostRead.after_take H 152 main_v82 (by decide) _,
    ← HostRead.after_take H 152 main_v81 (by decide) _, st_main_v82 m c, st_main_v81 m c]
  rfl

theorem st_main_cst_24 : StableHlo.after (ops (F := Ideal)) (launchContents m c) (Proc.devRef .tc main_cst_24) = Cert.ReferenceIdeal.Read.val_main_cst_24 (F := Ideal) := by
  rw [HostRead.after_at H 153 _ main_cst_24 rfl (by decide) _, nullary_result]
  rfl

theorem st_main_v84 : StableHlo.after (ops (F := Ideal)) (launchContents m c) (Proc.devRef .tc main_v84) = Cert.ReferenceIdeal.Read.val_main_v84 (F := Ideal) (m ((c.tc : Thread nD τ).loc main_arg1)) (m ((c.tc : Thread nD τ).loc main_arg2)) (m ((c.tc : Thread nD τ).loc main_arg3)) := by
  rw [HostRead.after_at H 154 _ main_v84 rfl (by decide) _, binary_result,
    ← HostRead.after_take H 154 main_v83 (by decide) _,
    ← HostRead.after_take H 154 main_cst_24 (by decide) _, st_main_v83 m c, st_main_cst_24 m c]
  rfl

theorem st_main_v85 : StableHlo.after (ops (F := Ideal)) (launchContents m c) (Proc.devRef .tc main_v85) = Cert.ReferenceIdeal.Read.val_main_v85 (F := Ideal) (m ((c.tc : Thread nD τ).loc main_arg1)) (m ((c.tc : Thread nD τ).loc main_arg2)) (m ((c.tc : Thread nD τ).loc main_arg3)) := by
  rw [HostRead.after_at H 155 _ main_v85 rfl (by decide) _, binary_result,
    ← HostRead.after_take H 155 main_v84 (by decide) _,
    ← HostRead.after_take H 155 main_v0 (by decide) _, st_main_v84 m c, st_main_v0 m c]
  rfl

theorem st_main_v86 : StableHlo.after (ops (F := Ideal)) (launchContents m c) (Proc.devRef .tc main_v86) = Cert.ReferenceIdeal.Read.val_main_v86 (F := Ideal) (m ((c.tc : Thread nD τ).loc main_arg0)) (m ((c.tc : Thread nD τ).loc main_arg3)) (m ((c.tc : Thread nD τ).loc main_arg4)) := by
  rw [HostRead.after_at H 156 _ main_v86 rfl (by decide) _, unary_result,
    ← HostRead.after_take H 156 main_v24 (by decide) _, st_main_v24 m c]
  rfl

theorem st_main_v87 : StableHlo.after (ops (F := Ideal)) (launchContents m c) (Proc.devRef .tc main_v87) = Cert.ReferenceIdeal.Read.val_main_v87 (F := Ideal) (m ((c.tc : Thread nD τ).loc main_arg1)) (m ((c.tc : Thread nD τ).loc main_arg2)) (m ((c.tc : Thread nD τ).loc main_arg3)) := by
  rw [HostRead.after_at H 157 _ main_v87 rfl (by decide) _, unary_result,
    ← HostRead.after_take H 157 main_v59 (by decide) _, st_main_v59 m c]
  rfl

theorem st_main_v88 : StableHlo.after (ops (F := Ideal)) (launchContents m c) (Proc.devRef .tc main_v88) = Cert.ReferenceIdeal.Read.val_main_v88 (F := Ideal) (m ((c.tc : Thread nD τ).loc main_arg1)) (m ((c.tc : Thread nD τ).loc main_arg2)) (m ((c.tc : Thread nD τ).loc main_arg3)) := by
  rw [HostRead.after_at H 158 _ main_v88 rfl (by decide) _, unary_result,
    ← HostRead.after_take H 158 main_v85 (by decide) _, st_main_v85 m c]
  rfl

theorem st_main_v89 : StableHlo.after (ops (F := Ideal)) (launchContents m c) (Proc.devRef .tc main_v89) = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [HostRead.after_at H 159 _ main_v89 rfl (by decide) _, HostNary3.nary3_result,
    ← HostRead.after_take H 159 main_v86 (by decide) _,
    ← HostRead.after_take H 159 main_v87 (by decide) _,
    ← HostRead.after_take H 159 main_v88 (by decide) _, st_main_v86 m c, st_main_v87 m c, st_main_v88 m c]
  rfl

end Cert.ReferenceIdeal.StageTab

end
-- ==== Proof.RefStages.lean ====
/-
  The reference program's result, read off its run. The run leaves every buffer at what the 160 operations, in order, make
  of the launch contents. Read one operation at a time (the table of stages), the buffers that matter hold the
  reference's own stage values as functions of the five argument arrays: the cross-entropy term, the number of pairs, the
  per-pair chamfer losses and the per-pair direction losses. The last seven operations total the two per-pair arrays,
  divide each total by the number of pairs, and join the three scalars into the result: the same join the kernel
  program's last host lines make.
-/
import proofs.«155109_j52398601012070_2_alg».proof.Proof.RefRun
import proofs.«155109_j52398601012070_2_alg».proof.Proof.RefRead
import proofs.«155109_j52398601012070_2_alg».proof.Proof.RefStagesTab
import proofs.«155109_j52398601012070_2_alg».proof.Proof.KTail

noncomputable section

namespace Cert.ReferenceIdeal.RefValue

open Idealize.ShloMosaic Idealize.ShloMosaic.TcCoe Idealize.ShloMosaic.StableHlo
open Idealize.SL.Sem
open Cert.ReferenceIdeal Cert.ReferenceIdeal.Gen Cert.ReferenceIdeal.Value

variable (m : (ℓ : Loc nD τ sig) → Buf (Elt Ideal) ℓ) (c : Dev nD)

/-- Every buffer after the reference's operations, from the launch contents. -/
abbrev RA : Valuation τ sig (Elt Ideal) := after (ops (F := Ideal)) (launchContents m c)

/-! ## The argument arrays: no operation writes them -/

theorem ra_arg0 : RA m c (Proc.devRef .tc main_arg0) = m ((c.tc : Thread nD τ).loc main_arg0) :=
  StageTab.st_main_arg0 m c
theorem ra_arg1 : RA m c (Proc.devRef .tc main_arg1) = m ((c.tc : Thread nD τ).loc main_arg1) :=
  StageTab.st_main_arg1 m c
theorem ra_arg2 : RA m c (Proc.devRef .tc main_arg2) = m ((c.tc : Thread nD τ).loc main_arg2) :=
  StageTab.st_main_arg2 m c
theorem ra_arg3 : RA m c (Proc.devRef .tc main_arg3) = m ((c.tc : Thread nD τ).loc main_arg3) :=
  StageTab.st_main_arg3 m c
theorem ra_arg4 : RA m c (Proc.devRef .tc main_arg4) = m ((c.tc : Thread nD τ).loc main_arg4) :=
  StageTab.st_main_arg4 m c

/-! ## The four buffers the result is joined from -/

/-- The cross-entropy term. -/
theorem ra_v24 : (RA m c (Proc.devRef .tc main_v24) : FVec Ideal S_ .f32)
    = Read.val_main_v24 (F := Ideal) (m ((c.tc : Thread nD τ).loc main_arg0)) (m ((c.tc : Thread nD τ).loc main_arg3)) (m ((c.tc : Thread nD τ).loc main_arg4)) :=
  StageTab.st_main_v24 m c

/-- The number of pairs. -/
theorem ra_v0 : (RA m c (Proc.devRef .tc main_v0) : FVec Ideal S_ .f32) = Read.val_main_v0 (F := Ideal) :=
  StageTab.st_main_v0 m c

/-- The chamfer loss of every pair. -/
theorem ra_v57 : (RA m c (Proc.devRef .tc main_v57) : FVec Ideal S32x128 .f32)
    = Read.val_main_v57 (F := Ideal) (m ((c.tc : Thread nD τ).loc main_arg1)) (m ((c.tc : Thread nD τ).loc main_arg2)) (m ((c.tc : Thread nD τ).loc main_arg3)) :=
  StageTab.st_main_v57 m c

/-- The direction loss of every pair. -/
theorem ra_v83 : (RA m c (Proc.devRef .tc main_v83) : FVec Ideal S32x128 .f32)
    = Read.val_main_v83 (F := Ideal) (m ((c.tc : Thread nD τ).loc main_arg1)) (m ((c.tc : Thread nD τ).loc main_arg2)) (m ((c.tc : Thread nD τ).loc main_arg3)) :=
  StageTab.st_main_v83 m c

/-! ## The result -/

/-- The reference's result as the join of its four stage values: the last stage is the concatenation of the three
    one-element broadcasts of the cross-entropy term and of the two totals over the number of pairs. -/
theorem ref_result : (RA m c (Proc.devRef .tc main_v89) : FVec Ideal S3 .f32)
    = Cert.KernelIdeal.KValue.lossVec (Read.val_main_v24 (F := Ideal) (m ((c.tc : Thread nD τ).loc main_arg0)) (m ((c.tc : Thread nD τ).loc main_arg3)) (m ((c.tc : Thread nD τ).loc main_arg4)))
        (Read.val_main_v0 (F := Ideal))
        (Read.val_main_v57 (F := Ideal) (m ((c.tc : Thread nD τ).loc main_arg1)) (m ((c.tc : Thread nD τ).loc main_arg2)) (m ((c.tc : Thread nD τ).loc main_arg3)))
        (Read.val_main_v83 (F := Ideal) (m ((c.tc : Thread nD τ).loc main_arg1)) (m ((c.tc : Thread nD τ).loc main_arg2)) (m ((c.tc : Thread nD τ).loc main_arg3))) :=
  (StageTab.st_main_v89 m c).trans rfl

/-- The same, over the four buffers themselves. -/
theorem ra_v89 : (RA m c (Proc.devRef .tc main_v89) : FVec Ideal S3 .f32)
    = Cert.KernelIdeal.KValue.lossVec (RA m c (Proc.devRef .tc main_v24)) (RA m c (Proc.devRef .tc main_v0))
        (RA m c (Proc.devRef .tc main_v57)) (RA m c (Proc.devRef .tc main_v83)) := by
  rw [ra_v24 m c, ra_v0 m c, ra_v57 m c, ra_v83 m c]
  exact ref_result m c

end Cert.ReferenceIdeal.RefValue

end
-- ==== Proof.lean ====
/-
  The claim: the kernel's program and its idealization run, fault nowhere and keep their arguments; the reference does too; the
  idealization rewrote nothing; and at the ideal values the two programs end with the same array of three losses.

  Both programs compute, from the same arguments by the same host lines, the cross-entropy term, the number of pairs and the
  gathered matched polylines g (one predicted polyline per target polyline a). What differs is how the other two terms are
  reached. The kernel's program lays the x and y planes of g and a out as (batch, point, pair), and its one region, eight batch
  rows per grid point, writes for every pair the mean-of-minima L1 distance between the two polylines (each minimum a fold of min
  from +∞ over 64 points, each mean a sum over 64 points divided by 64, the two means added and halved) and one minus the cosine
  of their start-to-end vectors (each normalised by its length plus ε); the host lines after the region total each array and
  divide by the number of pairs. The reference computes the same two arrays in the layout (batch, pair, point, point,
  coordinate), its sums over the two coordinates written as 0 + x + y and its factor one half on the right. On the extended
  reals these are the same numbers whatever the inputs: only 0 + x = x, the commutativity of the product and the layouts are
  used, so the finiteness of the inputs is never needed.
-/
import proofs.«155109_j52398601012070_2_alg».proof.Defs
import proofs.«155109_j52398601012070_2_alg».proof.Proof.Gen.Kernel
import proofs.«155109_j52398601012070_2_alg».proof.Proof.Gen.KernelIdeal
import proofs.«155109_j52398601012070_2_alg».proof.Proof.Gen.ReferenceIdeal
import proofs.«155109_j52398601012070_2_alg».proof.Proof.Gen.Pre_finite_inputs
import proofs.«155109_j52398601012070_2_alg».proof.Proof.KFrame
import proofs.«155109_j52398601012070_2_alg».proof.Proof.KIFrame
import proofs.«155109_j52398601012070_2_alg».proof.Proof.KTail
import proofs.«155109_j52398601012070_2_alg».proof.Proof.KRef
import proofs.«155109_j52398601012070_2_alg».proof.Proof.RefRun
import proofs.«155109_j52398601012070_2_alg».proof.Proof.RefSpec
import proofs.«155109_j52398601012070_2_alg».proof.Proof.RefStages
import Idealize.ShloMosaic.Adequacy
import Idealize.ShloMosaic.Init

noncomputable section

namespace Cert.Proof

open Idealize.ShloMosaic Idealize.ShloMosaic.TcCoe Idealize.SL.Sem

/-- The kernel's program as printed runs, faults nowhere and keeps its arguments. -/
theorem frame_k : @Cert.frame_Kernel Cert.Kernel.Gen.facts Cert.Pre_finite_inputs.Gen.facts :=
  fun m ρ _ => Cert.Kernel.Frame.frame m ρ

/-- So does its idealization. -/
theorem frame_ki : @Cert.frame_KernelIdeal Cert.KernelIdeal.Gen.facts Cert.Pre_finite_inputs.Gen.facts :=
  fun m ρ _ => Cert.KernelIdeal.Frame.frame m ρ

/-- The reference is host operations only: its run leaves every argument buffer as launched. -/
theorem frame_ri : @Cert.frame_ReferenceIdeal Cert.ReferenceIdeal.Gen.facts Cert.Pre_finite_inputs.Gen.facts :=
  fun m ρ _ => (θ_run Cert.ReferenceIdeal.defs _ _).mono
    (fun _ h c => ⟨(h c Cert.ReferenceIdeal.main_arg0).trans (Cert.ReferenceIdeal.RefValue.ra_arg0 m c),
      (h c Cert.ReferenceIdeal.main_arg1).trans (Cert.ReferenceIdeal.RefValue.ra_arg1 m c),
      (h c Cert.ReferenceIdeal.main_arg2).trans (Cert.ReferenceIdeal.RefValue.ra_arg2 m c),
      (h c Cert.ReferenceIdeal.main_arg3).trans (Cert.ReferenceIdeal.RefValue.ra_arg3 m c),
      (h c Cert.ReferenceIdeal.main_arg4).trans (Cert.ReferenceIdeal.RefValue.ra_arg4 m c)⟩)
    (Cert.ReferenceIdeal.Value.run (F := Ideal) m ρ)

/-- The idealization rewrote no operation. -/
theorem preserves : Cert.preserves_Kernel_KernelIdeal := trivial

open Cert.KernelIdeal.Frame Cert.KernelIdeal.KValue Cert.Polyline in
/-- At the ideal values both programs end with the join of the same three losses. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => lossVec (V m c Cert.KernelIdeal.main_v24) (V m c Cert.KernelIdeal.main_v0)
      (chamferArr (gat m c) (tgt m c)) (directionArr (gat m c) (tgt m c)), ?_, ?_⟩
  · refine (θ_run Cert.KernelIdeal.defs _ _).mono (fun r h c => ⟨?_, ?_, ?_, ?_, ?_, ?_⟩) (run_main m ρ)
    · exact ((h c).2 Cert.KernelIdeal.main_v60 (Pipeline.mem_restRefs_of Cert.KernelIdeal.main_v60 (by decide) (by decide))).trans (tail_eq m c)
    · exact ((h c).2 Cert.KernelIdeal.main_arg0 (Pipeline.mem_restRefs_of Cert.KernelIdeal.main_arg0 (by decide) (by decide))).trans (W_main_arg0 m (dats m) c)
    · exact ((h c).2 Cert.KernelIdeal.main_arg1 (Pipeline.mem_restRefs_of Cert.KernelIdeal.main_arg1 (by decide) (by decide))).trans (W_main_arg1 m (dats m) c)
    · exact ((h c).2 Cert.KernelIdeal.main_arg2 (Pipeline.mem_restRefs_of Cert.KernelIdeal.main_arg2 (by decide) (by decide))).trans (W_main_arg2 m (dats m) c)
    · exact ((h c).2 Cert.KernelIdeal.main_arg3 (Pipeline.mem_restRefs_of Cert.KernelIdeal.main_arg3 (by decide) (by decide))).trans (W_main_arg3 m (dats m) c)
    · exact ((h c).2 Cert.KernelIdeal.main_arg4 (Pipeline.mem_restRefs_of Cert.KernelIdeal.main_arg4 (by decide) (by decide))).trans (W_main_arg4 m (dats m) c)
  · refine (θ_run Cert.ReferenceIdeal.defs _ _).mono (fun r h c => ⟨?_,
      (h c Cert.ReferenceIdeal.main_arg0).trans (Cert.ReferenceIdeal.RefValue.ra_arg0 m' c),
      (h c Cert.ReferenceIdeal.main_arg1).trans (Cert.ReferenceIdeal.RefValue.ra_arg1 m' c),
      (h c Cert.ReferenceIdeal.main_arg2).trans (Cert.ReferenceIdeal.RefValue.ra_arg2 m' c),
      (h c Cert.ReferenceIdeal.main_arg3).trans (Cert.ReferenceIdeal.RefValue.ra_arg3 m' c),
      (h c Cert.ReferenceIdeal.main_arg4).trans (Cert.ReferenceIdeal.RefValue.ra_arg4 m' c)⟩)
      (Cert.ReferenceIdeal.Value.run (F := Ideal) m' ρ')
    refine (h c Cert.ReferenceIdeal.main_v89).trans ?_
    refine (Cert.ReferenceIdeal.RefValue.ref_result m' c).trans ?_
    rw [Cert.ReferenceIdeal.RefValue.ref_chamfer, Cert.ReferenceIdeal.RefValue.ref_direction,
      (hagree c).1, (hagree c).2.1, (hagree c).2.2.1, (hagree c).2.2.2.1, (hagree c).2.2.2.2]
    show _ = lossVec (V m c Cert.KernelIdeal.main_v24) (V m c Cert.KernelIdeal.main_v0)
      (chamferArr (gat m c) (tgt m c)) (directionArr (gat m c) (tgt m c))
    rw [Cert.Bridge.gat_eq m c, Cert.Bridge.tgt_eq m c, Cert.Bridge.ce_eq m c, Cert.Bridge.npairs_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
